-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S64x32 .f32) (main_arg12 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S64 .f32) (main_arg7 : FVec F S64x32 .f32) (main_arg8 : FVec F S32 .f32) (main_arg9 : FVec F S64x32 .f32) (main_arg10 : FVec F S32 .f32) (main_arg11 : FVec F S64x32 .f32) (main_arg12 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x3200000 32) (main_arg2 : IVec S2x3200000 32) (main_arg3 : FVec F S128x64 .f32) (main_arg4 : FVec F S64 .f32) (main_arg5 : FVec F S128x64 .f32) (main_arg6 : FVec F S64 .f32) (main_arg7 : FVec F S64x32 .f32) (main_arg8 : FVec F S32 .f32) (main_arg9 : FVec F S64x32 .f32) (main_arg10 : FVec F S32 .f32) (main_arg11 : FVec F S64x32 .f32) (main_arg12 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S32x32 : Shape := ⟨2, ![32, 32]⟩
abbrev S1x32 : Shape := ⟨2, ![1, 32]⟩
abbrev S10000 : Shape := ⟨1, ![10000]⟩
abbrev S10000x1 : Shape := ⟨2, ![10000, 1]⟩

abbrev nBuf : Space → Nat
  | .hbm => 129
  | .vmem => 31
  | .smem => 0
  | _ => 0

abbrev hbmTy0_0 (i : Nat) : BufTy := match i % 128 with
  | 0 => ⟨S100000x128, .f32⟩
  | 1 => ⟨S2x3200000, .i32⟩
  | 2 => ⟨S2x3200000, .i32⟩
  | 3 => ⟨S128x64, .f32⟩
  | 4 => ⟨S64, .f32⟩
  | 5 => ⟨S128x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S64x32, .f32⟩
  | 12 => ⟨S32, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S100000x64, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x64, .f32⟩
  | 64 => ⟨S3300000x1, .f32⟩
  | 65 => ⟨S3300000x64, .f32⟩
  | 66 => ⟨S3300000x64, .f32⟩
  | 67 => ⟨S_, .f32⟩
  | 68 => ⟨S100000x64, .f32⟩
  | 69 => ⟨S3300000x1, .i32⟩
  | 70 => ⟨S100000x64, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x64, .f32⟩
  | 80 => ⟨S3300000x1, .f32⟩
  | 81 => ⟨S3300000x64, .f32⟩
  | 82 => ⟨S3300000x64, .f32⟩
  | 83 => ⟨S_, .f32⟩
  | 84 => ⟨S100000x64, .f32⟩
  | 85 => ⟨S3300000x1, .i32⟩
  | 86 => ⟨S100000x64, .f32⟩
  | 87 => ⟨S1x64, .f32⟩
  | 88 => ⟨S1x64, .f32⟩
  | 89 => ⟨S100000x32, .f32⟩
  | 90 => ⟨S100000x32, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000x32, .f32⟩
  | 100 => ⟨S3300000x1, .f32⟩
  | 101 => ⟨S3300000x32, .f32⟩
  | 102 => ⟨S3300000x32, .f32⟩
  | 103 => ⟨S_, .f32⟩
  | 104 => ⟨S100000x32, .f32⟩
  | 105 => ⟨S3300000x1, .i32⟩
  | 106 => ⟨S100000x32, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x32, .f32⟩
  | 116 => ⟨S3300000x1, .f32⟩
  | 117 => ⟨S3300000x32, .f32⟩
  | 118 => ⟨S3300000x32, .f32⟩
  | 119 => ⟨S_, .f32⟩
  | 120 => ⟨S100000x32, .f32⟩
  | 121 => ⟨S3300000x1, .i32⟩
  | 122 => ⟨S100000x32, .f32⟩
  | 123 => ⟨S32x32, .f32⟩
  | 124 => ⟨S32x32, .f32⟩
  | 125 => ⟨S1x32, .f32⟩
  | 126 => ⟨S1x32, .f32⟩
  | 127 => ⟨S1x32, .f32⟩
  | _ => ⟨S100000x128, .f32⟩

abbrev hbmTy0_1 (i : Nat) : BufTy := match i % 128 with
  | 0 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S128x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S64x32, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S64x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S1x32, .f32⟩
  | .local _ .vmem, ⟨23, _⟩ => ⟨S32x32, .f32⟩
  | .local _ .vmem, ⟨24, _⟩ => ⟨S10000x32, .f32⟩
  | .local _ .vmem, ⟨25, _⟩ => ⟨S10000x32, .f32⟩
  | .local _ .vmem, ⟨26, _⟩ => ⟨S1x32, .f32⟩
  | .local _ .vmem, ⟨27, _⟩ => ⟨S32x32, .f32⟩
  | .local _ .vmem, ⟨28, _⟩ => ⟨S1x32, .f32⟩
  | .local _ .vmem, ⟨29, _⟩ => ⟨S10000x32, .f32⟩
  | .local _ .vmem, ⟨30, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59_0 : Ref sig .tc := ⟨.hbm, 89, rfl⟩
abbrev main_v59_1 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_15 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  slices_S64x32_S32x32_0_0 : S64x32.Slices ![0, 0] S32x32
  slices_S64x32_S32x32_32_0 : S64x32.Slices ![32, 0] S32x32
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S10000x32_S10000 : S10000x32.Reduces [1] S10000
  shapeCasts_S10000_S10000x1 : S10000.ShapeCasts S10000x1
  broadcasts_S10000x1_S10000x32 : S10000x1.Broadcasts S10000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x32.size a ≤ S100000x32.size a
  hwx2_7 : ∀ i : grid2.Coords, EltTy.bits .f32 = 32 ∨ (Rect.block (s := S100000x32) S10000x32.size (cc2_transform_7 i) (hinb2_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S10000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v59_0) S10000x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v59_1) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v72) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S10000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v89) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v90) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S10000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x3200000, .i32⟩
  | 2 => ⟨S2x3200000, .i32⟩
  | 3 => ⟨S128x64, .f32⟩
  | 4 => ⟨S64, .f32⟩
  | 5 => ⟨S128x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S64x32, .f32⟩
  | 12 => ⟨S32, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x64, .f32⟩
  | 86 => ⟨S3300000x1, .f32⟩
  | 87 => ⟨S3300000x64, .f32⟩
  | 88 => ⟨S3300000x64, .f32⟩
  | 89 => ⟨S_, .f32⟩
  | 90 => ⟨S100000x64, .f32⟩
  | 91 => ⟨S3300000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x32, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x32, .f32⟩
  | 109 => ⟨S3300000x1, .f32⟩
  | 110 => ⟨S3300000x32, .f32⟩
  | 111 => ⟨S3300000x32, .f32⟩
  | 112 => ⟨S_, .f32⟩
  | 113 => ⟨S100000x32, .f32⟩
  | 114 => ⟨S3300000x1, .i32⟩
  | 115 => ⟨S100000x32, .f32⟩
  | 116 => ⟨S1x32, .f32⟩
  | 117 => ⟨S100000x32, .f32⟩
  | 118 => ⟨S100000x32, .f32⟩
  | 119 => ⟨S100000x32, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x128, .f32⟩

abbrev hbmTy0_1 (i : Nat) : BufTy := match i % 128 with
  | 0 => ⟨S3300000x32, .f32⟩
  | 1 => ⟨S3300000x1, .f32⟩
  | 2 => ⟨S3300000x32, .f32⟩
  | 3 => ⟨S3300000x32, .f32⟩
  | 4 => ⟨S_, .f32⟩
  | 5 => ⟨S100000x32, .f32⟩
  | 6 => ⟨S3300000x1, .i32⟩
  | 7 => ⟨S100000x32, .f32⟩
  | 8 => ⟨S1x32, .f32⟩
  | 9 => ⟨S100000x32, .f32⟩
  | 10 => ⟨S100000x32, .f32⟩
  | 11 => ⟨S100000x64, .f32⟩
  | 12 => ⟨S100000x32, .f32⟩
  | 13 => ⟨S1x32, .f32⟩
  | 14 => ⟨S100000x32, .f32⟩
  | 15 => ⟨S100000x32, .f32⟩
  | 16 => ⟨S_, .f32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x32, .f32⟩
  | 23 => ⟨S100000x32, .f32⟩
  | 24 => ⟨S100000x32, .f32⟩
  | 25 => ⟨S_, .f32⟩
  | 26 => ⟨S100000, .f32⟩
  | 27 => ⟨S100000x1, .f32⟩
  | 28 => ⟨S100000x1, .f32⟩
  | 29 => ⟨S100000x32, .f32⟩
  | 30 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_12 : Ref sig .tc := ⟨.hbm, 100, rfl⟩
abbrev main_v67 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_15 : Ref sig .tc := ⟨.hbm, 120, rfl⟩
abbrev main_v84 : Ref sig .tc := ⟨.hbm, 121, rfl⟩
abbrev main_v85 : Ref sig .tc := ⟨.hbm, 122, rfl⟩
abbrev main_c_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call3_cst : Ref sig .tc := ⟨.hbm, 144, rfl⟩
abbrev main_call3_v0 : Ref sig .tc := ⟨.hbm, 145, rfl⟩
abbrev main_call3_cst_0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_1 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_v105 : Ref sig .tc := ⟨.hbm, 158, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KernelRun.lean ====
import proofs.«175872_j37838661877984_1_alg».proof.Proof.Gen.KernelIdeal.Frame

/-!
The idealized kernel program's run, with the contents of every buffer at the return named.

The program is three grid sweeps separated by stretches of host operations. Its buffer contents at each boundary are a
fold from the launch memory: a stretch of host operations rewrites its result buffers, a sweep rewrites its output
arrays by the blocks its grid points write back. Every weakly fair execution terminates, without a fault, in a state
whose unscoped buffers hold the last stage of that fold. The value of the result buffer is read off that stage in the
modules that import this one.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in its final state every unscoped
    buffer of every core holds the last stage of the fold of the program's segments over the launch memory. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.Chain.lean ====
import proofs.«175872_j37838661877984_1_alg».proof.Proof.Gen.ReferenceIdeal

/-!
The operations the two programs share, as named functions of arrays.

Both programs compute, for a graph given by an edge list, two branches of two graph-convolution layers each and a
linear head followed by a row-wise log-softmax. A layer multiplies the node features by a weight matrix, gathers each
edge's source row, scales it by the edge's normalisation, adds the scaled rows up at the edge's target node, and adds a
bias. The edge list has every node's self-loop appended; the normalisation of an edge is the product of the inverse
square roots of its two endpoints' degrees, zero where a degree is not positive.

Everything here is a plain function of whole arrays: the gathers and scatter-additions are never opened by the proof,
they are carried as they stand on both sides.
-/

noncomputable section

namespace Cert.Chain

open Cert.ReferenceIdeal Cert.ReferenceIdeal.Gen Idealize.ShloMosaic

variable {F : FTy → Type} [FloatOps F]

/-- The source endpoint of every edge, the self-loops' after the given edges'. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target endpoint of every edge, the self-loops' after the given edges'. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers as a gather's index column, a negative one counted from the end. -/
def wrapIdx (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- Node numbers as a scatter's index column. -/
def colIdx (v : (⟨S3300000, .i32⟩ : BufTy).Contents (Elt F)) : (⟨S3300000x1, .i32⟩ : BufTy).Contents (Elt F) :=
  broadcastInDim S3300000x1 ![0] bcast_S3300000_S3300000x1_0 v

/-- The degree of every node: one per edge, added up at the edge's target. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (colIdx dst) (broadcastInDim S3300000 ![] bcast_S_S3300000 (constant S_ .f32 0x3F800000#32))

/-- The inverse square root of every node's degree, zero where the degree is not positive. -/
def degInv (dst : (⟨S3300000, .i32⟩ : BufTy).Contents (Elt F)) : (⟨S100000, .f32⟩ : BufTy).Contents (Elt F) :=
  select (cmpf (F := F) .ogt (degree dst) (broadcastInDim S100000 ![] bcast_S_S100000 (constant S_ .f32 0x00000000#32))) (Host.rsqrt (degree dst)) (broadcastInDim S100000 ![] bcast_S_S100000 (id (constant S_ .f32 0x00000000#32)))

/-- Every edge's normalisation: the product of its endpoints' inverse-square-root degrees. -/
def edgeNorm (src dst : (⟨S3300000, .i32⟩ : BufTy).Contents (Elt F)) : (⟨S3300000, .f32⟩ : BufTy).Contents (Elt F) :=
  mulf (Host.gather gather_S100000_S3300000x1_S3300000_n_0_n_n_0_1_1 (degInv dst) (wrapIdx src)) (Host.gather gather_S100000_S3300000x1_S3300000_n_0_n_n_0_1_1 (degInv dst) (wrapIdx dst))

/-- Message passing on 64 features: each edge's source row, scaled by the edge's normalisation, added up at its target. -/
def agg64 (src dst : (⟨S3300000, .i32⟩ : BufTy).Contents (Elt F)) (nrm : (⟨S3300000, .f32⟩ : BufTy).Contents (Elt F))
    (h : (⟨S100000x64, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (colIdx dst) (mulf (Host.gather gather_S100000x64_S3300000x1_S3300000x64_1_0_n_n_0_1_164 h (wrapIdx src)) (broadcastInDim S3300000x64 ![0, 1] bcast_S3300000x1_S3300000x64_0_1 (broadcastInDim S3300000x1 ![0] bcast_S3300000_S3300000x1_0 nrm)))

/-- Message passing on 32 features. -/
def agg32 (src dst : (⟨S3300000, .i32⟩ : BufTy).Contents (Elt F)) (nrm : (⟨S3300000, .f32⟩ : BufTy).Contents (Elt F))
    (h : (⟨S100000x32, .f32⟩ : BufTy).Contents (Elt F)) : (⟨S100000x32, .f32⟩ : BufTy).Contents (Elt F) :=
  Host.scatterAdd scatter_S100000x32_S3300000x1_S3300000x32_1_0_0_1 (broadcastInDim S100000x32 ![] bcast_S_S100000x32 (constant S_ .f32 0x00000000#32)) (colIdx dst) (mulf (Host.gather gather_S100000x32_S3300000x1_S3300000x32_1_0_n_n_0_1_132 h (wrapIdx src)) (broadcastInDim S3300000x32 ![0, 1] bcast_S3300000x1_S3300000x32_0_1 (broadcastInDim S3300000x1 ![0] bcast_S3300000_S3300000x1_0 nrm)))

/-- A 64-entry bias as a row added to every node. -/
def bias64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- A 32-entry bias as a row added to every node. -/
def bias32 (b : (⟨S32, .f32⟩ : BufTy).Contents (Elt F)) : (⟨S100000x32, .f32⟩ : BufTy).Contents (Elt F) :=
  broadcastInDim S100000x32 ![0, 1] bcast_S1x32_S100000x32_0_1 (broadcastInDim S1x32 ![1] bcast_S32_S1x32_1 b)

/-- The first layer's dense product: node features times a 128 by 64 weight matrix. -/
def mm1 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- A dense product with a 64 by 32 weight matrix (the second layer's, and the head's). -/
def mm2 (a : (⟨S100000x64, .f32⟩ : BufTy).Contents (Elt F)) (w : (⟨S64x32, .f32⟩ : BufTy).Contents (Elt F)) : (⟨S100000x32, .f32⟩ : BufTy).Contents (Elt F) :=
  Host.dotGeneral dot_S100000x64_S64x32_S100000x32_1_0_0_1_n_n none a w

/-- Bias, then the positive part. -/
def reluBias (a : (⟨S100000x64, .f32⟩ : BufTy).Contents (Elt F)) (b : (⟨S64, .f32⟩ : BufTy).Contents (Elt F)) : (⟨S100000x64, .f32⟩ : BufTy).Contents (Elt F) :=
  maximumf (addf a (bias64 b)) (broadcastInDim S100000x64 ![] bcast_S_S100000x64 (constant S_ .f32 0x00000000#32))

/-- The two branches side by side: 32 features each, 64 together. -/
def cat (g h : (⟨S100000x32, .f32⟩ : BufTy).Contents (Elt F)) : (⟨S100000x64, .f32⟩ : BufTy).Contents (Elt F) :=
  concatenate S100000x64 1 [⟨S100000x32, g⟩, ⟨S100000x32, h⟩] concatenates_S100000x32_S100000x32_S100000x64_d1

/-- Every row's largest entry (from minus infinity). -/
def rowMax (X : (⟨S100000x32, .f32⟩ : BufTy).Contents (Elt F)) : (⟨S100000, .f32⟩ : BufTy).Contents (Elt F) :=
  maximumf (broadcastInDim S100000 ![] bcast_S_S100000 (constant S_ .f32 0xFF800000#32)) (Host.reduce FloatOps.maximumf X (constant S_ .f32 0xFF800000#32) reducesTo_S100000x32_S100000_d1 h_S_)

/-- Every row with its largest entry subtracted. -/
def shifted (X : (⟨S100000x32, .f32⟩ : BufTy).Contents (Elt F)) : (⟨S100000x32, .f32⟩ : BufTy).Contents (Elt F) :=
  subf X (broadcastInDim S100000x32 ![0, 1] bcast_S100000x1_S100000x32_0_1 (broadcastInDim S100000x1 ![0] bcast_S100000_S100000x1_0 (rowMax X)))

/-- The row-wise log-softmax: the shifted row minus the logarithm of the sum of its exponentials. -/
def logSoftmax (X : (⟨S100000x32, .f32⟩ : BufTy).Contents (Elt F)) : (⟨S100000x32, .f32⟩ : BufTy).Contents (Elt F) :=
  subf (shifted X) (broadcastInDim S100000x32 ![0, 1] bcast_S100000x1_S100000x32_0_1 (Host.log (broadcastInDim S100000x1 ![0] bcast_S100000_S100000x1_0 (Host.reduceAdd (Host.exp (shifted X)) (constant S_ .f32 0x00000000#32) reducesTo_S100000x32_S100000_d1 h_S_))))

/-- The head: the two branches side by side times the head's weights, plus its bias, then the log-softmax. -/
def headOut (g h : (⟨S100000x32, .f32⟩ : BufTy).Contents (Elt F)) (w : (⟨S64x32, .f32⟩ : BufTy).Contents (Elt F))
    (b : (⟨S32, .f32⟩ : BufTy).Contents (Elt F)) : (⟨S100000x32, .f32⟩ : BufTy).Contents (Elt F) :=
  logSoftmax (addf (mm2 (cat g h) w) (bias32 b))

/-- One branch: two layers of message passing, the positive part between them. -/
def branch (src dst : (⟨S3300000, .i32⟩ : BufTy).Contents (Elt F)) (nrm : (⟨S3300000, .f32⟩ : BufTy).Contents (Elt F))
    (x : (⟨S100000x128, .f32⟩ : BufTy).Contents (Elt F)) (w1 : (⟨S128x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F)) : (⟨S100000x32, .f32⟩ : BufTy).Contents (Elt F) :=
  addf (agg32 src dst nrm (mm2 (reluBias (agg64 src dst nrm (mm1 x w1)) b1) w2)) (bias32 b2)

/-- The whole network as one function of the thirteen arguments that are used (the second edge list is not). -/
def network (x : (⟨S100000x128, .f32⟩ : BufTy).Contents (Elt F)) (e : (⟨S2x3200000, .i32⟩ : BufTy).Contents (Elt F))
    (w1 : (⟨S128x64, .f32⟩ : BufTy).Contents (Elt F)) (b1 : (⟨S64, .f32⟩ : BufTy).Contents (Elt F))
    (wh1 : (⟨S128x64, .f32⟩ : BufTy).Contents (Elt F)) (bh1 : (⟨S64, .f32⟩ : BufTy).Contents (Elt F))
    (w2 : (⟨S64x32, .f32⟩ : BufTy).Contents (Elt F)) (b2 : (⟨S32, .f32⟩ : BufTy).Contents (Elt F))
    (wh2 : (⟨S64x32, .f32⟩ : BufTy).Contents (Elt F)) (bh2 : (⟨S32, .f32⟩ : BufTy).Contents (Elt F))
    (wlp : (⟨S64x32, .f32⟩ : BufTy).Contents (Elt F)) (blp : (⟨S32, .f32⟩ : BufTy).Contents (Elt F)) : (⟨S100000x32, .f32⟩ : BufTy).Contents (Elt F) :=
  headOut (branch (srcOf e) (dstOf e) (edgeNorm (srcOf e) (dstOf e)) x w1 b1 w2 b2)
    (branch (srcOf e) (dstOf e) (edgeNorm (srcOf e) (dstOf e)) x wh1 bh1 wh2 bh2) wlp blp

end Cert.Chain

end
-- ==== Proof.Fold.lean ====
import proofs.«175872_j37838661877984_1_alg».proof.Proof.Gen.KernelIdeal.Frame
import proofs.«175872_j37838661877984_1_alg».proof.Proof.Chain

/-!
The contents of the buffers the three grid sweeps read, walked back through the program's stretches of host operations.

A buffer no operation of a stretch writes keeps its contents across the stretch, and a buffer that is not one of a
sweep's arrays keeps its contents across the sweep; a buffer a stretch does write holds that operation's function of
its operands' contents. So the edge list's endpoints and normalisations, computed before the first sweep, are still
there before the second and the third; each sweep's inputs are the message passing of the previous sweep's outputs.
-/

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-! ## Before the first sweep -/

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) _ = _
  simp only [hostOps0, hostOps0_1, hostOps0_2]; after_results_simp <;> rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) _ = _
  simp only [hostOps0, hostOps0_1, hostOps0_2]; after_results_simp <;> rfl

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) _ = _
  simp only [hostOps0, hostOps0_1, hostOps0_2]; after_results_simp <;> rfl

theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) _ = _
  simp only [hostOps0, hostOps0_1, hostOps0_2]; after_results_simp <;> rfl

theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) _ = _
  simp only [hostOps0, hostOps0_1, hostOps0_2]; after_results_simp <;> rfl

theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) _ = _
  simp only [hostOps0, hostOps0_1, hostOps0_2]; after_results_simp <;> rfl

theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) _ = _
  simp only [hostOps0, hostOps0_1, hostOps0_2]; after_results_simp <;> rfl

theorem W3_arg9 (c : Dev nD) : W3 m ρ c (Proc.devRef .tc main_arg9) = m ((c : Thread nD τ).loc main_arg9) := by
  show StableHlo.after hostOps0_2 (StableHlo.after hostOps0_1 (StableHlo.after hostOps0 (W0 m ρ c))) _ = _
  simp only [hostOps0, hostOps0_1, hostOps0_2]; after_results_simp <;> rfl

theorem W3_arg10 (c : Dev nD) : W3 m ρ c (Proc.devRef .tc main_arg10) = m ((c : Thread nD τ).loc main_arg10) := by
  show StableHlo.after hostOps0_2 (StableHlo.after hostOps0_1 (StableHlo.after hostOps0 (W0 m ρ c))) _ = _
  simp only [hostOps0, hostOps0_1, hostOps0_2]; after_results_simp <;> rfl

theorem W3_arg11 (c : Dev nD) : W3 m ρ c (Proc.devRef .tc main_arg11) = m ((c : Thread nD τ).loc main_arg11) := by
  show StableHlo.after hostOps0_2 (StableHlo.after hostOps0_1 (StableHlo.after hostOps0 (W0 m ρ c))) _ = _
  simp only [hostOps0, hostOps0_1, hostOps0_2]; after_results_simp <;> rfl

theorem W3_arg12 (c : Dev nD) : W3 m ρ c (Proc.devRef .tc main_arg12) = m ((c : Thread nD τ).loc main_arg12) := by
  show StableHlo.after hostOps0_2 (StableHlo.after hostOps0_1 (StableHlo.after hostOps0 (W0 m ρ c))) _ = _
  simp only [hostOps0, hostOps0_1, hostOps0_2]; after_results_simp <;> rfl

/-- The edges' source endpoints, as the first stretch of host operations leaves them. -/
theorem W3_src (c : Dev nD) : W3 m ρ c (Proc.devRef .tc main_v3) = Cert.Chain.srcOf (m ((c : Thread nD τ).loc main_arg1)) := by
  show StableHlo.after hostOps0_2 (StableHlo.after hostOps0_1 (StableHlo.after hostOps0 (W0 m ρ c))) _ = _
  simp only [hostOps0, hostOps0_1, hostOps0_2]; after_results_simp <;> rfl

/-- The edges' target endpoints. -/
theorem W3_dst (c : Dev nD) : W3 m ρ c (Proc.devRef .tc main_v6) = Cert.Chain.dstOf (m ((c : Thread nD τ).loc main_arg1)) := by
  show StableHlo.after hostOps0_2 (StableHlo.after hostOps0_1 (StableHlo.after hostOps0 (W0 m ρ c))) _ = _
  simp only [hostOps0, hostOps0_1, hostOps0_2]; after_results_simp <;> rfl

/-- The edges' normalisations. -/
theorem W3_nrm (c : Dev nD) : W3 m ρ c (Proc.devRef .tc main_v29) = Cert.Chain.edgeNorm (Cert.Chain.srcOf (m ((c : Thread nD τ).loc main_arg1))) (Cert.Chain.dstOf (m ((c : Thread nD τ).loc main_arg1))) := by
  show StableHlo.after hostOps0_2 (StableHlo.after hostOps0_1 (StableHlo.after hostOps0 (W0 m ρ c))) _ = _
  simp only [hostOps0, hostOps0_1, hostOps0_2]; after_results_simp <;> rfl

/-! ## After the first sweep -/

theorem W4_src (c : Dev nD) : W4 m ρ c (Proc.devRef .tc main_v3) = Cert.Chain.srcOf (m ((c : Thread nD τ).loc main_arg1)) :=
  (W4_of_ne m ρ c main_v3 (by decide)).trans (W3_src m ρ c)

theorem W4_dst (c : Dev nD) : W4 m ρ c (Proc.devRef .tc main_v6) = Cert.Chain.dstOf (m ((c : Thread nD τ).loc main_arg1)) :=
  (W4_of_ne m ρ c main_v6 (by decide)).trans (W3_dst m ρ c)

theorem W4_nrm (c : Dev nD) : W4 m ρ c (Proc.devRef .tc main_v29) = Cert.Chain.edgeNorm (Cert.Chain.srcOf (m ((c : Thread nD τ).loc main_arg1))) (Cert.Chain.dstOf (m ((c : Thread nD τ).loc main_arg1))) :=
  (W4_of_ne m ρ c main_v29 (by decide)).trans (W3_nrm m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

theorem W4_arg10 (c : Dev nD) : W4 m ρ c (Proc.devRef .tc main_arg10) = m ((c : Thread nD τ).loc main_arg10) :=
  (W4_of_ne m ρ c main_arg10 (by decide)).trans (W3_arg10 m ρ c)

theorem W4_arg11 (c : Dev nD) : W4 m ρ c (Proc.devRef .tc main_arg11) = m ((c : Thread nD τ).loc main_arg11) :=
  (W4_of_ne m ρ c main_arg11 (by decide)).trans (W3_arg11 m ρ c)

theorem W4_arg12 (c : Dev nD) : W4 m ρ c (Proc.devRef .tc main_arg12) = m ((c : Thread nD τ).loc main_arg12) :=
  (W4_of_ne m ρ c main_arg12 (by decide)).trans (W3_arg12 m ρ c)

/-- The first branch's dense product, as the first sweep's write-backs leave it. -/
theorem W4_out3 (c : Dev nD) : W4 m ρ c (Proc.devRef .tc main_v30_0) = (dat0 (V3 m ρ) c).arrAt 3 cfg0.N :=
  W4_arr m ρ c 3

/-- The second branch's. -/
theorem W4_out4 (c : Dev nD) : W4 m ρ c (Proc.devRef .tc main_v30_1) = (dat0 (V3 m ρ) c).arrAt 4 cfg0.N :=
  W4_arr m ρ c 4

/-! ## Before the second sweep: the first layer's message passing -/

theorem W5_src (c : Dev nD) : W5 m ρ c (Proc.devRef .tc main_v3) = Cert.Chain.srcOf (m ((c : Thread nD τ).loc main_arg1)) :=
  (show StableHlo.after hostOps1 (W4 m ρ c) (Proc.devRef .tc main_v3) = W4 m ρ c (Proc.devRef .tc main_v3) from by
    simp only [hostOps1]; after_results_simp).trans (W4_src m ρ c)

theorem W5_dst (c : Dev nD) : W5 m ρ c (Proc.devRef .tc main_v6) = Cert.Chain.dstOf (m ((c : Thread nD τ).loc main_arg1)) :=
  (show StableHlo.after hostOps1 (W4 m ρ c) (Proc.devRef .tc main_v6) = W4 m ρ c (Proc.devRef .tc main_v6) from by
    simp only [hostOps1]; after_results_simp).trans (W4_dst m ρ c)

theorem W5_nrm (c : Dev nD) : W5 m ρ c (Proc.devRef .tc main_v29) = Cert.Chain.edgeNorm (Cert.Chain.srcOf (m ((c : Thread nD τ).loc main_arg1))) (Cert.Chain.dstOf (m ((c : Thread nD τ).loc main_arg1))) :=
  (show StableHlo.after hostOps1 (W4 m ρ c) (Proc.devRef .tc main_v29) = W4 m ρ c (Proc.devRef .tc main_v29) from by
    simp only [hostOps1]; after_results_simp).trans (W4_nrm m ρ c)

theorem W5_arg7 (c : Dev nD) : W5 m ρ c (Proc.devRef .tc main_arg7) = m ((c : Thread nD τ).loc main_arg7) :=
  (show StableHlo.after hostOps1 (W4 m ρ c) (Proc.devRef .tc main_arg7) = W4 m ρ c (Proc.devRef .tc main_arg7) from by
    simp only [hostOps1]; after_results_simp).trans (W4_arg7 m ρ c)

theorem W5_arg8 (c : Dev nD) : W5 m ρ c (Proc.devRef .tc main_arg8) = m ((c : Thread nD τ).loc main_arg8) :=
  (show StableHlo.after hostOps1 (W4 m ρ c) (Proc.devRef .tc main_arg8) = W4 m ρ c (Proc.devRef .tc main_arg8) from by
    simp only [hostOps1]; after_results_simp).trans (W4_arg8 m ρ c)

theorem W5_arg9 (c : Dev nD) : W5 m ρ c (Proc.devRef .tc main_arg9) = m ((c : Thread nD τ).loc main_arg9) :=
  (show StableHlo.after hostOps1 (W4 m ρ c) (Proc.devRef .tc main_arg9) = W4 m ρ c (Proc.devRef .tc main_arg9) from by
    simp only [hostOps1]; after_results_simp).trans (W4_arg9 m ρ c)

theorem W5_arg10 (c : Dev nD) : W5 m ρ c (Proc.devRef .tc main_arg10) = m ((c : Thread nD τ).loc main_arg10) :=
  (show StableHlo.after hostOps1 (W4 m ρ c) (Proc.devRef .tc main_arg10) = W4 m ρ c (Proc.devRef .tc main_arg10) from by
    simp only [hostOps1]; after_results_simp).trans (W4_arg10 m ρ c)

theorem W5_arg11 (c : Dev nD) : W5 m ρ c (Proc.devRef .tc main_arg11) = m ((c : Thread nD τ).loc main_arg11) :=
  (show StableHlo.after hostOps1 (W4 m ρ c) (Proc.devRef .tc main_arg11) = W4 m ρ c (Proc.devRef .tc main_arg11) from by
    simp only [hostOps1]; after_results_simp).trans (W4_arg11 m ρ c)

theorem W5_arg12 (c : Dev nD) : W5 m ρ c (Proc.devRef .tc main_arg12) = m ((c : Thread nD τ).loc main_arg12) :=
  (show StableHlo.after hostOps1 (W4 m ρ c) (Proc.devRef .tc main_arg12) = W4 m ρ c (Proc.devRef .tc main_arg12) from by
    simp only [hostOps1]; after_results_simp).trans (W4_arg12 m ρ c)

/-- The first branch's first layer, gathered, scaled and added up at the targets. -/
theorem W5_agg_g (c : Dev nD) : W5 m ρ c (Proc.devRef .tc main_v43) = Cert.Chain.agg64 (Cert.Chain.srcOf (m ((c : Thread nD τ).loc main_arg1))) (Cert.Chain.dstOf (m ((c : Thread nD τ).loc main_arg1))) (Cert.Chain.edgeNorm (Cert.Chain.srcOf (m ((c : Thread nD τ).loc main_arg1))) (Cert.Chain.dstOf (m ((c : Thread nD τ).loc main_arg1)))) ((dat0 (V3 m ρ) c).arrAt 3 cfg0.N) :=
  by
  show StableHlo.after hostOps1 (W4 m ρ c) _ = _
  simp only [hostOps1]; after_results_simp
  rw [W4_src m ρ c, W4_dst m ρ c, W4_nrm m ρ c, W4_out3 m ρ c]
  rfl

/-- The second branch's. -/
theorem W5_agg_h (c : Dev nD) : W5 m ρ c (Proc.devRef .tc main_v56) = Cert.Chain.agg64 (Cert.Chain.srcOf (m ((c : Thread nD τ).loc main_arg1))) (Cert.Chain.dstOf (m ((c : Thread nD τ).loc main_arg1))) (Cert.Chain.edgeNorm (Cert.Chain.srcOf (m ((c : Thread nD τ).loc main_arg1))) (Cert.Chain.dstOf (m ((c : Thread nD τ).loc main_arg1)))) ((dat0 (V3 m ρ) c).arrAt 4 cfg0.N) :=
  by
  show StableHlo.after hostOps1 (W4 m ρ c) _ = _
  simp only [hostOps1]; after_results_simp
  rw [W4_src m ρ c, W4_dst m ρ c, W4_nrm m ρ c, W4_out4 m ρ c]
  rfl

/-- The first layer's bias as a one-row matrix. -/
theorem W5_b1 (c : Dev nD) : W5 m ρ c (Proc.devRef .tc main_v57) = shapeCast _ (m ((c : Thread nD τ).loc main_arg4)) shapeCasts_S64_S1x64 :=
  by
  show StableHlo.after hostOps1 (W4 m ρ c) _ = _
  simp only [hostOps1]; after_results_simp
  rw [W4_arg4 m ρ c]
  rfl

theorem W5_bh1 (c : Dev nD) : W5 m ρ c (Proc.devRef .tc main_v58) = shapeCast _ (m ((c : Thread nD τ).loc main_arg6)) shapeCasts_S64_S1x64 :=
  by
  show StableHlo.after hostOps1 (W4 m ρ c) _ = _
  simp only [hostOps1]; after_results_simp
  rw [W4_arg6 m ρ c]
  rfl

/-! ## After the second sweep -/

theorem W6_src (c : Dev nD) : W6 m ρ c (Proc.devRef .tc main_v3) = Cert.Chain.srcOf (m ((c : Thread nD τ).loc main_arg1)) :=
  (W6_of_ne m ρ c main_v3 (by decide)).trans (W5_src m ρ c)

theorem W6_dst (c : Dev nD) : W6 m ρ c (Proc.devRef .tc main_v6) = Cert.Chain.dstOf (m ((c : Thread nD τ).loc main_arg1)) :=
  (W6_of_ne m ρ c main_v6 (by decide)).trans (W5_dst m ρ c)

theorem W6_nrm (c : Dev nD) : W6 m ρ c (Proc.devRef .tc main_v29) = Cert.Chain.edgeNorm (Cert.Chain.srcOf (m ((c : Thread nD τ).loc main_arg1))) (Cert.Chain.dstOf (m ((c : Thread nD τ).loc main_arg1))) :=
  (W6_of_ne m ρ c main_v29 (by decide)).trans (W5_nrm m ρ c)

theorem W6_arg8 (c : Dev nD) : W6 m ρ c (Proc.devRef .tc main_arg8) = m ((c : Thread nD τ).loc main_arg8) :=
  (W6_of_ne m ρ c main_arg8 (by decide)).trans (W5_arg8 m ρ c)

theorem W6_arg10 (c : Dev nD) : W6 m ρ c (Proc.devRef .tc main_arg10) = m ((c : Thread nD τ).loc main_arg10) :=
  (W6_of_ne m ρ c main_arg10 (by decide)).trans (W5_arg10 m ρ c)

theorem W6_arg11 (c : Dev nD) : W6 m ρ c (Proc.devRef .tc main_arg11) = m ((c : Thread nD τ).loc main_arg11) :=
  (W6_of_ne m ρ c main_arg11 (by decide)).trans (W5_arg11 m ρ c)

theorem W6_arg12 (c : Dev nD) : W6 m ρ c (Proc.devRef .tc main_arg12) = m ((c : Thread nD τ).loc main_arg12) :=
  (W6_of_ne m ρ c main_arg12 (by decide)).trans (W5_arg12 m ρ c)

/-- The first branch's second dense product, as the second sweep's write-backs leave it. -/
theorem W6_out6 (c : Dev nD) : W6 m ρ c (Proc.devRef .tc main_v59_0) = (dat1 (V5 m ρ) c).arrAt 6 cfg1.N :=
  W6_arr m ρ c 6

/-- The second branch's. -/
theorem W6_out7 (c : Dev nD) : W6 m ρ c (Proc.devRef .tc main_v59_1) = (dat1 (V5 m ρ) c).arrAt 7 cfg1.N :=
  W6_arr m ρ c 7

/-! ## Before the third sweep: the second layer's message passing, the biases as rows, the head's weights in halves -/

theorem W7_agg_g (c : Dev nD) : W7 m ρ c (Proc.devRef .tc main_v72) = Cert.Chain.agg32 (Cert.Chain.srcOf (m ((c : Thread nD τ).loc main_arg1))) (Cert.Chain.dstOf (m ((c : Thread nD τ).loc main_arg1))) (Cert.Chain.edgeNorm (Cert.Chain.srcOf (m ((c : Thread nD τ).loc main_arg1))) (Cert.Chain.dstOf (m ((c : Thread nD τ).loc main_arg1)))) ((dat1 (V5 m ρ) c).arrAt 6 cfg1.N) :=
  by
  show StableHlo.after hostOps2 (W6 m ρ c) _ = _
  simp only [hostOps2]; after_results_simp
  rw [W6_src m ρ c, W6_dst m ρ c, W6_nrm m ρ c, W6_out6 m ρ c]
  rfl

theorem W7_agg_h (c : Dev nD) : W7 m ρ c (Proc.devRef .tc main_v85) = Cert.Chain.agg32 (Cert.Chain.srcOf (m ((c : Thread nD τ).loc main_arg1))) (Cert.Chain.dstOf (m ((c : Thread nD τ).loc main_arg1))) (Cert.Chain.edgeNorm (Cert.Chain.srcOf (m ((c : Thread nD τ).loc main_arg1))) (Cert.Chain.dstOf (m ((c : Thread nD τ).loc main_arg1)))) ((dat1 (V5 m ρ) c).arrAt 7 cfg1.N) :=
  by
  show StableHlo.after hostOps2 (W6 m ρ c) _ = _
  simp only [hostOps2]; after_results_simp
  rw [W6_src m ρ c, W6_dst m ρ c, W6_nrm m ρ c, W6_out7 m ρ c]
  rfl

theorem W7_b2 (c : Dev nD) : W7 m ρ c (Proc.devRef .tc main_v88) = shapeCast _ (m ((c : Thread nD τ).loc main_arg8)) shapeCasts_S32_S1x32 :=
  by
  show StableHlo.after hostOps2 (W6 m ρ c) _ = _
  simp only [hostOps2]; after_results_simp
  rw [W6_arg8 m ρ c]
  rfl

theorem W7_bh2 (c : Dev nD) : W7 m ρ c (Proc.devRef .tc main_v89) = shapeCast _ (m ((c : Thread nD τ).loc main_arg10)) shapeCasts_S32_S1x32 :=
  by
  show StableHlo.after hostOps2 (W6 m ρ c) _ = _
  simp only [hostOps2]; after_results_simp
  rw [W6_arg10 m ρ c]
  rfl

theorem W7_blp (c : Dev nD) : W7 m ρ c (Proc.devRef .tc main_v90) = shapeCast _ (m ((c : Thread nD τ).loc main_arg12)) shapeCasts_S32_S1x32 :=
  by
  show StableHlo.after hostOps2 (W6 m ρ c) _ = _
  simp only [hostOps2]; after_results_simp
  rw [W6_arg12 m ρ c]
  rfl

/-- The head's weights for the first branch: the upper 32 rows. -/
theorem W7_wtop (c : Dev nD) : W7 m ρ c (Proc.devRef .tc main_v86) = extractStridedSlice S32x32 ![0, 0] (m ((c : Thread nD τ).loc main_arg11)) slices_S64x32_S32x32_0_0 :=
  by
  show StableHlo.after hostOps2 (W6 m ρ c) _ = _
  simp only [hostOps2]; after_results_simp
  rw [W6_arg11 m ρ c]

/-- For the second branch: the lower 32 rows. -/
theorem W7_wbot (c : Dev nD) : W7 m ρ c (Proc.devRef .tc main_v87) = extractStridedSlice S32x32 ![32, 0] (m ((c : Thread nD τ).loc main_arg11)) slices_S64x32_S32x32_32_0 :=
  by
  show StableHlo.after hostOps2 (W6 m ρ c) _ = _
  simp only [hostOps2]; after_results_simp
  rw [W6_arg11 m ρ c]

end Cert.KernelIdeal.Fold

end
-- ==== Proof.Region0.lean ====
import proofs.«175872_j37838661877984_1_alg».proof.Proof.Gen.KernelIdeal.Frame
import proofs.«175872_j37838661877984_1_alg».proof.Proof.Chain
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-!
# The first region: two products of the node features with a weight matrix

The region walks the 100000 rows of the node features in ten blocks of 10000. At each block it multiplies the
block by each of two 128 by 64 weight matrices (both held whole) and writes the two 10000 by 64 results to the
matching row blocks of its two outputs.

Row r of a product x·W is ∑ₖ x[r,k]·W[k,j]: it reads row r of x and nothing else of x. So the product of a block
of rows is that block of rows of the product of the whole array, and the ten blocks, which tile the rows, leave
each output holding the whole product. Both sides are plain sums over the 128 shared coordinates of the same
products in the same order, so no law of arithmetic is used: the sums agree term by term.
-/

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

/-! ## The operand indices of the two products

At output entry (i₀, i₁) and shared coordinate s, a product of a matrix of rows with a weight matrix reads the left
operand at (i₀, s) and the right operand at (s, i₁). Once for a block of 10000 rows, once for all 100000. -/

theorem blk_lhs_row (i : S10000x64.Idx) (s : dot_S10000x128_S128x64_S10000x64_1_0_0_1_n_n.contr.Idx) : (dot_S10000x128_S128x64_S10000x64_1_0_0_1_n_n.lhsIdx i s 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem blk_lhs_col (i : S10000x64.Idx) (s : dot_S10000x128_S128x64_S10000x64_1_0_0_1_n_n.contr.Idx) : (dot_S10000x128_S128x64_S10000x64_1_0_0_1_n_n.lhsIdx i s 1).val = (s ⟨0, by decide⟩).val :=
  dot_S10000x128_S128x64_S10000x64_1_0_0_1_n_n.lhsIdx_val_of_single rfl i s
theorem blk_rhs_row (i : S10000x64.Idx) (s : dot_S10000x128_S128x64_S10000x64_1_0_0_1_n_n.contr.Idx) : (dot_S10000x128_S128x64_S10000x64_1_0_0_1_n_n.rhsIdx i s 0).val = (s ⟨0, by decide⟩).val :=
  dot_S10000x128_S128x64_S10000x64_1_0_0_1_n_n.rhsIdx_val_of_single rfl i s
theorem blk_rhs_col (i : S10000x64.Idx) (s : dot_S10000x128_S128x64_S10000x64_1_0_0_1_n_n.contr.Idx) : (dot_S10000x128_S128x64_S10000x64_1_0_0_1_n_n.rhsIdx i s 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem arr_lhs_row (i : Cert.ReferenceIdeal.S100000x64.Idx) (s : Cert.ReferenceIdeal.dot_S100000x128_S128x64_S100000x64_1_0_0_1_n_n.contr.Idx) : (Cert.ReferenceIdeal.dot_S100000x128_S128x64_S100000x64_1_0_0_1_n_n.lhsIdx i s 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem arr_lhs_col (i : Cert.ReferenceIdeal.S100000x64.Idx) (s : Cert.ReferenceIdeal.dot_S100000x128_S128x64_S100000x64_1_0_0_1_n_n.contr.Idx) : (Cert.ReferenceIdeal.dot_S100000x128_S128x64_S100000x64_1_0_0_1_n_n.lhsIdx i s 1).val = (s ⟨0, by decide⟩).val :=
  Cert.ReferenceIdeal.dot_S100000x128_S128x64_S100000x64_1_0_0_1_n_n.lhsIdx_val_of_single rfl i s
theorem arr_rhs_row (i : Cert.ReferenceIdeal.S100000x64.Idx) (s : Cert.ReferenceIdeal.dot_S100000x128_S128x64_S100000x64_1_0_0_1_n_n.contr.Idx) : (Cert.ReferenceIdeal.dot_S100000x128_S128x64_S100000x64_1_0_0_1_n_n.rhsIdx i s 0).val = (s ⟨0, by decide⟩).val :=
  Cert.ReferenceIdeal.dot_S100000x128_S128x64_S100000x64_1_0_0_1_n_n.rhsIdx_val_of_single rfl i s
theorem arr_rhs_col (i : Cert.ReferenceIdeal.S100000x64.Idx) (s : Cert.ReferenceIdeal.dot_S100000x128_S128x64_S100000x64_1_0_0_1_n_n.contr.Idx) : (Cert.ReferenceIdeal.dot_S100000x128_S128x64_S100000x64_1_0_0_1_n_n.rhsIdx i s 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-! ## The product of a block of rows, entry by entry -/

/-- Entry (p, q) of the product of a block of 10000 rows with a weight matrix: the sum over the 128 shared
    coordinates of row p's entries times column q's. The change of float format applied to both factors
    first is the identity on extended reals, and the accumulator the products are added into is zero. -/
theorem blockProduct_apply (x : Vec Ideal S10000x128 .f32) (w : Vec Ideal S128x64 .f32) (p : Fin 10000) (q : Fin 64) :
    k0_pay2 (F := Ideal) x w (ValueIdx.ix2 p q) = ∑ k : Fin 128, x (ValueIdx.ix2 p k) * w (ValueIdx.ix2 k q) := by
  unfold k0_pay2 k0_pay1
  simp only [matmul]
  rw [Ideal.matmul_constant_zero_apply]
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ValueIdx.ix2 p q) ((ValueIdx.contrEquiv1 dot_S10000x128_S128x64_S10000x64_1_0_0_1_n_n 128 rfl rfl).symm k) = ValueIdx.ix2 p k := funext fun a => Fin.ext (by
    match a with
    | ⟨0, _⟩ => exact blk_lhs_row _ _
    | ⟨1, _⟩ => exact (blk_lhs_col _ _).trans hk)
  have er : dot_S10000x128_S128x64_S10000x64_1_0_0_1_n_n.rhsIdx (ValueIdx.ix2 p q) ((ValueIdx.contrEquiv1 dot_S10000x128_S128x64_S10000x64_1_0_0_1_n_n 128 rfl rfl).symm k) = ValueIdx.ix2 k q := funext fun a => Fin.ext (by
    match a with
    | ⟨0, _⟩ => exact (blk_rhs_row _ _).trans hk
    | ⟨1, _⟩ => exact blk_rhs_col _ _)
  rw [el, er]
  rfl

/-- The second output's payload is the same function of its two operands. -/
theorem blockProduct_apply' (x : Vec Ideal S10000x128 .f32) (w : Vec Ideal S128x64 .f32) (p : Fin 10000) (q : Fin 64) :
    k0_pay3 (F := Ideal) x w (ValueIdx.ix2 p q) = ∑ k : Fin 128, x (ValueIdx.ix2 p k) * w (ValueIdx.ix2 k q) :=
  blockProduct_apply x w p q

/-! ## The product of the whole array, entry by entry -/

/-- Entry (r, q) of the product of all 100000 rows with a weight matrix: the same sum, over row r. -/
theorem product_apply (X : (⟨Cert.ReferenceIdeal.S100000x128, .f32⟩ : BufTy).Contents (Elt Ideal))
    (W : (⟨Cert.ReferenceIdeal.S128x64, .f32⟩ : BufTy).Contents (Elt Ideal)) (r : Fin 100000) (q : Fin 64) :
    Cert.Chain.mm1 (F := Ideal) X W (ValueIdx.ix2 r q) = ∑ k : Fin 128, X (ValueIdx.ix2 r k) * W (ValueIdx.ix2 k q) := by
  unfold Cert.Chain.mm1
  simp only [Host.dotGeneral]
  rw [Ideal.dotGeneral_apply]
  rw [← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ValueIdx.ix2 r q) ((ValueIdx.contrEquiv1 Cert.ReferenceIdeal.dot_S100000x128_S128x64_S100000x64_1_0_0_1_n_n 128 rfl rfl).symm k) = ValueIdx.ix2 r k := funext fun a => Fin.ext (by
    match a with
    | ⟨0, _⟩ => exact arr_lhs_row _ _
    | ⟨1, _⟩ => exact (arr_lhs_col _ _).trans hk)
  have er : Cert.ReferenceIdeal.dot_S100000x128_S128x64_S100000x64_1_0_0_1_n_n.rhsIdx (ValueIdx.ix2 r q) ((ValueIdx.contrEquiv1 Cert.ReferenceIdeal.dot_S100000x128_S128x64_S100000x64_1_0_0_1_n_n 128 rfl rfl).symm k) = ValueIdx.ix2 k q := funext fun a => Fin.ext (by
    match a with
    | ⟨0, _⟩ => exact (arr_rhs_row _ _).trans hk
    | ⟨1, _⟩ => exact arr_rhs_col _ _)
  rw [el, er]

/-! ## Blocks as rows of their arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block indices at grid point t: the features and the two outputs move down the rows with t,
    the two weight matrices stay put. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The features' block at point t is rows 10000·t … 10000·t + 9999 of the features. -/
theorem featureBlock_apply (c : Dev nD) (t : Fin cfg0.N) (x : S10000x128.Idx) (k : S100000x128.Idx)
    (hk0 : (k 0).val = 10000 * t.val + (x 0).val) (hk1 : (k 1).val = (x 1).val) :
    (iblk0 V c 0 t : Vec Ideal S10000x128 .f32) x = (V c main_arg0 : S100000x128.Idx → Elt Ideal .f32) k := by
  have h0 : win0_0.index t (0 : Fin 2) = t.val := by have := blockIndex t; tauto
  have h1 : win0_0.index t (1 : Fin 2) = 0 := by have := blockIndex t; tauto
  unfold iblk0
  rw [View.read_apply]
  show V c main_arg0 _ = V c main_arg0 _
  congr 1
  funext a
  apply Fin.ext
  match a with
  | ⟨0, _⟩ => show win0_0.index t 0 * 10000 + 1 * (x 0).val = (k 0).val; rw [h0, hk0]; omega
  | ⟨1, _⟩ => show win0_0.index t 1 * 128 + 1 * (x 1).val = (k 1).val; rw [h1, hk1]; omega

/-- The first weight matrix's block at every point is the matrix. -/
theorem weightBlock1_apply (c : Dev nD) (t : Fin cfg0.N) (x : S128x64.Idx) :
    (iblk0 V c 1 t : Vec Ideal S128x64 .f32) x = (V c main_arg3 : S128x64.Idx → Elt Ideal .f32) x := by
  have h0 : win0_1.index t (0 : Fin 2) = 0 := by have := blockIndex t; tauto
  have h1 : win0_1.index t (1 : Fin 2) = 0 := by have := blockIndex t; tauto
  unfold iblk0
  rw [View.read_apply]
  show V c main_arg3 _ = V c main_arg3 _
  congr 1
  funext a
  apply Fin.ext
  match a with
  | ⟨0, _⟩ => show win0_1.index t 0 * 128 + 1 * (x 0).val = (x 0).val; rw [h0]; omega
  | ⟨1, _⟩ => show win0_1.index t 1 * 64 + 1 * (x 1).val = (x 1).val; rw [h1]; omega

/-- The second weight matrix's block at every point is the matrix. -/
theorem weightBlock2_apply (c : Dev nD) (t : Fin cfg0.N) (x : S128x64.Idx) :
    (iblk0 V c 2 t : Vec Ideal S128x64 .f32) x = (V c main_arg5 : S128x64.Idx → Elt Ideal .f32) x := by
  have h0 : win0_2.index t (0 : Fin 2) = 0 := by have := blockIndex t; tauto
  have h1 : win0_2.index t (1 : Fin 2) = 0 := by have := blockIndex t; tauto
  unfold iblk0
  rw [View.read_apply]
  show V c main_arg5 _ = V c main_arg5 _
  congr 1
  funext a
  apply Fin.ext
  match a with
  | ⟨0, _⟩ => show win0_2.index t 0 * 128 + 1 * (x 0).val = (x 0).val; rw [h0]; omega
  | ⟨1, _⟩ => show win0_2.index t 1 * 64 + 1 * (x 1).val = (x 1).val; rw [h1]; omega

/-! ## The first output -/

/-- An entry of a whole-array function read through output window 3's block at point t. -/
theorem outBlock3_apply (c : Dev nD) (t : Fin cfg0.N) (G : Buf (Elt Ideal) ((cfg0.win 3).arr.view.loc (c.tc : Thread nD τ)))
    (y : S10000x64.Idx) (k : S100000x64.Idx)
    (hk0 : (k 0).val = 10000 * t.val + (y 0).val) (hk1 : (k 1).val = (y 1).val) :
    (((cfg0.win 3).blk t).view.read (Elt Ideal) G : Vec Ideal S10000x64 .f32) y = (G : S100000x64.Idx → Elt Ideal .f32) k := by
  have h0 : win0_3.index t (0 : Fin 2) = t.val := by have := blockIndex t; tauto
  have h1 : win0_3.index t (1 : Fin 2) = 0 := by have := blockIndex t; tauto
  rw [View.read_apply]
  refine congrArg (G : S100000x64.Idx → Elt Ideal .f32) (funext fun a => Fin.ext ?_)
  match a with
  | ⟨0, _⟩ => show win0_3.index t 0 * 10000 + 1 * (y 0).val = (k 0).val; rw [h0, hk0]; omega
  | ⟨1, _⟩ => show win0_3.index t 1 * 64 + 1 * (y 1).val = (k 1).val; rw [h1, hk1]; omega

/-- What point t writes back to output 3 is block t of the whole product: row p of the block's product
    reads only row p of the block, which is row 10000·t + p of the features. -/
theorem flushed3_eq (c : Dev nD) (t : Fin cfg0.N) :
    (dat0 (F := Ideal) V c).flushed 3 t
      = ((cfg0.win 3).blk t).view.read (Elt Ideal) (Cert.Chain.mm1 (F := Ideal) (V c main_arg0) (V c main_arg3)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz]
  refine funext fun (y : S10000x64.Idx) => ?_
  obtain ⟨p, q, rfl⟩ : ∃ (p : Fin 10000) (q : Fin 64), y = ValueIdx.ix2 p q := ⟨y 0, y 1, ValueIdx.eq_ix2 y⟩
  have hN : cfg0.N = 10 := N_0
  have ht : t.val < 10 := hN ▸ t.isLt
  refine (blockProduct_apply (iblk0 V c 0 t) (iblk0 V c 1 t) p q).trans ?_
  refine Eq.trans ?_ (outBlock3_apply c t (Cert.Chain.mm1 (F := Ideal) (V c main_arg0) (V c main_arg3)) (ValueIdx.ix2 p q)
    (ValueIdx.ix2 (⟨10000 * t.val + p.val, by omega⟩ : Fin 100000) q) rfl rfl).symm
  refine Eq.trans ?_ (product_apply (V c main_arg0) (V c main_arg3) ⟨10000 * t.val + p.val, by omega⟩ q).symm
  refine Finset.sum_congr rfl fun k _ => ?_
  exact congrArg₂ (· * ·) (featureBlock_apply V c t (ValueIdx.ix2 p k) (ValueIdx.ix2 (⟨10000 * t.val + p.val, by omega⟩ : Fin 100000) k) rfl rfl)
    (weightBlock1_apply V c t (ValueIdx.ix2 k q))

/-- An index of output 3's array is in point t's block iff each coordinate is in the block's range. -/
theorem mem_block3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v30_0).slice (win0_3.rect t)).set ↔ _
  rw [View.set_slice_whole, Rect.mem_set_unit]
  exact Iff.rfl

/-- Row r of output 3 lies in the block of point r / 10000, which is written back. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_3 _, ?_⟩
  rw [mem_block3]
  have h0 : win0_3.index (⟨(i 0).val / 10000, by rw [hN]; omega⟩ : Fin cfg0.N) (0 : Fin 2) = (i 0).val / 10000 := by
    have := blockIndex ⟨(i 0).val / 10000, by rw [hN]; omega⟩; tauto
  have h1 : win0_3.index (⟨(i 0).val / 10000, by rw [hN]; omega⟩ : Fin cfg0.N) (1 : Fin 2) = 0 := by
    have := blockIndex ⟨(i 0).val / 10000, by rw [hN]; omega⟩; tauto
  intro a
  match a with
  | ⟨0, _⟩ => show win0_3.index _ (0 : Fin 2) * 10000 ≤ (i 0).val ∧ (i 0).val < win0_3.index _ (0 : Fin 2) * 10000 + 10000; rw [h0]; omega
  | ⟨1, _⟩ => show win0_3.index _ (1 : Fin 2) * 64 ≤ (i 1).val ∧ (i 1).val < win0_3.index _ (1 : Fin 2) * 64 + 64; rw [h1]; omega

/-- So output 3 ends holding the whole product. -/
theorem final_3 (c : Dev nD) : (dat0 (F := Ideal) V c).arrAt 3 cfg0.N = Cert.Chain.mm1 (F := Ideal) (V c main_arg0) (V c main_arg3) :=
  (dat0 V c).arrAt_eq_of_cover 3 (Cert.Chain.mm1 (F := Ideal) (V c main_arg0) (V c main_arg3)) (fun t _ => flushed3_eq V c t) cover3

/-! ## The second output -/

/-- An entry of a whole-array function read through output window 4's block at point t. -/
theorem outBlock4_apply (c : Dev nD) (t : Fin cfg0.N) (G : Buf (Elt Ideal) ((cfg0.win 4).arr.view.loc (c.tc : Thread nD τ)))
    (y : S10000x64.Idx) (k : S100000x64.Idx)
    (hk0 : (k 0).val = 10000 * t.val + (y 0).val) (hk1 : (k 1).val = (y 1).val) :
    (((cfg0.win 4).blk t).view.read (Elt Ideal) G : Vec Ideal S10000x64 .f32) y = (G : S100000x64.Idx → Elt Ideal .f32) k := by
  have h0 : win0_4.index t (0 : Fin 2) = t.val := by have := blockIndex t; tauto
  have h1 : win0_4.index t (1 : Fin 2) = 0 := by have := blockIndex t; tauto
  rw [View.read_apply]
  refine congrArg (G : S100000x64.Idx → Elt Ideal .f32) (funext fun a => Fin.ext ?_)
  match a with
  | ⟨0, _⟩ => show win0_4.index t 0 * 10000 + 1 * (y 0).val = (k 0).val; rw [h0, hk0]; omega
  | ⟨1, _⟩ => show win0_4.index t 1 * 64 + 1 * (y 1).val = (k 1).val; rw [h1, hk1]; omega

/-- What point t writes back to output 4 is block t of the whole product: row p of the block's product
    reads only row p of the block, which is row 10000·t + p of the features. -/
theorem flushed4_eq (c : Dev nD) (t : Fin cfg0.N) :
    (dat0 (F := Ideal) V c).flushed 4 t
      = ((cfg0.win 4).blk t).view.read (Elt Ideal) (Cert.Chain.mm1 (F := Ideal) (V c main_arg0) (V c main_arg5)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x64) hz]
  refine funext fun (y : S10000x64.Idx) => ?_
  obtain ⟨p, q, rfl⟩ : ∃ (p : Fin 10000) (q : Fin 64), y = ValueIdx.ix2 p q := ⟨y 0, y 1, ValueIdx.eq_ix2 y⟩
  have hN : cfg0.N = 10 := N_0
  have ht : t.val < 10 := hN ▸ t.isLt
  refine (blockProduct_apply' (iblk0 V c 0 t) (iblk0 V c 2 t) p q).trans ?_
  refine Eq.trans ?_ (outBlock4_apply c t (Cert.Chain.mm1 (F := Ideal) (V c main_arg0) (V c main_arg5)) (ValueIdx.ix2 p q)
    (ValueIdx.ix2 (⟨10000 * t.val + p.val, by omega⟩ : Fin 100000) q) rfl rfl).symm
  refine Eq.trans ?_ (product_apply (V c main_arg0) (V c main_arg5) ⟨10000 * t.val + p.val, by omega⟩ q).symm
  refine Finset.sum_congr rfl fun k _ => ?_
  exact congrArg₂ (· * ·) (featureBlock_apply V c t (ValueIdx.ix2 p k) (ValueIdx.ix2 (⟨10000 * t.val + p.val, by omega⟩ : Fin 100000) k) rfl rfl)
    (weightBlock2_apply V c t (ValueIdx.ix2 k q))

/-- An index of output 4's array is in point t's block iff each coordinate is in the block's range. -/
theorem mem_block4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v30_1).slice (win0_4.rect t)).set ↔ _
  rw [View.set_slice_whole, Rect.mem_set_unit]
  exact Iff.rfl

/-- Row r of output 4 lies in the block of point r / 10000, which is written back. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_4 _, ?_⟩
  rw [mem_block4]
  have h0 : win0_4.index (⟨(i 0).val / 10000, by rw [hN]; omega⟩ : Fin cfg0.N) (0 : Fin 2) = (i 0).val / 10000 := by
    have := blockIndex ⟨(i 0).val / 10000, by rw [hN]; omega⟩; tauto
  have h1 : win0_4.index (⟨(i 0).val / 10000, by rw [hN]; omega⟩ : Fin cfg0.N) (1 : Fin 2) = 0 := by
    have := blockIndex ⟨(i 0).val / 10000, by rw [hN]; omega⟩; tauto
  intro a
  match a with
  | ⟨0, _⟩ => show win0_4.index _ (0 : Fin 2) * 10000 ≤ (i 0).val ∧ (i 0).val < win0_4.index _ (0 : Fin 2) * 10000 + 10000; rw [h0]; omega
  | ⟨1, _⟩ => show win0_4.index _ (1 : Fin 2) * 64 ≤ (i 1).val ∧ (i 1).val < win0_4.index _ (1 : Fin 2) * 64 + 64; rw [h1]; omega

/-- So output 4 ends holding the whole product. -/
theorem final_4 (c : Dev nD) : (dat0 (F := Ideal) V c).arrAt 4 cfg0.N = Cert.Chain.mm1 (F := Ideal) (V c main_arg0) (V c main_arg5) :=
  (dat0 V c).arrAt_eq_of_cover 4 (Cert.Chain.mm1 (F := Ideal) (V c main_arg0) (V c main_arg5)) (fun t _ => flushed4_eq V c t) cover4

end Cert.KernelIdeal.Region0

end
-- ==== Proof.Region1.lean ====
import proofs.«175872_j37838661877984_1_alg».proof.Proof.Gen.KernelIdeal.Frame
import proofs.«175872_j37838661877984_1_alg».proof.Proof.Chain
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-!
The second region: one dense layer on each of the two branches.

For a branch with input `a` (100000 rows of 64 features), bias vector `b` (64 entries) and weights `w` (64 by 32), the
result at row `r` and column `q` is the sum over `k` of `max (a[r,k] + b[k]) 0 * w[k,q]`. The region computes it in ten
blocks of 10000 rows: a block's row `p` at grid point `t` is the array's row `10000 t + p`, the bias (held as a one-row
matrix, the reshape of `b`) and the weights are seen whole at every point, and a row of the result reads only the same
row of the input. So what each point writes back is its block of the whole-array result, and the ten blocks tile the
output array.

The order of the file: an entry of the result as one sum (`entry`); the block computation read at an entry; the
whole-array computation read at an entry; each window's block as rows of its array; what a point writes back; the
tiling; the two output arrays after the region.
-/

set_option maxRecDepth 16384
noncomputable section
namespace Cert.KernelIdeal.Region1
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero both programs clamp at: the word of all zero bits, read as an extended real. It is never evaluated. -/
abbrev zero : EReal := Ideal.ofBits .f32 0x00000000#32

/-- One entry of the layer's result: row `r` of the input plus the bias, clamped below at zero, against column `q` of
    the weights. Only row `r` of the input is read. -/
abbrev entry (a : Fin 64 → EReal) (b : Fin 64 → EReal) (w : Fin 64 → EReal) : EReal :=
  ∑ k : Fin 64, max (a k + b k) zero * w k

/-- In the block product the left operand's row is the output's row … -/
theorem blockDot_lhs_row (i : S10000x32.Idx) (u : dot_S10000x64_S64x32_S10000x32_1_0_0_1_n_n.contr.Idx) :
    (dot_S10000x64_S64x32_S10000x32_1_0_0_1_n_n.lhsIdx i u 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- … and the right operand's column is the output's column. -/
theorem blockDot_rhs_col (i : S10000x32.Idx) (u : dot_S10000x64_S64x32_S10000x32_1_0_0_1_n_n.contr.Idx) :
    (dot_S10000x64_S64x32_S10000x32_1_0_0_1_n_n.rhsIdx i u 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The block product into a zero accumulator, entry by entry: the sum over the one contracted axis. -/
theorem blockDot_apply (l : FVec Ideal S10000x64 .bf16) (r : FVec Ideal S64x32 .bf16) (p : Fin 10000) (q : Fin 32) :
    FloatOps.matmul dot_S10000x64_S64x32_S10000x32_1_0_0_1_n_n none l r (constant S10000x32 .f32 0x00000000#32) (ValueIdx.ix2 p q)
      = ∑ k : Fin 64, l (ValueIdx.ix2 p k) * r (ValueIdx.ix2 k q) := by
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ValueIdx.ix2 p q) ((ValueIdx.contrEquiv1 dot_S10000x64_S64x32_S10000x32_1_0_0_1_n_n 64 rfl rfl).symm k) = ValueIdx.ix2 p k := funext fun a => Fin.ext (by
    match a with
    | ⟨0, _⟩ => exact blockDot_lhs_row _ _
    | ⟨1, _⟩ => exact (dot_S10000x64_S64x32_S10000x32_1_0_0_1_n_n.lhsIdx_val_of_single rfl _ _).trans hk)
  have er : dot_S10000x64_S64x32_S10000x32_1_0_0_1_n_n.rhsIdx (ValueIdx.ix2 p q) ((ValueIdx.contrEquiv1 dot_S10000x64_S64x32_S10000x32_1_0_0_1_n_n 64 rfl rfl).symm k) = ValueIdx.ix2 k q := funext fun a => Fin.ext (by
    match a with
    | ⟨0, _⟩ => exact (dot_S10000x64_S64x32_S10000x32_1_0_0_1_n_n.rhsIdx_val_of_single rfl _ _).trans hk
    | ⟨1, _⟩ => exact blockDot_rhs_col _ _)
  rw [el, er]

/-- The one-row bias spread over the block's rows, read at (p, k), is the row's entry k. -/
theorem spread_apply (x : Vec Ideal S1x64 .f32) (p : Fin 10000) (k : Fin 64) :
    broadcastTo S10000x64 (shapeCast S1x64 x shapeCasts_S1x64_S1x64) broadcasts_S1x64_S10000x64 (ValueIdx.ix2 p k) = x (ValueIdx.ix2 0 k) := by
  rw [shapeCast_self]
  refine broadcastTo_apply x broadcasts_S1x64_S10000x64 (ValueIdx.ix2 p k) (ValueIdx.ix2 0 k) fun a => ?_
  match a with
  | ⟨0, _⟩ => rfl
  | ⟨1, _⟩ => rfl

/-- The first output's block, entry by entry. -/
theorem pay1_apply (x0 : Vec Ideal S10000x64 .f32) (x1 : Vec Ideal S1x64 .f32) (x2 : Vec Ideal S64x32 .f32) (p : Fin 10000) (q : Fin 32) :
    k1_pay1 (F := Ideal) x0 x1 x2 (ValueIdx.ix2 p q)
      = entry (fun k => x0 (ValueIdx.ix2 p k)) (fun k => x1 (ValueIdx.ix2 0 k)) (fun k => x2 (ValueIdx.ix2 k q)) := by
  unfold k1_pay1
  refine (blockDot_apply _ _ p q).trans ?_
  refine Finset.sum_congr rfl fun k _ => ?_
  show max (shapeCast S10000x64 x0 shapeCasts_S10000x64_S10000x64 (ValueIdx.ix2 p k) + broadcastTo S10000x64 (shapeCast S1x64 x1 shapeCasts_S1x64_S1x64) broadcasts_S1x64_S10000x64 (ValueIdx.ix2 p k)) zero * x2 (ValueIdx.ix2 k q) = _
  rw [shapeCast_self, spread_apply]

/-- The second output's block, entry by entry: the same arithmetic on the other branch's operands. -/
theorem pay2_apply (x3 : Vec Ideal S10000x64 .f32) (x4 : Vec Ideal S1x64 .f32) (x5 : Vec Ideal S64x32 .f32) (p : Fin 10000) (q : Fin 32) :
    k1_pay2 (F := Ideal) x3 x4 x5 (ValueIdx.ix2 p q)
      = entry (fun k => x3 (ValueIdx.ix2 p k)) (fun k => x4 (ValueIdx.ix2 0 k)) (fun k => x5 (ValueIdx.ix2 k q)) := by
  unfold k1_pay2
  refine (blockDot_apply _ _ p q).trans ?_
  refine Finset.sum_congr rfl fun k _ => ?_
  show max (shapeCast S10000x64 x3 shapeCasts_S10000x64_S10000x64 (ValueIdx.ix2 p k) + broadcastTo S10000x64 (shapeCast S1x64 x4 shapeCasts_S1x64_S1x64) broadcasts_S1x64_S10000x64 (ValueIdx.ix2 p k)) zero * x5 (ValueIdx.ix2 k q) = _
  rw [shapeCast_self, spread_apply]

/-- In the host's product the left operand's row is the output's row … -/
theorem hostDot_lhs_row (i : Cert.ReferenceIdeal.S100000x32.Idx) (u : Cert.ReferenceIdeal.dot_S100000x64_S64x32_S100000x32_1_0_0_1_n_n.contr.Idx) :
    (Cert.ReferenceIdeal.dot_S100000x64_S64x32_S100000x32_1_0_0_1_n_n.lhsIdx i u 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
/-- … and the right operand's column is the output's column. -/
theorem hostDot_rhs_col (i : Cert.ReferenceIdeal.S100000x32.Idx) (u : Cert.ReferenceIdeal.dot_S100000x64_S64x32_S100000x32_1_0_0_1_n_n.contr.Idx) :
    (Cert.ReferenceIdeal.dot_S100000x64_S64x32_S100000x32_1_0_0_1_n_n.rhsIdx i u 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

/-- The host's product with the weights, entry by entry: the sum over the one contracted axis. -/
theorem mm2_apply (a : (⟨Cert.ReferenceIdeal.S100000x64, .f32⟩ : BufTy).Contents (Elt Ideal)) (w : (⟨Cert.ReferenceIdeal.S64x32, .f32⟩ : BufTy).Contents (Elt Ideal))
    (r : Fin 100000) (q : Fin 32) :
    Cert.Chain.mm2 (F := Ideal) a w (ValueIdx.ix2 r q) = ∑ k : Fin 64, a (ValueIdx.ix2 r k) * w (ValueIdx.ix2 k q) := by
  unfold Cert.Chain.mm2
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ValueIdx.ix2 r q) ((ValueIdx.contrEquiv1 Cert.ReferenceIdeal.dot_S100000x64_S64x32_S100000x32_1_0_0_1_n_n 64 rfl rfl).symm k) = ValueIdx.ix2 r k := funext fun d => Fin.ext (by
    match d with
    | ⟨0, _⟩ => exact hostDot_lhs_row _ _
    | ⟨1, _⟩ => exact (Cert.ReferenceIdeal.dot_S100000x64_S64x32_S100000x32_1_0_0_1_n_n.lhsIdx_val_of_single rfl _ _).trans hk)
  have er : Cert.ReferenceIdeal.dot_S100000x64_S64x32_S100000x32_1_0_0_1_n_n.rhsIdx (ValueIdx.ix2 r q) ((ValueIdx.contrEquiv1 Cert.ReferenceIdeal.dot_S100000x64_S64x32_S100000x32_1_0_0_1_n_n 64 rfl rfl).symm k) = ValueIdx.ix2 k q := funext fun d => Fin.ext (by
    match d with
    | ⟨0, _⟩ => exact (Cert.ReferenceIdeal.dot_S100000x64_S64x32_S100000x32_1_0_0_1_n_n.rhsIdx_val_of_single rfl _ _).trans hk
    | ⟨1, _⟩ => exact hostDot_rhs_col _ _)
  rw [el, er]

/-- The host's bias-and-clamp, entry by entry: the bias vector's entry `k` is added in every row. -/
theorem reluBias_apply (a : (⟨Cert.ReferenceIdeal.S100000x64, .f32⟩ : BufTy).Contents (Elt Ideal)) (b : (⟨Cert.ReferenceIdeal.S64, .f32⟩ : BufTy).Contents (Elt Ideal))
    (r : Fin 100000) (k : Fin 64) :
    Cert.Chain.reluBias (F := Ideal) a b (ValueIdx.ix2 r k) = max (a (ValueIdx.ix2 r k) + b (ValueIdx.ix1 k)) zero := by
  have e1 : Cert.Chain.bias64 (F := Ideal) b (ValueIdx.ix2 r k) = b (ValueIdx.ix1 k) := by
    unfold Cert.Chain.bias64
    refine (broadcastInDim_apply _ _ _ (ValueIdx.ix2 r k) (ValueIdx.ix2 (0 : Fin 1) k) fun d => ?_).trans ?_
    · match d with
      | ⟨0, _⟩ => rfl
      | ⟨1, _⟩ => rfl
    · refine broadcastInDim_apply _ _ b (ValueIdx.ix2 (0 : Fin 1) k) (ValueIdx.ix1 k) fun d => ?_
      match d with
      | ⟨0, _⟩ => rfl
  unfold Cert.Chain.reluBias
  rw [ValueIdx.maximumf_apply, ValueIdx.addf_apply, e1]
  exact congrArg (max (a (ValueIdx.ix2 r k) + b (ValueIdx.ix1 k)))
    (broadcastInDim_apply _ _ _ (ValueIdx.ix2 r k) ValueIdx.ix0 fun d => d.elim0)

/-- The layer on the host, entry by entry. -/
theorem layer_apply (a : (⟨Cert.ReferenceIdeal.S100000x64, .f32⟩ : BufTy).Contents (Elt Ideal)) (b : (⟨Cert.ReferenceIdeal.S64, .f32⟩ : BufTy).Contents (Elt Ideal))
    (w : (⟨Cert.ReferenceIdeal.S64x32, .f32⟩ : BufTy).Contents (Elt Ideal)) (r : Fin 100000) (q : Fin 32) :
    Cert.Chain.mm2 (F := Ideal) (Cert.Chain.reluBias a b) w (ValueIdx.ix2 r q)
      = entry (fun k => a (ValueIdx.ix2 r k)) (fun k => b (ValueIdx.ix1 k)) (fun k => w (ValueIdx.ix2 k q)) := by
  rw [mm2_apply]
  refine Finset.sum_congr rfl fun k _ => ?_
  rw [reluBias_apply]

theorem hz : (![0, 0] : Fin 2 → Nat) = fun _ => 0 := funext fun a => by fin_cases a <;> rfl

/-- Where each window's block sits at grid point `t`: the row-blocked windows (the two inputs, the two outputs) at
    block row `t`, the biases and the weights whole. -/
theorem blockIndex : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- The first input's block at point `t` is rows `10000 t … 10000 t + 9999` of its array. -/
theorem in0_rows (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c main_v43 : S100000x64.Idx → Elt Ideal .f32) k := by
  obtain ⟨⟨h0, h1⟩, -⟩ := blockIndex t
  unfold iblk1
  rw [View.read_apply]
  show V c main_v43 _ = V c main_v43 _
  congr 1
  funext a
  apply Fin.ext
  match a with
  | ⟨0, _⟩ => show win1_0.index t 0 * 10000 + 1 * (x 0).val = (k 0).val; rw [h0, hk0]; omega
  | ⟨1, _⟩ => show win1_0.index t 1 * 64 + 1 * (x 1).val = (k 1).val; rw [h1, hk1]; omega

/-- The second input's block at point `t` is the same rows of its array. -/
theorem in3_rows (c : Dev nD) (t : Fin cfg1.N) (x : S10000x64.Idx) (k : S100000x64.Idx)
    (hk0 : (k 0).val = 10000 * t.val + (x 0).val) (hk1 : (k 1).val = (x 1).val) :
    (iblk1 V c 3 t : Vec Ideal S10000x64 .f32) x = (V c main_v56 : S100000x64.Idx → Elt Ideal .f32) k := by
  obtain ⟨-, -, -, ⟨h0, h1⟩, -⟩ := blockIndex t
  unfold iblk1
  rw [View.read_apply]
  show V c main_v56 _ = V c main_v56 _
  congr 1
  funext a
  apply Fin.ext
  match a with
  | ⟨0, _⟩ => show win1_3.index t 0 * 10000 + 1 * (x 0).val = (k 0).val; rw [h0, hk0]; omega
  | ⟨1, _⟩ => show win1_3.index t 1 * 64 + 1 * (x 1).val = (k 1).val; rw [h1, hk1]; omega

/-- The first bias window's block is its one-row array, at every point. -/
theorem in1_whole (c : Dev nD) (t : Fin cfg1.N) (x : S1x64.Idx) :
    (iblk1 V c 1 t : Vec Ideal S1x64 .f32) x = (V c main_v57 : S1x64.Idx → Elt Ideal .f32) x := by
  obtain ⟨-, ⟨h0, h1⟩, -⟩ := blockIndex t
  unfold iblk1
  rw [View.read_apply]
  show V c main_v57 _ = V c main_v57 _
  congr 1
  funext a
  apply Fin.ext
  match a with
  | ⟨0, _⟩ => show win1_1.index t 0 * 1 + 1 * (x 0).val = (x 0).val; rw [h0]; omega
  | ⟨1, _⟩ => show win1_1.index t 1 * 64 + 1 * (x 1).val = (x 1).val; rw [h1]; omega

/-- The second bias window's block is its one-row array, at every point. -/
theorem in4_whole (c : Dev nD) (t : Fin cfg1.N) (x : S1x64.Idx) :
    (iblk1 V c 4 t : Vec Ideal S1x64 .f32) x = (V c main_v58 : S1x64.Idx → Elt Ideal .f32) x := by
  obtain ⟨-, -, -, -, ⟨h0, h1⟩, -⟩ := blockIndex t
  unfold iblk1
  rw [View.read_apply]
  show V c main_v58 _ = V c main_v58 _
  congr 1
  funext a
  apply Fin.ext
  match a with
  | ⟨0, _⟩ => show win1_4.index t 0 * 1 + 1 * (x 0).val = (x 0).val; rw [h0]; omega
  | ⟨1, _⟩ => show win1_4.index t 1 * 64 + 1 * (x 1).val = (x 1).val; rw [h1]; omega

/-- The first weight window's block is the whole weight matrix, at every point. -/
theorem in2_whole (c : Dev nD) (t : Fin cfg1.N) (x : S64x32.Idx) :
    (iblk1 V c 2 t : Vec Ideal S64x32 .f32) x = (V c main_arg7 : S64x32.Idx → Elt Ideal .f32) x := by
  obtain ⟨-, -, ⟨h0, h1⟩, -⟩ := blockIndex t
  unfold iblk1
  rw [View.read_apply]
  show V c main_arg7 _ = V c main_arg7 _
  congr 1
  funext a
  apply Fin.ext
  match a with
  | ⟨0, _⟩ => show win1_2.index t 0 * 64 + 1 * (x 0).val = (x 0).val; rw [h0]; omega
  | ⟨1, _⟩ => show win1_2.index t 1 * 32 + 1 * (x 1).val = (x 1).val; rw [h1]; omega

/-- The second weight window's block is the whole weight matrix, at every point. -/
theorem in5_whole (c : Dev nD) (t : Fin cfg1.N) (x : S64x32.Idx) :
    (iblk1 V c 5 t : Vec Ideal S64x32 .f32) x = (V c main_arg9 : S64x32.Idx → Elt Ideal .f32) x := by
  obtain ⟨-, -, -, -, -, ⟨h0, h1⟩, -⟩ := blockIndex t
  unfold iblk1
  rw [View.read_apply]
  show V c main_arg9 _ = V c main_arg9 _
  congr 1
  funext a
  apply Fin.ext
  match a with
  | ⟨0, _⟩ => show win1_5.index t 0 * 64 + 1 * (x 0).val = (x 0).val; rw [h0]; omega
  | ⟨1, _⟩ => show win1_5.index t 1 * 32 + 1 * (x 1).val = (x 1).val; rw [h1]; omega

/-- A one-row matrix that is the reshape of a vector reads, in its one row, the vector. -/
theorem row_of_vector (m : S1x64.Idx → Elt Ideal .f32) (b : (⟨S64, .f32⟩ : BufTy).Contents (Elt Ideal))
    (hb : m = shapeCast _ b shapeCasts_S64_S1x64) (k : Fin 64) : m (ValueIdx.ix2 (0 : Fin 1) k) = b (ValueIdx.ix1 k) := by
  rw [hb]
  exact ValueIdx.shapeCast_a_1a_apply b shapeCasts_S64_S1x64 0 k

/-- Two entries agree when their three rows agree term by term. -/
theorem entry_congr {a a' b b' w w' : Fin 64 → EReal} (ha : ∀ k, a k = a' k) (hb : ∀ k, b k = b' k) (hw : ∀ k, w k = w' k) :
    entry a b w = entry a' b' w' := by
  rw [funext ha, funext hb, funext hw]

/-- What point `t` writes back to the first output is block `t` of the layer's result on the first branch: row `p` of
    the block is row `10000 t + p` of the array, and that row of the result reads only that row of the input. -/
theorem flushed6_eq (c : Dev nD) (b : (⟨S64, .f32⟩ : BufTy).Contents (Elt Ideal))
    (hb : V c main_v57 = shapeCast _ b shapeCasts_S64_S1x64) (t : Fin cfg1.N) :
    (dat1 (F := Ideal) V c).flushed 6 t = ((cfg1.win 6).blk t).view.read (Elt Ideal)
      (Cert.Chain.mm2 (F := Ideal) (Cert.Chain.reluBias (V c main_v43) b) (V c main_arg7)) := by
  show (cfg1.win 6).cut (grid1.coords t) ((dat1 (F := Ideal) V c).after 6 t) = _
  rw [after1_6]
  unfold out1_6
  rw [View.canon_unit_zero hz]
  simp only [View.ld_unit_zero (S := S10000x64) hz, View.ld_unit_zero (S := S1x64) hz, View.ld_unit_zero (S := S64x32) hz]
  refine funext fun (j : S10000x32.Idx) => ?_
  obtain ⟨p, q, rfl⟩ : ∃ (p : Fin 10000) (q : Fin 32), j = ValueIdx.ix2 p q := ⟨j 0, j 1, ValueIdx.eq_ix2 j⟩
  have hN : cfg1.N = 10 := N_1
  have ht : t.val < 10 := hN ▸ t.isLt
  have hp : p.val < 10000 := p.isLt
  obtain ⟨-, -, -, -, -, -, ⟨h0, h1⟩, -⟩ := blockIndex t
  have he : ((cfg1.win 6).blk t).view.emb (ValueIdx.ix2 p q) = ValueIdx.ix2 (⟨10000 * t.val + p.val, by omega⟩ : Fin 100000) q := by
    funext a; apply Fin.ext
    match a with
    | ⟨0, _⟩ => show win1_6.index t 0 * 10000 + 1 * p.val = 10000 * t.val + p.val; rw [h0]; omega
    | ⟨1, _⟩ => show win1_6.index t 1 * 32 + 1 * q.val = q.val; rw [h1]; omega
  show k1_pay1 (F := Ideal) (iblk1 V c 0 t) (iblk1 V c 1 t) (iblk1 V c 2 t) (ValueIdx.ix2 p q)
    = Cert.Chain.mm2 (F := Ideal) (Cert.Chain.reluBias (V c main_v43) b) (V c main_arg7) (((cfg1.win 6).blk t).view.emb (ValueIdx.ix2 p q))
  rw [he]
  refine (pay1_apply (iblk1 V c 0 t) (iblk1 V c 1 t) (iblk1 V c 2 t) p q).trans ?_
  refine Eq.trans ?_ (layer_apply (V c main_v43) b (V c main_arg7) ⟨10000 * t.val + p.val, by omega⟩ q).symm
  exact entry_congr
    (fun k => in0_rows V c t (ValueIdx.ix2 p k) (ValueIdx.ix2 (⟨10000 * t.val + p.val, by omega⟩ : Fin 100000) k) rfl rfl)
    (fun k => (in1_whole V c t (ValueIdx.ix2 (0 : Fin 1) k)).trans (row_of_vector (V c main_v57) b hb k))
    (fun k => in2_whole V c t (ValueIdx.ix2 k q))

/-- An index of the first output array is in point `t`'s block iff each coordinate is in the block's range on its axis. -/
theorem mem_out6 (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v59_0).slice (win1_6.rect t)).set ↔ _
  rw [View.set_slice_whole, Rect.mem_set_unit]
  exact Iff.rfl

/-- Every row `r` of the first output array lies in the block of point `r / 10000`, which is written back. -/
theorem cover_out6 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 10 := N_1
  refine ⟨⟨(i 0).val / 10000, by rw [hN]; omega⟩, flush1_6 _, ?_⟩
  rw [mem_out6]
  obtain ⟨-, -, -, -, -, -, ⟨h0, h1⟩, -⟩ := blockIndex ⟨(i 0).val / 10000, by rw [hN]; omega⟩
  intro a
  match a with
  | ⟨0, _⟩ => show win1_6.index _ (0 : Fin 2) * 10000 ≤ (i 0).val ∧ (i 0).val < win1_6.index _ (0 : Fin 2) * 10000 + 10000; rw [h0]; show (i 0).val / 10000 * 10000 ≤ _ ∧ _ < (i 0).val / 10000 * 10000 + 10000; omega
  | ⟨1, _⟩ => show win1_6.index _ (1 : Fin 2) * 32 ≤ (i 1).val ∧ (i 1).val < win1_6.index _ (1 : Fin 2) * 32 + 32; rw [h1]; omega

/-- The first output array after the region: the layer's result on the first branch, as the host computes it from the
    whole arrays. -/
theorem final_6 (c : Dev nD) (b : (⟨S64, .f32⟩ : BufTy).Contents (Elt Ideal))
    (hb : V c main_v57 = shapeCast _ b shapeCasts_S64_S1x64) :
    (dat1 (F := Ideal) V c).arrAt 6 cfg1.N = Cert.Chain.mm2 (F := Ideal) (Cert.Chain.reluBias (V c main_v43) b) (V c main_arg7) :=
  (dat1 (F := Ideal) V c).arrAt_eq_of_cover 6 _ (fun t _ => flushed6_eq V c b hb t) (cover_out6)

/-- What point `t` writes back to the second output is block `t` of the layer's result on the second branch: row `p` of
    the block is row `10000 t + p` of the array, and that row of the result reads only that row of the input. -/
theorem flushed7_eq (c : Dev nD) (b : (⟨S64, .f32⟩ : BufTy).Contents (Elt Ideal))
    (hb : V c main_v58 = shapeCast _ b shapeCasts_S64_S1x64) (t : Fin cfg1.N) :
    (dat1 (F := Ideal) V c).flushed 7 t = ((cfg1.win 7).blk t).view.read (Elt Ideal)
      (Cert.Chain.mm2 (F := Ideal) (Cert.Chain.reluBias (V c main_v56) b) (V c main_arg9)) := by
  show (cfg1.win 7).cut (grid1.coords t) ((dat1 (F := Ideal) V c).after 7 t) = _
  rw [after1_7]
  unfold out1_7
  rw [View.canon_unit_zero hz]
  simp only [View.ld_unit_zero (S := S10000x64) hz, View.ld_unit_zero (S := S1x64) hz, View.ld_unit_zero (S := S64x32) hz]
  refine funext fun (j : S10000x32.Idx) => ?_
  obtain ⟨p, q, rfl⟩ : ∃ (p : Fin 10000) (q : Fin 32), j = ValueIdx.ix2 p q := ⟨j 0, j 1, ValueIdx.eq_ix2 j⟩
  have hN : cfg1.N = 10 := N_1
  have ht : t.val < 10 := hN ▸ t.isLt
  have hp : p.val < 10000 := p.isLt
  obtain ⟨-, -, -, -, -, -, -, ⟨h0, h1⟩⟩ := blockIndex t
  have he : ((cfg1.win 7).blk t).view.emb (ValueIdx.ix2 p q) = ValueIdx.ix2 (⟨10000 * t.val + p.val, by omega⟩ : Fin 100000) q := by
    funext a; apply Fin.ext
    match a with
    | ⟨0, _⟩ => show win1_7.index t 0 * 10000 + 1 * p.val = 10000 * t.val + p.val; rw [h0]; omega
    | ⟨1, _⟩ => show win1_7.index t 1 * 32 + 1 * q.val = q.val; rw [h1]; omega
  show k1_pay2 (F := Ideal) (iblk1 V c 3 t) (iblk1 V c 4 t) (iblk1 V c 5 t) (ValueIdx.ix2 p q)
    = Cert.Chain.mm2 (F := Ideal) (Cert.Chain.reluBias (V c main_v56) b) (V c main_arg9) (((cfg1.win 7).blk t).view.emb (ValueIdx.ix2 p q))
  rw [he]
  refine (pay2_apply (iblk1 V c 3 t) (iblk1 V c 4 t) (iblk1 V c 5 t) p q).trans ?_
  refine Eq.trans ?_ (layer_apply (V c main_v56) b (V c main_arg9) ⟨10000 * t.val + p.val, by omega⟩ q).symm
  exact entry_congr
    (fun k => in3_rows V c t (ValueIdx.ix2 p k) (ValueIdx.ix2 (⟨10000 * t.val + p.val, by omega⟩ : Fin 100000) k) rfl rfl)
    (fun k => (in4_whole V c t (ValueIdx.ix2 (0 : Fin 1) k)).trans (row_of_vector (V c main_v58) b hb k))
    (fun k => in5_whole V c t (ValueIdx.ix2 k q))

/-- An index of the second output array is in point `t`'s block iff each coordinate is in the block's range on its axis. -/
theorem mem_out7 (t : Fin cfg1.N) (i : S100000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v59_1).slice (win1_7.rect t)).set ↔ _
  rw [View.set_slice_whole, Rect.mem_set_unit]
  exact Iff.rfl

/-- Every row `r` of the second output array lies in the block of point `r / 10000`, which is written back. -/
theorem cover_out7 (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  have hN : cfg1.N = 10 := N_1
  refine ⟨⟨(i 0).val / 10000, by rw [hN]; omega⟩, flush1_7 _, ?_⟩
  rw [mem_out7]
  obtain ⟨-, -, -, -, -, -, -, ⟨h0, h1⟩⟩ := blockIndex ⟨(i 0).val / 10000, by rw [hN]; omega⟩
  intro a
  match a with
  | ⟨0, _⟩ => show win1_7.index _ (0 : Fin 2) * 10000 ≤ (i 0).val ∧ (i 0).val < win1_7.index _ (0 : Fin 2) * 10000 + 10000; rw [h0]; show (i 0).val / 10000 * 10000 ≤ _ ∧ _ < (i 0).val / 10000 * 10000 + 10000; omega
  | ⟨1, _⟩ => show win1_7.index _ (1 : Fin 2) * 32 ≤ (i 1).val ∧ (i 1).val < win1_7.index _ (1 : Fin 2) * 32 + 32; rw [h1]; omega

/-- The second output array after the region: the layer's result on the second branch, as the host computes it from the
    whole arrays. -/
theorem final_7 (c : Dev nD) (b : (⟨S64, .f32⟩ : BufTy).Contents (Elt Ideal))
    (hb : V c main_v58 = shapeCast _ b shapeCasts_S64_S1x64) :
    (dat1 (F := Ideal) V c).arrAt 7 cfg1.N = Cert.Chain.mm2 (F := Ideal) (Cert.Chain.reluBias (V c main_v56) b) (V c main_arg9) :=
  (dat1 (F := Ideal) V c).arrAt_eq_of_cover 7 _ (fun t _ => flushed7_eq V c b hb t) (cover_out7)

end Cert.KernelIdeal.Region1
end
-- ==== Proof.HeadRow.lean ====
import proofs.«175872_j37838661877984_1_alg».proof.Proof.Gen.KernelIdeal.Frame
import proofs.«175872_j37838661877984_1_alg».proof.Proof.Chain
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-!
The head's rows before the softmax, on the host.

The head multiplies the two branches set side by side (32 features each, 64 together) by a 64 by 32 weight matrix
and adds a 32-entry bias. Read at row `r` and column `q` the product's sum over the 64 joined features splits into the
first 32, which are the first branch's features against the top half of the weights, and the last 32, which are the
second branch's against the bottom half.
-/

set_option maxRecDepth 16384
noncomputable section
namespace Cert.KernelIdeal.HeadRow
open Cert.KernelIdeal Cert.KernelIdeal.Gen Idealize.ShloMosaic Idealize.ShloMosaic.TcCoe Idealize.SL.Sem
open Idealize.ShloMosaic.Pipeline (Dat)

/-- In the host's product the left operand's row is the output's row … -/
theorem hostDot_lhs_row (i : Cert.ReferenceIdeal.S100000x32.Idx) (u : Cert.ReferenceIdeal.dot_S100000x64_S64x32_S100000x32_1_0_0_1_n_n.contr.Idx) :
    (Cert.ReferenceIdeal.dot_S100000x64_S64x32_S100000x32_1_0_0_1_n_n.lhsIdx i u 0).val = (i 0).val := by
  unfold DotDims.lhsIdx
  rw [dif_neg (show ¬(0 : Fin Cert.ReferenceIdeal.S100000x64.rank) ∈ Cert.ReferenceIdeal.dot_S100000x64_S64x32_S100000x32_1_0_0_1_n_n.lhsBatch by decide), dif_pos (show (0 : Fin Cert.ReferenceIdeal.S100000x64.rank) ∈ Cert.ReferenceIdeal.dot_S100000x64_S64x32_S100000x32_1_0_0_1_n_n.lhsNonContracting by decide)]
  rfl
/-- … and the right operand's column is the output's column. -/
theorem hostDot_rhs_col (i : Cert.ReferenceIdeal.S100000x32.Idx) (u : Cert.ReferenceIdeal.dot_S100000x64_S64x32_S100000x32_1_0_0_1_n_n.contr.Idx) :
    (Cert.ReferenceIdeal.dot_S100000x64_S64x32_S100000x32_1_0_0_1_n_n.rhsIdx i u 1).val = (i 1).val := by
  unfold DotDims.rhsIdx
  rw [dif_neg (show ¬(1 : Fin Cert.ReferenceIdeal.S64x32.rank) ∈ Cert.ReferenceIdeal.dot_S100000x64_S64x32_S100000x32_1_0_0_1_n_n.rhsBatch by decide), dif_pos (show (1 : Fin Cert.ReferenceIdeal.S64x32.rank) ∈ Cert.ReferenceIdeal.dot_S100000x64_S64x32_S100000x32_1_0_0_1_n_n.rhsNonContracting by decide)]
  rfl

/-- The host's product with the weights, entry by entry: the sum over the one contracted axis. -/
theorem mm2_apply (a : (⟨Cert.ReferenceIdeal.S100000x64, .f32⟩ : BufTy).Contents (Elt Ideal)) (w : (⟨Cert.ReferenceIdeal.S64x32, .f32⟩ : BufTy).Contents (Elt Ideal))
    (r : Fin 100000) (q : Fin 32) :
    Cert.Chain.mm2 (F := Ideal) a w (ValueIdx.ix2 r q) = ∑ k : Fin 64, a (ValueIdx.ix2 r k) * w (ValueIdx.ix2 k q) := by
  unfold Cert.Chain.mm2
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx (ValueIdx.ix2 r q) ((ValueIdx.contrEquiv1 Cert.ReferenceIdeal.dot_S100000x64_S64x32_S100000x32_1_0_0_1_n_n 64 rfl rfl).symm k) = ValueIdx.ix2 r k := funext fun d => Fin.ext (by
    match d with
    | ⟨0, _⟩ => exact hostDot_lhs_row _ _
    | ⟨1, _⟩ => exact (Cert.ReferenceIdeal.dot_S100000x64_S64x32_S100000x32_1_0_0_1_n_n.lhsIdx_val_of_single rfl _ _).trans hk)
  have er : Cert.ReferenceIdeal.dot_S100000x64_S64x32_S100000x32_1_0_0_1_n_n.rhsIdx (ValueIdx.ix2 r q) ((ValueIdx.contrEquiv1 Cert.ReferenceIdeal.dot_S100000x64_S64x32_S100000x32_1_0_0_1_n_n 64 rfl rfl).symm k) = ValueIdx.ix2 k q := funext fun d => Fin.ext (by
    match d with
    | ⟨0, _⟩ => exact (Cert.ReferenceIdeal.dot_S100000x64_S64x32_S100000x32_1_0_0_1_n_n.rhsIdx_val_of_single rfl _ _).trans hk
    | ⟨1, _⟩ => exact hostDot_rhs_col _ _)
  rw [el, er]

/-- A sum over 64 terms is the sum of its first 32 and of its last 32. -/
theorem sum_halves (f : Fin 64 → EReal) :
    ∑ k : Fin 64, f k = (∑ k : Fin 32, f ⟨k.val, by omega⟩) + ∑ k : Fin 32, f ⟨32 + k.val, by omega⟩ :=
  Fin.sum_univ_add (a := 32) (b := 32) f

/-- The two branches side by side, read in the first 32 columns, are the first branch. -/
theorem cat_left (g h' : (⟨Cert.ReferenceIdeal.S100000x32, .f32⟩ : BufTy).Contents (Elt Ideal)) (r : Fin 100000) (k : Fin 32) :
    Cert.Chain.cat (F := Ideal) g h' (ValueIdx.ix2 r (⟨k.val, by omega⟩ : Fin 64)) = g (ValueIdx.ix2 r k) := by
  unfold Cert.Chain.cat
  refine concatenate_pair_apply_left 1 g h' _ (ValueIdx.ix2 r (⟨k.val, by omega⟩ : Fin 64)) rfl (ValueIdx.ix2 r k) fun d => ?_
  match d with
  | ⟨0, _⟩ => rfl
  | ⟨1, _⟩ => rfl

/-- Read in the last 32 columns they are the second branch, the column counted from 32. -/
theorem cat_right (g h' : (⟨Cert.ReferenceIdeal.S100000x32, .f32⟩ : BufTy).Contents (Elt Ideal)) (r : Fin 100000) (k : Fin 32) :
    Cert.Chain.cat (F := Ideal) g h' (ValueIdx.ix2 r (⟨32 + k.val, by omega⟩ : Fin 64)) = h' (ValueIdx.ix2 r k) := by
  unfold Cert.Chain.cat
  refine concatenate_pair_apply_right 1 g h' _ (ValueIdx.ix2 r (⟨32 + k.val, by omega⟩ : Fin 64)) rfl rfl (ValueIdx.ix2 r k) (fun d hd => ?_) ?_
  · match d with
    | ⟨0, _⟩ => rfl
    | ⟨1, _⟩ => exact absurd rfl hd
  · show k.val + 32 = 32 + k.val
    omega

/-- The 32-entry bias spread over the rows, read at (r, q), is the bias vector's entry q. -/
theorem bias32_apply (b : (⟨Cert.ReferenceIdeal.S32, .f32⟩ : BufTy).Contents (Elt Ideal)) (r : Fin 100000) (q : Fin 32) :
    Cert.Chain.bias32 (F := Ideal) b (ValueIdx.ix2 r q) = b (ValueIdx.ix1 q) := by
  unfold Cert.Chain.bias32
  refine (broadcastInDim_apply _ _ _ (ValueIdx.ix2 r q) (ValueIdx.ix2 (0 : Fin 1) q) fun d => ?_).trans ?_
  · match d with
    | ⟨0, _⟩ => rfl
    | ⟨1, _⟩ => rfl
  · refine broadcastInDim_apply _ _ b (ValueIdx.ix2 (0 : Fin 1) q) (ValueIdx.ix1 q) fun d => ?_
    match d with
    | ⟨0, _⟩ => rfl

/-- The head's row before the softmax, entry by entry: the first branch against the top half of the weights, plus the
    second branch against the bottom half, plus the bias. -/
theorem headRow_apply (g h' : (⟨Cert.ReferenceIdeal.S100000x32, .f32⟩ : BufTy).Contents (Elt Ideal)) (w : (⟨Cert.ReferenceIdeal.S64x32, .f32⟩ : BufTy).Contents (Elt Ideal))
    (b : (⟨Cert.ReferenceIdeal.S32, .f32⟩ : BufTy).Contents (Elt Ideal)) (r : Fin 100000) (q : Fin 32) :
    addf (Cert.Chain.mm2 (F := Ideal) (Cert.Chain.cat g h') w) (Cert.Chain.bias32 b) (ValueIdx.ix2 r q)
      = ((∑ k : Fin 32, g (ValueIdx.ix2 r k) * w (ValueIdx.ix2 (⟨k.val, by omega⟩ : Fin 64) q))
          + (∑ k : Fin 32, h' (ValueIdx.ix2 r k) * w (ValueIdx.ix2 (⟨32 + k.val, by omega⟩ : Fin 64) q))) + b (ValueIdx.ix1 q) := by
  rw [ValueIdx.addf_apply, mm2_apply, bias32_apply, sum_halves]
  refine congrArg (· + b (ValueIdx.ix1 q)) (congrArg₂ (· + ·) (Finset.sum_congr rfl fun k _ => ?_) (Finset.sum_congr rfl fun k _ => ?_))
  · rw [cat_left]
  · rw [cat_right]

end Cert.KernelIdeal.HeadRow
end
-- ==== Proof.SoftmaxRow.lean ====
import proofs.«175872_j37838661877984_1_alg».proof.Proof.Gen.KernelIdeal.Frame
import proofs.«175872_j37838661877984_1_alg».proof.Proof.Chain
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.KernelVsHost

/-!
# A row's log-softmax, computed on a block of rows and on the whole array

The log-softmax of a row x of 32 numbers is s_q − log ∑ₖ exp s_k, where s_k = x_k − m and m is the row's largest
entry (taken from minus infinity over the row, and once more against minus infinity). Both programs compute it
this way, row by row: one on a block of 10000 rows, the other on all 100000 rows, whose sum of exponentials
starts from a zero that adds nothing. Each side is read here at one entry and shown to be that one function of
the row's 32 numbers; so a row of the block and a row of the array that hold the same numbers have the same
log-softmax. The maximum over a row is a fold of the order's maximum over the 32 lanes from the same starting
value on both sides, and the sum is the same sum over the 32 lanes; no law of arithmetic beyond 0 + a = a is used.
-/

set_option maxRecDepth 16384

noncomputable section

namespace Cert.KernelIdeal.SoftmaxRow

open Cert.KernelIdeal Cert.KernelIdeal.Gen Idealize.ShloMosaic Idealize.ShloMosaic.TcCoe Idealize.SL.Sem
open Idealize.ShloMosaic.Pipeline (Dat)
open Idealize.ShloMosaic.ValueIdx

/-! ## A row's log-softmax -/

/-- The largest entry of a row of 32, taken from minus infinity and once more against it. -/
def rowMax (f : Fin 32 → EReal) : EReal :=
  max (Ideal.ofBits .f32 0xFF800000#32) ((Finset.univ : Finset (Fin 32)).fold max (Ideal.ofBits .f32 0xFF800000#32) f)

/-- A row's log-softmax at lane `q`: the entry less the row's maximum, less the logarithm of the sum of the
    exponentials of the row so shifted. -/
def lsmRow (f : Fin 32 → EReal) (q : Fin 32) : EReal :=
  (f q - rowMax f) - Ideal.log (∑ k : Fin 32, Ideal.exp (f k - rowMax f))

/-- The block-side chain after the pre-activations, step by step: each row's maximum (from minus infinity, and
    once more against it), the rows shifted by it, the sum of each shifted row's exponentials, its logarithm,
    and the shifted rows less that. -/
def blockLogSoftmax (v26 : FVec Ideal S10000x32 .f32) : FVec Ideal S10000x32 .f32 :=
  have v27 : FVec Ideal S10000 .f32 := multiReduction .maximumf [1] S10000 v26 0xFF800000#32 reduces_S10000x32_S10000 (.inl rfl) rfl
  have cst_15 : Ideal .f32 := Scalar.ofBits .f32 0xFF800000#32
  have v28 : FVec Ideal S10000 .f32 := broadcast S10000 cst_15
  have v29 : FVec Ideal S10000 .f32 := maximumf v28 v27
  have v30 : FVec Ideal S10000x1 .f32 := shapeCast S10000x1 v29 shapeCasts_S10000_S10000x1
  have v31 : FVec Ideal S10000x32 .f32 := broadcastTo S10000x32 v30 broadcasts_S10000x1_S10000x32
  have v32 : FVec Ideal S10000x32 .f32 := subf v26 v31
  have v33 : FVec Ideal S10000x32 .f32 := exp v32
  have v34 : FVec Ideal S10000 .f32 := multiReduction .add [1] S10000 v33 0x00000000#32 reduces_S10000x32_S10000 (.inl rfl) rfl
  have v35 : FVec Ideal S10000x1 .f32 := shapeCast S10000x1 v34 shapeCasts_S10000_S10000x1
  have v36 : FVec Ideal S10000x1 .f32 := log v35
  have v37 : FVec Ideal S10000x32 .f32 := broadcastTo S10000x32 v36 broadcasts_S10000x1_S10000x32
  have v38 : FVec Ideal S10000x32 .f32 := subf v32 v37
  v38

/-! ## Operations read at an index -/

theorem exp_apply {s : Shape} (x : FVec Ideal s .f32) (i : s.Idx) : exp x i = Ideal.exp (x i) := rfl
theorem log_apply {s : Shape} (x : FVec Ideal s .f32) (i : s.Idx) : log x i = Ideal.log (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's sum over some axes is the initial value's one entry plus the exact sum. -/
theorem hostReduceAdd_apply {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl

/-- At extended reals the float maximum is the order's maximum, so a fold of one is a fold of the other. -/
theorem fold_maximumf_eq (b : EReal) (f : Fin 32 → EReal) :
    (Finset.univ : Finset (Fin 32)).fold (FloatOps.maximumf (F := Ideal) (φ := .f32)) b f = (Finset.univ : Finset (Fin 32)).fold max b f := rfl

/-! ## The block's side -/

/-- A column [a] laid out as [a,1] reads row `p` at (p, 0). -/
theorem col_cast_apply (v : FVec Ideal S10000 .f32) (p : Fin 10000) :
    shapeCast S10000x1 v shapeCasts_S10000_S10000x1 (ix2 p (0 : Fin 1)) = v (ix1 p) :=
  shapeCast_apply v shapeCasts_S10000_S10000x1 (ix2 p (0 : Fin 1)) (ix1 p) (by
    rw [Shape.rowMajor_val_one, Shape.rowMajor_val_two]; show p.val = p.val * 1 + 0; omega)

/-- A column [a,1] laid along the 32 lanes reads, at (p, q), the column at (p, 0). -/
theorem col_bcast_apply (v : FVec Ideal S10000x1 .f32) (p : Fin 10000) (q : Fin 32) :
    broadcastTo S10000x32 v broadcasts_S10000x1_S10000x32 (ix2 p q) = v (ix2 p (0 : Fin 1)) :=
  broadcastTo_apply v broadcasts_S10000x1_S10000x32 (ix2 p q) (ix2 p (0 : Fin 1)) fun a => by
    match a with
    | ⟨0, _⟩ => show p.val = if (10000 : ℕ) = 1 then 0 else p.val; rw [if_neg (by decide)]
    | ⟨1, _⟩ => rfl

/-- The lane index the reduction over axis 1 inserts. -/
theorem lift_row (p : Fin 10000) (k : Fin 32) : reduces_S10000x32_S10000.lift (ix1 p) k = ix2 p k := by
  funext a
  apply Fin.ext
  match a with
  | ⟨0, _⟩ => rfl
  | ⟨1, _⟩ => rfl

/-- Each row's maximum: from minus infinity over the row, and once more against minus infinity. -/
def blockMax (X : FVec Ideal S10000x32 .f32) : FVec Ideal S10000 .f32 :=
  maximumf (broadcast S10000 (Scalar.ofBits (F := Ideal) .f32 0xFF800000#32)) (multiReduction (F := Ideal) .maximumf [1] S10000 X 0xFF800000#32 reduces_S10000x32_S10000 (.inl rfl) rfl)

/-- The rows, each less its maximum. -/
def blockShifted (X : FVec Ideal S10000x32 .f32) : FVec Ideal S10000x32 .f32 :=
  subf X (broadcastTo S10000x32 (shapeCast S10000x1 (blockMax X) shapeCasts_S10000_S10000x1) broadcasts_S10000x1_S10000x32)

/-- The chain with its repeated parts named: the shifted rows less the logarithm of the sum of their exponentials. -/
def blockLogSoftmaxNamed (X : FVec Ideal S10000x32 .f32) : FVec Ideal S10000x32 .f32 :=
  subf (blockShifted X) (broadcastTo S10000x32 (log (shapeCast S10000x1 (multiReduction (F := Ideal) .add [1] S10000 (exp (blockShifted X)) 0x00000000#32 reduces_S10000x32_S10000 (.inl rfl) rfl) shapeCasts_S10000_S10000x1)) broadcasts_S10000x1_S10000x32)

theorem blockLogSoftmax_eq (X : FVec Ideal S10000x32 .f32) : blockLogSoftmax X = blockLogSoftmaxNamed X := rfl

theorem negInf_apply (p : Fin 10000) :
    broadcast S10000 (Scalar.ofBits (F := Ideal) .f32 0xFF800000#32) (ix1 p) = Ideal.ofBits .f32 0xFF800000#32 := rfl

/-- The block's row maximum is the row's. -/
theorem blockMax_apply (X : FVec Ideal S10000x32 .f32) (p : Fin 10000) :
    blockMax X (ix1 p) = rowMax fun k => X (ix2 p k) := by
  unfold blockMax rowMax
  refine (maximumf_apply _ _ (ix1 p)).trans ?_
  refine congrArg₂ (max : EReal → EReal → EReal) (negInf_apply p) ?_
  refine (Ideal.multiReduction_maximumf_single X 0xFF800000#32 reduces_S10000x32_S10000 (.inl rfl) rfl (ix1 p)).trans ?_
  refine congrArg₂ (fun b f => (Finset.univ : Finset (Fin 32)).fold max b f) rfl ?_
  funext k
  exact congrArg X (lift_row p k)

/-- The block's shifted rows. -/
theorem blockShifted_apply (X : FVec Ideal S10000x32 .f32) (p : Fin 10000) (k : Fin 32) :
    blockShifted X (ix2 p k) = X (ix2 p k) - rowMax (fun k => X (ix2 p k)) := by
  unfold blockShifted
  refine (subf_apply _ _ _).trans ?_
  refine congrArg (X (ix2 p k) - ·) ?_
  exact (col_bcast_apply _ p k).trans ((col_cast_apply _ p).trans (blockMax_apply X p))

/-- The block's chain read at (p, q) is the log-softmax of row p. -/
theorem blockLogSoftmax_row (X : FVec Ideal S10000x32 .f32) (p : Fin 10000) (q : Fin 32) :
    blockLogSoftmax X (ix2 p q) = lsmRow (fun k => X (ix2 p k)) q := by
  rw [blockLogSoftmax_eq]
  unfold blockLogSoftmaxNamed lsmRow
  refine (subf_apply _ _ _).trans ?_
  refine congrArg₂ (fun a b : EReal => a - b) (blockShifted_apply X p q) ?_
  refine (col_bcast_apply _ p q).trans ?_
  refine (log_apply _ _).trans ?_
  refine congrArg Ideal.log ?_
  refine (col_cast_apply _ p).trans ?_
  refine (Ideal.multiReduction_add_single _ 0x00000000#32 reduces_S10000x32_S10000 (.inl rfl) rfl (ix1 p)).trans ?_
  refine Finset.sum_congr rfl fun k _ => ?_
  refine (exp_apply _ _).trans ?_
  refine congrArg Ideal.exp ?_
  exact (congrArg _ (lift_row p k)).trans (blockShifted_apply X p k)

/-! ## The whole array's side -/

/-- A column [a] laid out as [a,1] by a broadcast reads row `r` at (r, 0). -/
theorem hostCol_apply (v : (⟨Cert.ReferenceIdeal.S100000, .f32⟩ : BufTy).Contents (Elt Ideal)) (r : Fin 100000) :
    broadcastInDim Cert.ReferenceIdeal.S100000x1 ![0] Cert.ReferenceIdeal.Facts₀.bcast_S100000_S100000x1_0 v (ix2 r (0 : Fin 1)) = v (ix1 r) :=
  broadcastInDim_apply _ Cert.ReferenceIdeal.Facts₀.bcast_S100000_S100000x1_0 v (ix2 r (0 : Fin 1)) (ix1 r) fun a => by
    match a with
    | ⟨0, _⟩ => show r.val = if (100000 : ℕ) = 1 then 0 else r.val; rw [if_neg (by decide)]

/-- A column [a,1] laid along the 32 lanes reads, at (r, q), the column at (r, 0). -/
theorem hostColBcast_apply (v : (⟨Cert.ReferenceIdeal.S100000x1, .f32⟩ : BufTy).Contents (Elt Ideal)) (r : Fin 100000) (q : Fin 32) :
    broadcastInDim Cert.ReferenceIdeal.S100000x32 ![0, 1] Cert.ReferenceIdeal.Facts₀.bcast_S100000x1_S100000x32_0_1 v (ix2 r q) = v (ix2 r (0 : Fin 1)) :=
  broadcastInDim_apply _ Cert.ReferenceIdeal.Facts₀.bcast_S100000x1_S100000x32_0_1 v (ix2 r q) (ix2 r (0 : Fin 1)) fun a => by
    match a with
    | ⟨0, _⟩ => show r.val = if (100000 : ℕ) = 1 then 0 else r.val; rw [if_neg (by decide)]
    | ⟨1, _⟩ => rfl

/-- The lane index the reduction over axis 1 inserts, for the whole array. -/
theorem hostLift_row (h : Cert.ReferenceIdeal.S100000x32.Reduces [1] Cert.ReferenceIdeal.S100000) (r : Fin 100000) (k : Fin 32) : h.lift (ix1 r) k = ix2 r k := by
  funext a
  apply Fin.ext
  match a with
  | ⟨0, _⟩ => rfl
  | ⟨1, _⟩ => rfl

/-- The whole array's row maximum is the row's. -/
theorem hostRowMax_apply (Y : (⟨Cert.ReferenceIdeal.S100000x32, .f32⟩ : BufTy).Contents (Elt Ideal)) (r : Fin 100000) :
    Cert.Chain.rowMax (F := Ideal) Y (ix1 r) = rowMax fun k => Y (ix2 r k) := by
  unfold Cert.Chain.rowMax rowMax
  refine (maximumf_apply _ _ (ix1 r)).trans ?_
  refine congrArg₂ (max : EReal → EReal → EReal) ?_ ?_
  · exact (broadcastInDim_apply _ _ _ (ix1 r) ix0 (fun a => a.elim0)).trans (constant_apply _ _)
  · refine (Host.reduce_eq_fold_single (FloatOps.maximumf (F := Ideal) (φ := .f32)) Y _ Cert.ReferenceIdeal.Facts₀.reducesTo_S100000x32_S100000_d1 (by decide) Cert.ReferenceIdeal.Facts₀.h_S_ (ix1 r)).trans ?_
    refine (fold_maximumf_eq _ _).trans ?_
    refine congrArg₂ (fun b f => (Finset.univ : Finset (Fin 32)).fold max b f) (constant_apply _ _) ?_
    funext k
    exact congrArg Y (hostLift_row _ r k)

/-- The whole array's rows, each less its maximum. -/
theorem hostShifted_apply (Y : (⟨Cert.ReferenceIdeal.S100000x32, .f32⟩ : BufTy).Contents (Elt Ideal)) (r : Fin 100000) (k : Fin 32) :
    Cert.Chain.shifted (F := Ideal) Y (ix2 r k) = Y (ix2 r k) - rowMax (fun k => Y (ix2 r k)) := by
  unfold Cert.Chain.shifted
  refine (subf_apply _ _ _).trans ?_
  refine congrArg (Y (ix2 r k) - ·) ?_
  exact (hostColBcast_apply _ r k).trans ((hostCol_apply _ r).trans (hostRowMax_apply Y r))

/-- The whole array's log-softmax read at (r, q) is the log-softmax of row r: the sum of exponentials starts from
    zero, which adds nothing. -/
theorem hostLogSoftmax_row (Y : (⟨Cert.ReferenceIdeal.S100000x32, .f32⟩ : BufTy).Contents (Elt Ideal)) (r : Fin 100000) (q : Fin 32) :
    Cert.Chain.logSoftmax (F := Ideal) Y (ix2 r q) = lsmRow (fun k => Y (ix2 r k)) q := by
  unfold Cert.Chain.logSoftmax lsmRow
  refine (subf_apply _ _ _).trans ?_
  refine congrArg₂ (fun a b : EReal => a - b) (hostShifted_apply Y r q) ?_
  refine (hostColBcast_apply _ r q).trans ?_
  refine (hostLog_apply _ _).trans ?_
  refine congrArg Ideal.log ?_
  refine (hostCol_apply _ r).trans ?_
  refine (hostReduceAdd_apply _ _ _ _ _).trans ?_
  refine (Ideal.hostReduceAdd_single Cert.ReferenceIdeal.Facts₀.reducesTo_S100000x32_S100000_d1 (by decide) _ _ (ix1 r)).trans ?_
  refine (congrArg₂ (fun a b : EReal => a + b) ((constant_apply _ _).trans Ideal.ofBits_zero_f32)
    (Finset.sum_congr rfl fun k _ => ?_)).trans (zero_add _)
  refine (hostExp_apply _ _).trans ?_
  refine congrArg Ideal.exp ?_
  exact (congrArg _ (hostLift_row _ r k)).trans (hostShifted_apply Y r k)

/-! ## The two sides meet at the row -/

/-- A block's row and an array's row holding the same 32 numbers have the same log-softmax. -/
theorem blockLogSoftmax_apply (X : FVec Ideal S10000x32 .f32) (Y : (⟨Cert.ReferenceIdeal.S100000x32, .f32⟩ : BufTy).Contents (Elt Ideal))
    (p : Fin 10000) (r : Fin 100000) (q : Fin 32) (hrow : ∀ k : Fin 32, X (ValueIdx.ix2 p k) = Y (ValueIdx.ix2 r k)) :
    blockLogSoftmax X (ValueIdx.ix2 p q) = Cert.Chain.logSoftmax (F := Ideal) Y (ValueIdx.ix2 r q) :=
  (blockLogSoftmax_row X p q).trans ((congrArg (lsmRow · q) (funext hrow)).trans (hostLogSoftmax_row Y r q).symm)

end Cert.KernelIdeal.SoftmaxRow

end
-- ==== Proof.Region2.lean ====
import proofs.«175872_j37838661877984_1_alg».proof.Proof.Gen.KernelIdeal.Frame
import proofs.«175872_j37838661877984_1_alg».proof.Proof.Chain
import proofs.«175872_j37838661877984_1_alg».proof.Proof.HeadRow
import proofs.«175872_j37838661877984_1_alg».proof.Proof.SoftmaxRow
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

/-!
# The last region: the head and its row-wise log-softmax

The region walks the 100000 nodes in ten blocks of 10000 rows. At each block it adds to each of the two branches'
second layers its bias row, multiplies the first by the upper 32 rows of the head's 64 by 32 weight matrix and the
second by the lower 32 rows, adds the two products and the head's bias row, and takes the log-softmax of every row of
32; the result goes to the matching row block of the output.

Every step works row by row: row p of the block's result reads row p of the two branches' blocks and nothing else of
them, and that row is row 10000·t + p of the whole arrays. The host joins the two branches side by side and multiplies
once by the whole weight matrix; its sum over the 64 joined features is the sum over the first 32 plus the sum over
the last 32, which are the block's two products term by term (the bias rows are the host's one-row reshapes, the two
32 by 32 matrices its slices of the weights). So the pre-activations agree row by row, a row's log-softmax depends on
that row only, and the ten blocks, which tile the rows, leave the output holding the head's whole result. No law of
arithmetic beyond the splitting of a finite sum is used.
-/

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The operand indices of the products

At output entry (i₀, i₁) and shared coordinate s, a product of a matrix of rows with a weight matrix reads the left
operand at (i₀, s) and the right operand at (s, i₁). Here for a block of 10000 rows against a 32 by 32 matrix. -/

theorem blk_lhs_row (i : S10000x32.Idx) (s : dot_S10000x32_S32x32_S10000x32_1_0_0_1_n_n.contr.Idx) : (dot_S10000x32_S32x32_S10000x32_1_0_0_1_n_n.lhsIdx i s 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem blk_lhs_col (i : S10000x32.Idx) (s : dot_S10000x32_S32x32_S10000x32_1_0_0_1_n_n.contr.Idx) : (dot_S10000x32_S32x32_S10000x32_1_0_0_1_n_n.lhsIdx i s 1).val = (s ⟨0, by decide⟩).val :=
  dot_S10000x32_S32x32_S10000x32_1_0_0_1_n_n.lhsIdx_val_of_single rfl i s
theorem blk_rhs_row (i : S10000x32.Idx) (s : dot_S10000x32_S32x32_S10000x32_1_0_0_1_n_n.contr.Idx) : (dot_S10000x32_S32x32_S10000x32_1_0_0_1_n_n.rhsIdx i s 0).val = (s ⟨0, by decide⟩).val :=
  dot_S10000x32_S32x32_S10000x32_1_0_0_1_n_n.rhsIdx_val_of_single rfl i s
theorem blk_rhs_col (i : S10000x32.Idx) (s : dot_S10000x32_S32x32_S10000x32_1_0_0_1_n_n.contr.Idx) : (dot_S10000x32_S32x32_S10000x32_1_0_0_1_n_n.rhsIdx i s 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Entry (p, q) of a block of 10000 rows times a 32 by 32 matrix, added into zero: the sum over the 32 shared
    coordinates of row p's entries times column q's. -/
theorem blockProduct_apply (l : FVec Ideal S10000x32 .bf16) (w : FVec Ideal S32x32 .bf16) (p : Fin 10000) (q : Fin 32) :
    matmul dot_S10000x32_S32x32_S10000x32_1_0_0_1_n_n none l w (constant (F := Ideal) S10000x32 .f32 0x00000000#32) (ix2 p q)
      = ∑ k : Fin 32, l (ix2 p k) * w (ix2 k q) := by
  simp only [matmul]
  rw [Ideal.matmul_constant_zero_apply]
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 p q) ((ValueIdx.contrEquiv1 dot_S10000x32_S32x32_S10000x32_1_0_0_1_n_n 32 rfl rfl).symm k) = ix2 p k := funext fun a => Fin.ext (by
    match a with
    | ⟨0, _⟩ => exact blk_lhs_row _ _
    | ⟨1, _⟩ => exact (blk_lhs_col _ _).trans hk)
  have er : dot_S10000x32_S32x32_S10000x32_1_0_0_1_n_n.rhsIdx (ix2 p q) ((ValueIdx.contrEquiv1 dot_S10000x32_S32x32_S10000x32_1_0_0_1_n_n 32 rfl rfl).symm k) = ix2 k q := funext fun a => Fin.ext (by
    match a with
    | ⟨0, _⟩ => exact (blk_rhs_row _ _).trans hk
    | ⟨1, _⟩ => exact blk_rhs_col _ _)
  rw [el, er]

/-! ## The pre-activations of a block of rows -/

/-- What the block feeds its log-softmax: each branch plus its bias row, times its half of the head's weights, the
    two products added, plus the head's bias row. -/
def preK (v0 : Vec Ideal S10000x32 .f32) (v2 : Vec Ideal S1x32 .f32) (v7 : Vec Ideal S10000x32 .f32) (v9 : Vec Ideal S1x32 .f32) (v14 : Vec Ideal S32x32 .f32) (v17 : Vec Ideal S32x32 .f32) (v23 : Vec Ideal S1x32 .f32) : FVec Ideal S10000x32 .f32 :=
  have v1 : FVec Ideal S10000x32 .f32 := shapeCast S10000x32 v0 shapeCasts_S10000x32_S10000x32
  have v3 : FVec Ideal S1x32 .f32 := shapeCast S1x32 v2 shapeCasts_S1x32_S1x32
  have v4 : FVec Ideal S10000x32 .f32 := broadcastTo S10000x32 v3 broadcasts_S1x32_S10000x32
  have v5 : FVec Ideal S10000x32 .f32 := addf v1 v4
  have v6 : FVec Ideal S10000x32 .bf16 := truncf .bf16 v5 bitsLt_bf16_f32
  have v8 : FVec Ideal S10000x32 .f32 := shapeCast S10000x32 v7 shapeCasts_S10000x32_S10000x32
  have v10 : FVec Ideal S1x32 .f32 := shapeCast S1x32 v9 shapeCasts_S1x32_S1x32
  have v11 : FVec Ideal S10000x32 .f32 := broadcastTo S10000x32 v10 broadcasts_S1x32_S10000x32
  have v12 : FVec Ideal S10000x32 .f32 := addf v8 v11
  have v13 : FVec Ideal S10000x32 .bf16 := truncf .bf16 v12 bitsLt_bf16_f32
  have v15 : FVec Ideal S32x32 .f32 := shapeCast S32x32 v14 shapeCasts_S32x32_S32x32
  have v16 : FVec Ideal S32x32 .bf16 := truncf .bf16 v15 bitsLt_bf16_f32
  have v18 : FVec Ideal S32x32 .f32 := shapeCast S32x32 v17 shapeCasts_S32x32_S32x32
  have v19 : FVec Ideal S32x32 .bf16 := truncf .bf16 v18 bitsLt_bf16_f32
  have cst : FVec Ideal S10000x32 .f32 := constant S10000x32 .f32 0x00000000#32
  have v20 : FVec Ideal S10000x32 .f32 := matmul dot_S10000x32_S32x32_S10000x32_1_0_0_1_n_n none v6 v16 cst
  have cst_11 : FVec Ideal S10000x32 .f32 := constant S10000x32 .f32 0x00000000#32
  have v21 : FVec Ideal S10000x32 .f32 := matmul dot_S10000x32_S32x32_S10000x32_1_0_0_1_n_n none v13 v19 cst_11
  have v22 : FVec Ideal S10000x32 .f32 := addf v20 v21
  have v24 : FVec Ideal S1x32 .f32 := shapeCast S1x32 v23 shapeCasts_S1x32_S1x32
  have v25 : FVec Ideal S10000x32 .f32 := broadcastTo S10000x32 v24 broadcasts_S1x32_S10000x32
  addf v22 v25

/-- A branch's operand of its product, entry by entry: the branch plus its bias row (the change of float format
    is the identity on extended reals). -/
theorem biased_apply (v0 : Vec Ideal S10000x32 .f32) (v2 : Vec Ideal S1x32 .f32) (p : Fin 10000) (k : Fin 32) :
    (truncf .bf16 (addf (shapeCast S10000x32 v0 shapeCasts_S10000x32_S10000x32) (broadcastTo S10000x32 (shapeCast S1x32 v2 shapeCasts_S1x32_S1x32) broadcasts_S1x32_S10000x32)) bitsLt_bf16_f32 : FVec Ideal S10000x32 .bf16) (ix2 p k)
      = v0 (ix2 p k) + v2 (ix2 (0 : Fin 1) k) := by
  rw [shapeCast_self, shapeCast_self]
  show v0 (ix2 p k) + _ = _
  exact congrArg (v0 (ix2 p k) + ·) (broadcastTo_1b_ab_apply v2 broadcasts_S1x32_S10000x32 p k)

/-- The block's pre-activation at (p, q). -/
theorem preK_apply (v0 : Vec Ideal S10000x32 .f32) (v2 : Vec Ideal S1x32 .f32) (v7 : Vec Ideal S10000x32 .f32) (v9 : Vec Ideal S1x32 .f32) (v14 : Vec Ideal S32x32 .f32) (v17 : Vec Ideal S32x32 .f32) (v23 : Vec Ideal S1x32 .f32) (p : Fin 10000) (q : Fin 32) :
    preK v0 v2 v7 v9 v14 v17 v23 (ix2 p q)
      = (∑ k : Fin 32, (v0 (ix2 p k) + v2 (ix2 (0 : Fin 1) k)) * v14 (ix2 k q))
        + (∑ k : Fin 32, (v7 (ix2 p k) + v9 (ix2 (0 : Fin 1) k)) * v17 (ix2 k q))
        + v23 (ix2 (0 : Fin 1) q) := by
  unfold preK
  show (_ + _) + _ = _
  refine congrArg₂ (· + ·) (congrArg₂ (· + ·) ?_ ?_) ?_
  · refine (blockProduct_apply _ _ p q).trans (Finset.sum_congr rfl fun k _ => ?_)
    refine congrArg₂ (· * ·) (biased_apply v0 v2 p k) ?_
    show shapeCast S32x32 v14 shapeCasts_S32x32_S32x32 (ix2 k q) = _
    rw [shapeCast_self]
  · refine (blockProduct_apply _ _ p q).trans (Finset.sum_congr rfl fun k _ => ?_)
    refine congrArg₂ (· * ·) (biased_apply v7 v9 p k) ?_
    show shapeCast S32x32 v17 shapeCasts_S32x32_S32x32 (ix2 k q) = _
    rw [shapeCast_self]
  · rw [shapeCast_self]
    exact broadcastTo_1b_ab_apply v23 broadcasts_S1x32_S10000x32 p q

/-! ## Blocks as rows of their arrays -/

variable (V : (c : Dev nD) → (b : Ref sig .tc) → Buf (Elt Ideal) ((c : Thread nD τ).loc b))

theorem hz : (![0, 0] : Fin 2 → Nat) = fun _ => 0 := funext fun a => by fin_cases a <;> rfl

/-- The windows' block indices at grid point t: the two branches and the output move down the rows with t, the three
    bias rows and the two halves of the head's weights stay put. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The first branch's block at point t is rows 10000·t … 10000·t + 9999 of the branch. -/
theorem rowsBlock0_apply (c : Dev nD) (t : Fin cfg2.N) (x : S10000x32.Idx) (k : S100000x32.Idx)
    (hk0 : (k 0).val = 10000 * t.val + (x 0).val) (hk1 : (k 1).val = (x 1).val) :
    (iblk2 V c 0 t : Vec Ideal S10000x32 .f32) x = (V c main_v72 : S100000x32.Idx → Elt Ideal .f32) k := by
  obtain ⟨h0, h1, -⟩ := blockIndex t
  unfold iblk2
  rw [View.read_apply]
  show V c main_v72 _ = V c main_v72 _
  congr 1
  funext a
  apply Fin.ext
  match a with
  | ⟨0, _⟩ => show win2_0.index t 0 * 10000 + 1 * (x 0).val = (k 0).val; rw [h0, hk0]; omega
  | ⟨1, _⟩ => show win2_0.index t 1 * 32 + 1 * (x 1).val = (k 1).val; rw [h1, hk1]; omega

/-- The second branch's block at point t is the same rows of the second branch. -/
theorem rowsBlock3_apply (c : Dev nD) (t : Fin cfg2.N) (x : S10000x32.Idx) (k : S100000x32.Idx)
    (hk0 : (k 0).val = 10000 * t.val + (x 0).val) (hk1 : (k 1).val = (x 1).val) :
    (iblk2 V c 3 t : Vec Ideal S10000x32 .f32) x = (V c main_v85 : S100000x32.Idx → Elt Ideal .f32) k := by
  obtain ⟨-, -, -, -, -, -, h0, h1, -⟩ := blockIndex t
  unfold iblk2
  rw [View.read_apply]
  show V c main_v85 _ = V c main_v85 _
  congr 1
  funext a
  apply Fin.ext
  match a with
  | ⟨0, _⟩ => show win2_3.index t 0 * 10000 + 1 * (x 0).val = (k 0).val; rw [h0, hk0]; omega
  | ⟨1, _⟩ => show win2_3.index t 1 * 32 + 1 * (x 1).val = (k 1).val; rw [h1, hk1]; omega

/-- The first branch's bias row, whole at every point. -/
theorem wholeBlock1_apply (c : Dev nD) (t : Fin cfg2.N) (x : S1x32.Idx) :
    (iblk2 V c 1 t : Vec Ideal S1x32 .f32) x = (V c main_v88 : S1x32.Idx → Elt Ideal .f32) x := by
  obtain ⟨-, -, h0, h1, -⟩ := blockIndex t
  unfold iblk2
  rw [View.read_apply]
  show V c main_v88 _ = V c main_v88 _
  congr 1
  funext a
  apply Fin.ext
  match a with
  | ⟨0, _⟩ => show win2_1.index t 0 * 1 + 1 * (x 0).val = (x 0).val; rw [h0]; omega
  | ⟨1, _⟩ => show win2_1.index t 1 * 32 + 1 * (x 1).val = (x 1).val; rw [h1]; omega

/-- The second branch's bias row, whole at every point. -/
theorem wholeBlock4_apply (c : Dev nD) (t : Fin cfg2.N) (x : S1x32.Idx) :
    (iblk2 V c 4 t : Vec Ideal S1x32 .f32) x = (V c main_v89 : S1x32.Idx → Elt Ideal .f32) x := by
  obtain ⟨-, -, -, -, -, -, -, -, h0, h1, -⟩ := blockIndex t
  unfold iblk2
  rw [View.read_apply]
  show V c main_v89 _ = V c main_v89 _
  congr 1
  funext a
  apply Fin.ext
  match a with
  | ⟨0, _⟩ => show win2_4.index t 0 * 1 + 1 * (x 0).val = (x 0).val; rw [h0]; omega
  | ⟨1, _⟩ => show win2_4.index t 1 * 32 + 1 * (x 1).val = (x 1).val; rw [h1]; omega

/-- The head's bias row, whole at every point. -/
theorem wholeBlock6_apply (c : Dev nD) (t : Fin cfg2.N) (x : S1x32.Idx) :
    (iblk2 V c 6 t : Vec Ideal S1x32 .f32) x = (V c main_v90 : S1x32.Idx → Elt Ideal .f32) x := by
  obtain ⟨-, -, -, -, -, -, -, -, -, -, -, -, h0, h1, -⟩ := blockIndex t
  unfold iblk2
  rw [View.read_apply]
  show V c main_v90 _ = V c main_v90 _
  congr 1
  funext a
  apply Fin.ext
  match a with
  | ⟨0, _⟩ => show win2_6.index t 0 * 1 + 1 * (x 0).val = (x 0).val; rw [h0]; omega
  | ⟨1, _⟩ => show win2_6.index t 1 * 32 + 1 * (x 1).val = (x 1).val; rw [h1]; omega

/-- The upper half of the head's weights, whole at every point. -/
theorem wholeBlock2_apply (c : Dev nD) (t : Fin cfg2.N) (x : S32x32.Idx) :
    (iblk2 V c 2 t : Vec Ideal S32x32 .f32) x = (V c main_v86 : S32x32.Idx → Elt Ideal .f32) x := by
  obtain ⟨-, -, -, -, h0, h1, -⟩ := blockIndex t
  unfold iblk2
  rw [View.read_apply]
  show V c main_v86 _ = V c main_v86 _
  congr 1
  funext a
  apply Fin.ext
  match a with
  | ⟨0, _⟩ => show win2_2.index t 0 * 32 + 1 * (x 0).val = (x 0).val; rw [h0]; omega
  | ⟨1, _⟩ => show win2_2.index t 1 * 32 + 1 * (x 1).val = (x 1).val; rw [h1]; omega

/-- The lower half of the head's weights, whole at every point. -/
theorem wholeBlock5_apply (c : Dev nD) (t : Fin cfg2.N) (x : S32x32.Idx) :
    (iblk2 V c 5 t : Vec Ideal S32x32 .f32) x = (V c main_v87 : S32x32.Idx → Elt Ideal .f32) x := by
  obtain ⟨-, -, -, -, -, -, -, -, -, -, h0, h1, -⟩ := blockIndex t
  unfold iblk2
  rw [View.read_apply]
  show V c main_v87 _ = V c main_v87 _
  congr 1
  funext a
  apply Fin.ext
  match a with
  | ⟨0, _⟩ => show win2_5.index t 0 * 32 + 1 * (x 0).val = (x 0).val; rw [h0]; omega
  | ⟨1, _⟩ => show win2_5.index t 1 * 32 + 1 * (x 1).val = (x 1).val; rw [h1]; omega

/-- An entry of a whole-array function read through the output window's block at point t. -/
theorem outBlock_apply (c : Dev nD) (t : Fin cfg2.N) (G : Buf (Elt Ideal) ((cfg2.win 7).arr.view.loc (c.tc : Thread nD τ)))
    (y : S10000x32.Idx) (k : S100000x32.Idx)
    (hk0 : (k 0).val = 10000 * t.val + (y 0).val) (hk1 : (k 1).val = (y 1).val) :
    (((cfg2.win 7).blk t).view.read (Elt Ideal) G : Vec Ideal S10000x32 .f32) y = (G : S100000x32.Idx → Elt Ideal .f32) k := by
  obtain ⟨-, -, -, -, -, -, -, -, -, -, -, -, -, -, h0, h1⟩ := blockIndex t
  rw [View.read_apply]
  refine congrArg (G : S100000x32.Idx → Elt Ideal .f32) (funext fun a => Fin.ext ?_)
  match a with
  | ⟨0, _⟩ => show win2_7.index t 0 * 10000 + 1 * (y 0).val = (k 0).val; rw [h0, hk0]; omega
  | ⟨1, _⟩ => show win2_7.index t 1 * 32 + 1 * (y 1).val = (k 1).val; rw [h1, hk1]; omega

/-! ## The host's reshapes and slices, entry by entry -/

/-- A 32-vector reshaped to one row, read at (0, k), is the vector at k. -/
theorem biasRow_apply (b : (⟨S32, .f32⟩ : BufTy).Contents (Elt Ideal)) (k : Fin 32) :
    shapeCast S1x32 b shapeCasts_S32_S1x32 (ix2 (0 : Fin 1) k) = b (ix1 k) :=
  shapeCast_a_1a_apply b shapeCasts_S32_S1x32 0 k

/-- The upper 32 rows of the head's weights: row j of the slice is row j of the matrix. -/
theorem upperHalf_apply (w : (⟨S64x32, .f32⟩ : BufTy).Contents (Elt Ideal)) (j k : Fin 32) :
    extractStridedSlice S32x32 ![0, 0] w slices_S64x32_S32x32_0_0 (ix2 j k) = w (ix2 (⟨j.val, by omega⟩ : Fin 64) k) :=
  extractStridedSlice_apply ![0, 0] w slices_S64x32_S32x32_0_0 (ix2 j k) (ix2 (⟨j.val, by omega⟩ : Fin 64) k) fun a => by
    match a with
    | ⟨0, _⟩ => show j.val = 0 + j.val; omega
    | ⟨1, _⟩ => show k.val = 0 + k.val; omega

/-- The lower 32 rows: row j of the slice is row 32 + j of the matrix. -/
theorem lowerHalf_apply (w : (⟨S64x32, .f32⟩ : BufTy).Contents (Elt Ideal)) (j k : Fin 32) :
    extractStridedSlice S32x32 ![32, 0] w slices_S64x32_S32x32_32_0 (ix2 j k) = w (ix2 (⟨32 + j.val, by omega⟩ : Fin 64) k) :=
  extractStridedSlice_apply ![32, 0] w slices_S64x32_S32x32_32_0 (ix2 j k) (ix2 (⟨32 + j.val, by omega⟩ : Fin 64) k) fun a => by
    match a with
    | ⟨0, _⟩ => show 32 + j.val = 32 + j.val; rfl
    | ⟨1, _⟩ => show k.val = 0 + k.val; omega

/-! ## The output -/

/-- The stored value is the log-softmax chain of the pre-activations. -/
theorem pay_eq (v0 : Vec Ideal S10000x32 .f32) (v2 : Vec Ideal S1x32 .f32) (v7 : Vec Ideal S10000x32 .f32) (v9 : Vec Ideal S1x32 .f32) (v14 : Vec Ideal S32x32 .f32) (v17 : Vec Ideal S32x32 .f32) (v23 : Vec Ideal S1x32 .f32) :
    k2_pay1 (F := Ideal) v0 v2 v7 v9 v14 v17 v23 = SoftmaxRow.blockLogSoftmax (preK v0 v2 v7 v9 v14 v17 v23) := rfl

/-- Row p of the block's pre-activations at point t is row 10000·t + p of the head's pre-activations: the block's
    row of each branch is that row of the branch, the bias rows and the two halves of the weights are the host's
    reshapes and slices, and the sum over the 64 joined features is the two sums over 32, term by term. -/
theorem preRow_eq (c : Dev nD) (b2 bh2 blp : (⟨S32, .f32⟩ : BufTy).Contents (Elt Ideal)) (wlp : (⟨S64x32, .f32⟩ : BufTy).Contents (Elt Ideal))
    (h88 : V c main_v88 = shapeCast _ b2 shapeCasts_S32_S1x32)
    (h89 : V c main_v89 = shapeCast _ bh2 shapeCasts_S32_S1x32)
    (h90 : V c main_v90 = shapeCast _ blp shapeCasts_S32_S1x32)
    (h86 : V c main_v86 = extractStridedSlice S32x32 ![0, 0] wlp slices_S64x32_S32x32_0_0)
    (h87 : V c main_v87 = extractStridedSlice S32x32 ![32, 0] wlp slices_S64x32_S32x32_32_0)
    (t : Fin cfg2.N) (p : Fin 10000) (r : Fin 100000) (hr : r.val = 10000 * t.val + p.val) (k : Fin 32) :
    preK (iblk2 V c 0 t) (iblk2 V c 1 t) (iblk2 V c 3 t) (iblk2 V c 4 t) (iblk2 V c 2 t) (iblk2 V c 5 t) (iblk2 V c 6 t) (ix2 p k) = (addf (Cert.Chain.mm2 (F := Ideal) (Cert.Chain.cat (addf (V c main_v72) (Cert.Chain.bias32 b2)) (addf (V c main_v85) (Cert.Chain.bias32 bh2))) wlp) (Cert.Chain.bias32 blp)) (ix2 r k) := by
  refine (preK_apply (iblk2 V c 0 t) (iblk2 V c 1 t) (iblk2 V c 3 t) (iblk2 V c 4 t) (iblk2 V c 2 t) (iblk2 V c 5 t) (iblk2 V c 6 t) p k).trans ?_
  refine Eq.trans ?_ (HeadRow.headRow_apply _ _ wlp blp r k).symm
  refine congrArg₂ (· + ·) (congrArg₂ (· + ·) (Finset.sum_congr rfl fun j _ => ?_) (Finset.sum_congr rfl fun j _ => ?_)) ?_
  · refine congrArg₂ (· * ·) ?_ ?_
    · refine Eq.trans ?_ (addf_apply (s := S100000x32) (φ := .f32) _ _ (ix2 r j)).symm
      refine congrArg₂ (· + ·) (rowsBlock0_apply V c t (ix2 p j) (ix2 r j) hr rfl) ?_
      refine (wholeBlock1_apply V c t (ix2 (0 : Fin 1) j)).trans ?_
      refine (congrFun h88 (ix2 (0 : Fin 1) j)).trans ?_
      exact (biasRow_apply b2 j).trans (HeadRow.bias32_apply b2 r j).symm
    · refine (wholeBlock2_apply V c t (ix2 j k)).trans ?_
      exact (congrFun h86 (ix2 j k)).trans (upperHalf_apply wlp j k)
  · refine congrArg₂ (· * ·) ?_ ?_
    · refine Eq.trans ?_ (addf_apply (s := S100000x32) (φ := .f32) _ _ (ix2 r j)).symm
      refine congrArg₂ (· + ·) (rowsBlock3_apply V c t (ix2 p j) (ix2 r j) hr rfl) ?_
      refine (wholeBlock4_apply V c t (ix2 (0 : Fin 1) j)).trans ?_
      refine (congrFun h89 (ix2 (0 : Fin 1) j)).trans ?_
      exact (biasRow_apply bh2 j).trans (HeadRow.bias32_apply bh2 r j).symm
    · refine (wholeBlock5_apply V c t (ix2 j k)).trans ?_
      exact (congrFun h87 (ix2 j k)).trans (lowerHalf_apply wlp j k)
  · refine (wholeBlock6_apply V c t (ix2 (0 : Fin 1) k)).trans ?_
    exact (congrFun h90 (ix2 (0 : Fin 1) k)).trans (biasRow_apply blp k)

/-- What point t writes back is block t of the head's output: the log-softmax of a row reads only that row of the
    pre-activations, and row p of the block's is row 10000·t + p of the whole array's. -/
theorem flushed_eq (c : Dev nD) (b2 bh2 blp : (⟨S32, .f32⟩ : BufTy).Contents (Elt Ideal)) (wlp : (⟨S64x32, .f32⟩ : BufTy).Contents (Elt Ideal))
    (h88 : V c main_v88 = shapeCast _ b2 shapeCasts_S32_S1x32)
    (h89 : V c main_v89 = shapeCast _ bh2 shapeCasts_S32_S1x32)
    (h90 : V c main_v90 = shapeCast _ blp shapeCasts_S32_S1x32)
    (h86 : V c main_v86 = extractStridedSlice S32x32 ![0, 0] wlp slices_S64x32_S32x32_0_0)
    (h87 : V c main_v87 = extractStridedSlice S32x32 ![32, 0] wlp slices_S64x32_S32x32_32_0) (t : Fin cfg2.N) :
    (dat2 (F := Ideal) V c).flushed 7 t = ((cfg2.win 7).blk t).view.read (Elt Ideal) (Cert.Chain.headOut (F := Ideal) (addf (V c main_v72) (Cert.Chain.bias32 b2)) (addf (V c main_v85) (Cert.Chain.bias32 bh2)) wlp blp) := by
  show (cfg2.win 7).cut (grid2.coords t) ((dat2 V c).after 7 t) = _
  rw [after2_7]
  unfold out2_7
  rw [View.canon_unit_zero hz]
  simp only [View.ld_unit_zero (S := S10000x32) hz, View.ld_unit_zero (S := S1x32) hz, View.ld_unit_zero (S := S32x32) hz]
  refine funext fun (y : S10000x32.Idx) => ?_
  obtain ⟨p, q, rfl⟩ : ∃ (p : Fin 10000) (q : Fin 32), y = ix2 p q := ⟨y 0, y 1, eq_ix2 y⟩
  have hN : cfg2.N = 10 := N_2
  have ht : t.val < 10 := hN ▸ t.isLt
  refine Eq.trans ?_ (outBlock_apply c t (Cert.Chain.headOut (F := Ideal) (addf (V c main_v72) (Cert.Chain.bias32 b2)) (addf (V c main_v85) (Cert.Chain.bias32 bh2)) wlp blp) (ix2 p q)
    (ix2 (⟨10000 * t.val + p.val, by omega⟩ : Fin 100000) q) rfl rfl).symm
  refine (congrFun (pay_eq (iblk2 V c 0 t) (iblk2 V c 1 t) (iblk2 V c 3 t) (iblk2 V c 4 t) (iblk2 V c 2 t) (iblk2 V c 5 t) (iblk2 V c 6 t)) (ix2 p q)).trans ?_
  unfold Cert.Chain.headOut
  exact SoftmaxRow.blockLogSoftmax_apply (preK (iblk2 V c 0 t) (iblk2 V c 1 t) (iblk2 V c 3 t) (iblk2 V c 4 t) (iblk2 V c 2 t) (iblk2 V c 5 t) (iblk2 V c 6 t)) (addf (Cert.Chain.mm2 (F := Ideal) (Cert.Chain.cat (addf (V c main_v72) (Cert.Chain.bias32 b2)) (addf (V c main_v85) (Cert.Chain.bias32 bh2))) wlp) (Cert.Chain.bias32 blp)) p ⟨10000 * t.val + p.val, by omega⟩ q
    fun k => preRow_eq V c b2 bh2 blp wlp h88 h89 h90 h86 h87 t p ⟨10000 * t.val + p.val, by omega⟩ rfl k

/-- An index of the output array is in point t's block iff each coordinate is in the block's range. -/
theorem mem_block (t : Fin cfg2.N) (i : S100000x32.Idx) :
    i ∈ ((cfg2.win 7).blk t).view.set ↔ ∀ a : Fin 2, win2_7.index t a * S10000x32.size a ≤ (i a).val ∧ (i a).val < win2_7.index t a * S10000x32.size a + S10000x32.size a := by
  show i ∈ ((View.whole main_v91).slice (win2_7.rect t)).set ↔ _
  rw [View.set_slice_whole, Rect.mem_set_unit]
  exact Iff.rfl

/-- Row r of the output lies in the block of point r / 10000, which is written back. -/
theorem cover (i : S100000x32.Idx) : ∃ t : Fin cfg2.N, (cfg2.win 7).flush t = true ∧ i ∈ ((cfg2.win 7).blk t).view.set := by
  have hi0 : (i 0).val < 100000 := (i 0).isLt
  have hi1 : (i 1).val < 32 := (i 1).isLt
  have hN : cfg2.N = 10 := N_2
  refine ⟨⟨(i 0).val / 10000, by rw [hN]; omega⟩, flush2_7 _, ?_⟩
  rw [mem_block]
  obtain ⟨-, -, -, -, -, -, -, -, -, -, -, -, -, -, h0, h1⟩ := blockIndex ⟨(i 0).val / 10000, by rw [hN]; omega⟩
  intro a
  match a with
  | ⟨0, _⟩ => show win2_7.index _ (0 : Fin 2) * 10000 ≤ (i 0).val ∧ (i 0).val < win2_7.index _ (0 : Fin 2) * 10000 + 10000; rw [h0]; show (i 0).val / 10000 * 10000 ≤ _ ∧ _ < (i 0).val / 10000 * 10000 + 10000; omega
  | ⟨1, _⟩ => show win2_7.index _ (1 : Fin 2) * 32 ≤ (i 1).val ∧ (i 1).val < win2_7.index _ (1 : Fin 2) * 32 + 32; rw [h1]; omega

/-- So the output array ends holding the head's output: the row-wise log-softmax of the two biased branches side by
    side times the head's weights plus its bias. -/
theorem final_7 (c : Dev nD) (b2 bh2 blp : (⟨S32, .f32⟩ : BufTy).Contents (Elt Ideal)) (wlp : (⟨S64x32, .f32⟩ : BufTy).Contents (Elt Ideal))
    (h88 : V c main_v88 = shapeCast _ b2 shapeCasts_S32_S1x32)
    (h89 : V c main_v89 = shapeCast _ bh2 shapeCasts_S32_S1x32)
    (h90 : V c main_v90 = shapeCast _ blp shapeCasts_S32_S1x32)
    (h86 : V c main_v86 = extractStridedSlice S32x32 ![0, 0] wlp slices_S64x32_S32x32_0_0)
    (h87 : V c main_v87 = extractStridedSlice S32x32 ![32, 0] wlp slices_S64x32_S32x32_32_0) :
    (dat2 (F := Ideal) V c).arrAt 7 cfg2.N
      = Cert.Chain.headOut (F := Ideal) (addf (V c main_v72) (Cert.Chain.bias32 b2)) (addf (V c main_v85) (Cert.Chain.bias32 bh2)) wlp blp :=
  (dat2 V c).arrAt_eq_of_cover 7 _ (fun t _ => flushed_eq V c b2 bh2 blp wlp h88 h89 h90 h86 h87 t) cover

end Cert.KernelIdeal.Region2
end
-- ==== Proof.KernelValue.lean ====
import proofs.«175872_j37838661877984_1_alg».proof.Proof.KernelRun
import proofs.«175872_j37838661877984_1_alg».proof.Proof.Fold
import Idealize.ShloMosaic.PureOps.Ideal
import proofs.«175872_j37838661877984_1_alg».proof.Proof.Region0
import proofs.«175872_j37838661877984_1_alg».proof.Proof.Region1
import proofs.«175872_j37838661877984_1_alg».proof.Proof.Region2

/-!
The idealized kernel program's result is the network of the chain module applied to its arguments.

The result buffer is the third sweep's output array. Each sweep's output array is a dense function of the arrays the
sweep reads (the three region modules); each array a sweep reads is either an argument, or the message passing of the
previous sweep's output (the fold module). Composing them from the last sweep back to the first gives the network:
the first sweep is the two branches' first dense product, the second the positive part and the second dense product,
the third the head and the row-wise log-softmax.
-/

set_option maxRecDepth 16384

noncomputable section

namespace Cert.KernelIdeal.Hand

open Cert.KernelIdeal Cert.KernelIdeal.Gen Cert.KernelIdeal.Fold
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The first sweep's first output: the node features times the first branch's first weights. -/
theorem sweep0_g (c : Dev nD) : (dat0 (V3 m ρ) c).arrAt 3 cfg0.N
    = Cert.Chain.mm1 (F := Ideal) (m ((c : Thread nD τ).loc main_arg0)) (m ((c : Thread nD τ).loc main_arg3)) := by
  have h := Region0.final_3 (V3 m ρ) c
  rw [show V3 m ρ c main_arg0 = m ((c : Thread nD τ).loc main_arg0) from W3_arg0 m ρ c,
    show V3 m ρ c main_arg3 = m ((c : Thread nD τ).loc main_arg3) from W3_arg3 m ρ c] at h
  exact h

/-- The first sweep's second output: the same features times the second branch's first weights. -/
theorem sweep0_h (c : Dev nD) : (dat0 (V3 m ρ) c).arrAt 4 cfg0.N
    = Cert.Chain.mm1 (F := Ideal) (m ((c : Thread nD τ).loc main_arg0)) (m ((c : Thread nD τ).loc main_arg5)) := by
  have h := Region0.final_4 (V3 m ρ) c
  rw [show V3 m ρ c main_arg0 = m ((c : Thread nD τ).loc main_arg0) from W3_arg0 m ρ c,
    show V3 m ρ c main_arg5 = m ((c : Thread nD τ).loc main_arg5) from W3_arg5 m ρ c] at h
  exact h

/-- The second sweep's first output: bias, positive part and second dense product of the first branch's aggregated first layer. -/
theorem sweep1_g (c : Dev nD) : (dat1 (V5 m ρ) c).arrAt 6 cfg1.N
    = Cert.Chain.mm2 (F := Ideal) (Cert.Chain.reluBias (W5 m ρ c (Proc.devRef .tc main_v43)) (m ((c : Thread nD τ).loc main_arg4)))
        (m ((c : Thread nD τ).loc main_arg7)) := by
  have h := Region1.final_6 (V5 m ρ) c (m ((c : Thread nD τ).loc main_arg4)) (W5_b1 m ρ c)
  rw [show V5 m ρ c main_arg7 = m ((c : Thread nD τ).loc main_arg7) from W5_arg7 m ρ c] at h
  exact h

/-- The second sweep's second output. -/
theorem sweep1_h (c : Dev nD) : (dat1 (V5 m ρ) c).arrAt 7 cfg1.N
    = Cert.Chain.mm2 (F := Ideal) (Cert.Chain.reluBias (W5 m ρ c (Proc.devRef .tc main_v56)) (m ((c : Thread nD τ).loc main_arg6)))
        (m ((c : Thread nD τ).loc main_arg9)) := by
  have h := Region1.final_7 (V5 m ρ) c (m ((c : Thread nD τ).loc main_arg6)) (W5_bh1 m ρ c)
  rw [show V5 m ρ c main_arg9 = m ((c : Thread nD τ).loc main_arg9) from W5_arg9 m ρ c] at h
  exact h

/-- The third sweep's output: the head over the two branches' aggregated second layers plus their biases. -/
theorem sweep2 (c : Dev nD) : (dat2 (V7 m ρ) c).arrAt 7 cfg2.N
    = Cert.Chain.headOut (F := Ideal)
        (addf (W7 m ρ c (Proc.devRef .tc main_v72)) (Cert.Chain.bias32 (m ((c : Thread nD τ).loc main_arg8))))
        (addf (W7 m ρ c (Proc.devRef .tc main_v85)) (Cert.Chain.bias32 (m ((c : Thread nD τ).loc main_arg10))))
        (m ((c : Thread nD τ).loc main_arg11)) (m ((c : Thread nD τ).loc main_arg12)) :=
  Region2.final_7 (V7 m ρ) c (m ((c : Thread nD τ).loc main_arg8)) (m ((c : Thread nD τ).loc main_arg10))
    (m ((c : Thread nD τ).loc main_arg12)) (m ((c : Thread nD τ).loc main_arg11))
    (W7_b2 m ρ c) (W7_bh2 m ρ c) (W7_blp m ρ c) (W7_wtop m ρ c) (W7_wbot m ρ c)

/-- The result buffer at the return holds the network of the arguments. -/
theorem result_eq (c : Dev nD) : W8 m ρ c (Proc.devRef .tc main_v91) = Cert.Chain.network (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [show W8 m ρ c (Proc.devRef .tc main_v91) = (dat2 (V7 m ρ) c).arrAt 7 cfg2.N from W8_arr m ρ c 7, sweep2 m ρ c,
    W7_agg_g m ρ c, W7_agg_h m ρ c, sweep1_g m ρ c, sweep1_h m ρ c, W5_agg_g m ρ c, W5_agg_h m ρ c, sweep0_g m ρ c, sweep0_h m ρ c]
  rfl

/-- The run, read: the result buffer at the network of the arguments, the arguments unchanged. -/
theorem run : θ_run defs (onTc (τ := τ) (main (F := Ideal))) ⟨m, fun _ => 0, ρ⟩ (fun r => ∀ c : Dev nD,
      r.2.mem ((c.tc : Thread nD τ).loc main_v91) = Cert.Chain.network (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨(h c _ (mem_uc main_v91 (by decide))).trans (result_eq m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)
    (run_contents m ρ)

end Cert.KernelIdeal.Hand

end
-- ==== Proof.RefStages.lean ====
import proofs.«175872_j37838661877984_1_alg».proof.Proof.RefRun
import proofs.«175872_j37838661877984_1_alg».proof.Proof.Chain

/-!
The reference program read in stages.

The reference is one straight line of 146 host operations. It is read in stages: the edge list with its self-loops and
the normalisations; each branch's first layer; each branch's second layer; the head before its softmax; the softmax. The
contents of the buffers after a stage are a fold of the stage's operations over the contents before it; a buffer a stage
does not write keeps its contents, and a buffer it writes holds the operation's function of its operands' contents.
This module reads every stage but the last: the value the softmax is applied to is the head's dense product of the two
branches side by side, plus its bias.
-/

set_option maxRecDepth 16384

noncomputable section

namespace Cert.ReferenceIdeal.RefStages

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-- Operations run one list after another fold like their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The stages -/

/-- The edge list with the self-loops appended, the degrees and the edges' normalisations. -/
abbrev stageA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first branch's first layer: dense product, message passing, bias, positive part. -/
abbrev stageB : List (HloOp τ sig (Elt F)) :=
  [ binary main_arg0 main_arg3 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v39 main_v40 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf ]

/-- The second branch's first layer. -/
abbrev stageC : List (HloOp τ sig (Elt F)) :=
  [ binary main_arg0 main_arg5 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x64 ![0, 1] bcast_S3300000x1_S3300000x64_0_1 : (⟨S3300000x1, .f32⟩ : BufTy).Contents (Elt F) → (⟨S3300000x64, .f32⟩ : BufTy).Contents (Elt F)),
    binary main_v55 main_v57 main_v58 (mulf : (⟨S3300000x64, .f32⟩ : BufTy).Contents (Elt F) → (⟨S3300000x64, .f32⟩ : BufTy).Contents (Elt F) → (⟨S3300000x64, .f32⟩ : BufTy).Contents (Elt F)),
    nullary main_cst_11 (constant S_ .f32 0x00000000#32),
    unary main_cst_11 main_v59 (broadcastInDim S100000x64 ![] bcast_S_S100000x64 : (⟨S_, .f32⟩ : BufTy).Contents (Elt F) → (⟨S100000x64, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg6 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf ]

/-- The first branch's second layer. -/
abbrev stageD : List (HloOp τ sig (Elt F)) :=
  [ binary main_v47 main_arg7 main_v66 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_12 (constantI S_ 32 0#32),
    unary main_c_12 main_v67 (broadcastInDim S3300000 ![] bcast_S_S3300000 : (⟨S_, .i32⟩ : BufTy).Contents (Elt F) → (⟨S3300000, .i32⟩ : BufTy).Contents (Elt F)),
    binary main_v3 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v69 (broadcastInDim S3300000 ![] bcast_S_S3300000 : (⟨S_, .i32⟩ : BufTy).Contents (Elt F) → (⟨S3300000, .i32⟩ : BufTy).Contents (Elt F)),
    binary main_v3 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v3 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v74 (broadcastInDim S3300000x1 ![0] bcast_S3300000_S3300000x1_0 : (⟨S3300000, .f32⟩ : BufTy).Contents (Elt F) → (⟨S3300000x1, .f32⟩ : BufTy).Contents (Elt F)),
    unary main_v74 main_v75 (broadcastInDim S3300000x32 ![0, 1] bcast_S3300000x1_S3300000x32_0_1 : (⟨S3300000x1, .f32⟩ : BufTy).Contents (Elt F) → (⟨S3300000x32, .f32⟩ : BufTy).Contents (Elt F)),
    binary main_v73 main_v75 main_v76 (mulf : (⟨S3300000x32, .f32⟩ : BufTy).Contents (Elt F) → (⟨S3300000x32, .f32⟩ : BufTy).Contents (Elt F) → (⟨S3300000x32, .f32⟩ : BufTy).Contents (Elt F)),
    nullary main_cst_14 (constant S_ .f32 0x00000000#32),
    unary main_cst_14 main_v77 (broadcastInDim S100000x32 ![] bcast_S_S100000x32 : (⟨S_, .f32⟩ : BufTy).Contents (Elt F) → (⟨S100000x32, .f32⟩ : BufTy).Contents (Elt F)),
    unary main_v6 main_v78 (broadcastInDim S3300000x1 ![0] bcast_S3300000_S3300000x1_0 : (⟨S3300000, .i32⟩ : BufTy).Contents (Elt F) → (⟨S3300000x1, .i32⟩ : BufTy).Contents (Elt F)),
    ternary main_v77 main_v78 main_v76 main_v79 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg8 main_v80 (broadcastInDim S1x32 ![1] bcast_S32_S1x32_1 : (⟨S32, .f32⟩ : BufTy).Contents (Elt F) → (⟨S1x32, .f32⟩ : BufTy).Contents (Elt F)),
    unary main_v80 main_v81 (broadcastInDim S100000x32 ![0, 1] bcast_S1x32_S100000x32_0_1 : (⟨S1x32, .f32⟩ : BufTy).Contents (Elt F) → (⟨S100000x32, .f32⟩ : BufTy).Contents (Elt F)),
    binary main_v79 main_v81 main_v82 (addf : (⟨S100000x32, .f32⟩ : BufTy).Contents (Elt F) → (⟨S100000x32, .f32⟩ : BufTy).Contents (Elt F) → (⟨S100000x32, .f32⟩ : BufTy).Contents (Elt F)) ]

/-- The second branch's second layer. -/
abbrev stageE : List (HloOp τ sig (Elt F)) :=
  [ binary main_v65 main_arg9 main_v83 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_15 (constantI S_ 32 0#32),
    unary main_c_15 main_v84 (broadcastInDim S3300000 ![] bcast_S_S3300000 : (⟨S_, .i32⟩ : BufTy).Contents (Elt F) → (⟨S3300000, .i32⟩ : BufTy).Contents (Elt F)),
    binary main_v3 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v86 (broadcastInDim S3300000 ![] bcast_S_S3300000 : (⟨S_, .i32⟩ : BufTy).Contents (Elt F) → (⟨S3300000, .i32⟩ : BufTy).Contents (Elt F)),
    binary main_v3 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v3 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v83 main_v89 main_v90 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v91 (broadcastInDim S3300000x1 ![0] bcast_S3300000_S3300000x1_0 : (⟨S3300000, .f32⟩ : BufTy).Contents (Elt F) → (⟨S3300000x1, .f32⟩ : BufTy).Contents (Elt F)),
    unary main_v91 main_v92 (broadcastInDim S3300000x32 ![0, 1] bcast_S3300000x1_S3300000x32_0_1 : (⟨S3300000x1, .f32⟩ : BufTy).Contents (Elt F) → (⟨S3300000x32, .f32⟩ : BufTy).Contents (Elt F)),
    binary main_v90 main_v92 main_v93 (mulf : (⟨S3300000x32, .f32⟩ : BufTy).Contents (Elt F) → (⟨S3300000x32, .f32⟩ : BufTy).Contents (Elt F) → (⟨S3300000x32, .f32⟩ : BufTy).Contents (Elt F)),
    nullary main_cst_17 (constant S_ .f32 0x00000000#32),
    unary main_cst_17 main_v94 (broadcastInDim S100000x32 ![] bcast_S_S100000x32 : (⟨S_, .f32⟩ : BufTy).Contents (Elt F) → (⟨S100000x32, .f32⟩ : BufTy).Contents (Elt F)),
    unary main_v6 main_v95 (broadcastInDim S3300000x1 ![0] bcast_S3300000_S3300000x1_0 : (⟨S3300000, .i32⟩ : BufTy).Contents (Elt F) → (⟨S3300000x1, .i32⟩ : BufTy).Contents (Elt F)),
    ternary main_v94 main_v95 main_v93 main_v96 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg10 main_v97 (broadcastInDim S1x32 ![1] bcast_S32_S1x32_1 : (⟨S32, .f32⟩ : BufTy).Contents (Elt F) → (⟨S1x32, .f32⟩ : BufTy).Contents (Elt F)),
    unary main_v97 main_v98 (broadcastInDim S100000x32 ![0, 1] bcast_S1x32_S100000x32_0_1 : (⟨S1x32, .f32⟩ : BufTy).Contents (Elt F) → (⟨S100000x32, .f32⟩ : BufTy).Contents (Elt F)),
    binary main_v96 main_v98 main_v99 (addf : (⟨S100000x32, .f32⟩ : BufTy).Contents (Elt F) → (⟨S100000x32, .f32⟩ : BufTy).Contents (Elt F) → (⟨S100000x32, .f32⟩ : BufTy).Contents (Elt F)) ]

/-- The head before its softmax: the branches side by side, the dense product, the bias. -/
abbrev stageF1 : List (HloOp τ sig (Elt F)) :=
  [ binary main_v82 main_v99 main_v100 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v100 main_arg11 main_v101 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg12 main_v102 (broadcastInDim S1x32 ![1] bcast_S32_S1x32_1 : (⟨S32, .f32⟩ : BufTy).Contents (Elt F) → (⟨S1x32, .f32⟩ : BufTy).Contents (Elt F)),
    unary main_v102 main_v103 (broadcastInDim S100000x32 ![0, 1] bcast_S1x32_S100000x32_0_1 : (⟨S1x32, .f32⟩ : BufTy).Contents (Elt F) → (⟨S100000x32, .f32⟩ : BufTy).Contents (Elt F)),
    binary main_v101 main_v103 main_v104 (addf : (⟨S100000x32, .f32⟩ : BufTy).Contents (Elt F) → (⟨S100000x32, .f32⟩ : BufTy).Contents (Elt F) → (⟨S100000x32, .f32⟩ : BufTy).Contents (Elt F)) ]

/-- The row-wise log-softmax. -/
abbrev stageF2 : List (HloOp τ sig (Elt F)) :=
  [ TRef.nullary (TRef.of (T := ⟨S_, .f32⟩) main_call3_cst) (constant S_ .f32 0xFF800000#32),
    TRef.binary (TRef.of (T := ⟨S100000x32, .f32⟩) main_v104) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v104) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v105) subf ]

/-- The program's operations are the stages in order. -/
theorem ops_eq : (ops : List (HloOp τ sig (Elt F))) = stageA ++ (stageB ++ (stageC ++ (stageD ++ (stageE ++ (stageF1 ++ stageF2))))) := rfl

/-- The buffer contents after each stage, from the launch memory. -/
def U1 (m : (ℓ : Loc nD τ sig) → Buf (Elt F) ℓ) (c : Dev nD) : Valuation τ sig (Elt F) := StableHlo.after stageA (launchContents m c)
def U2 (m : (ℓ : Loc nD τ sig) → Buf (Elt F) ℓ) (c : Dev nD) : Valuation τ sig (Elt F) := StableHlo.after stageB (U1 m c)
def U3 (m : (ℓ : Loc nD τ sig) → Buf (Elt F) ℓ) (c : Dev nD) : Valuation τ sig (Elt F) := StableHlo.after stageC (U2 m c)
def U4 (m : (ℓ : Loc nD τ sig) → Buf (Elt F) ℓ) (c : Dev nD) : Valuation τ sig (Elt F) := StableHlo.after stageD (U3 m c)
def U5 (m : (ℓ : Loc nD τ sig) → Buf (Elt F) ℓ) (c : Dev nD) : Valuation τ sig (Elt F) := StableHlo.after stageE (U4 m c)
def U6 (m : (ℓ : Loc nD τ sig) → Buf (Elt F) ℓ) (c : Dev nD) : Valuation τ sig (Elt F) := StableHlo.after stageF1 (U5 m c)
def U7 (m : (ℓ : Loc nD τ sig) → Buf (Elt F) ℓ) (c : Dev nD) : Valuation τ sig (Elt F) := StableHlo.after stageF2 (U6 m c)

/-! ## After the first stage -/

theorem U1_arg0 (m : (ℓ : Loc nD τ sig) → Buf (Elt F) ℓ) (c : Dev nD) : U1 m c (Proc.devRef .tc main_arg0) = (m ((c.tc : Thread nD τ).loc main_arg0)) :=
  (show StableHlo.after stageA (launchContents m c) _ = launchContents m c _ from by
    simp only [stageA]; after_results_simp)

theorem U1_arg3 (m : (ℓ : Loc nD τ sig) → Buf (Elt F) ℓ) (c : Dev nD) : U1 m c (Proc.devRef .tc main_arg3) = (m ((c.tc : Thread nD τ).loc main_arg3)) :=
  (show StableHlo.after stageA (launchContents m c) _ = launchContents m c _ from by
    simp only [stageA]; after_results_simp)

theorem U1_arg4 (m : (ℓ : Loc nD τ sig) → Buf (Elt F) ℓ) (c : Dev nD) : U1 m c (Proc.devRef .tc main_arg4) = (m ((c.tc : Thread nD τ).loc main_arg4)) :=
  (show StableHlo.after stageA (launchContents m c) _ = launchContents m c _ from by
    simp only [stageA]; after_results_simp)

theorem U1_arg5 (m : (ℓ : Loc nD τ sig) → Buf (Elt F) ℓ) (c : Dev nD) : U1 m c (Proc.devRef .tc main_arg5) = (m ((c.tc : Thread nD τ).loc main_arg5)) :=
  (show StableHlo.after stageA (launchContents m c) _ = launchContents m c _ from by
    simp only [stageA]; after_results_simp)

theorem U1_arg6 (m : (ℓ : Loc nD τ sig) → Buf (Elt F) ℓ) (c : Dev nD) : U1 m c (Proc.devRef .tc main_arg6) = (m ((c.tc : Thread nD τ).loc main_arg6)) :=
  (show StableHlo.after stageA (launchContents m c) _ = launchContents m c _ from by
    simp only [stageA]; after_results_simp)

theorem U1_arg7 (m : (ℓ : Loc nD τ sig) → Buf (Elt F) ℓ) (c : Dev nD) : U1 m c (Proc.devRef .tc main_arg7) = (m ((c.tc : Thread nD τ).loc main_arg7)) :=
  (show StableHlo.after stageA (launchContents m c) _ = launchContents m c _ from by
    simp only [stageA]; after_results_simp)

theorem U1_arg8 (m : (ℓ : Loc nD τ sig) → Buf (Elt F) ℓ) (c : Dev nD) : U1 m c (Proc.devRef .tc main_arg8) = (m ((c.tc : Thread nD τ).loc main_arg8)) :=
  (show StableHlo.after stageA (launchContents m c) _ = launchContents m c _ from by
    simp only [stageA]; after_results_simp)

theorem U1_arg9 (m : (ℓ : Loc nD τ sig) → Buf (Elt F) ℓ) (c : Dev nD) : U1 m c (Proc.devRef .tc main_arg9) = (m ((c.tc : Thread nD τ).loc main_arg9)) :=
  (show StableHlo.after stageA (launchContents m c) _ = launchContents m c _ from by
    simp only [stageA]; after_results_simp)

theorem U1_arg10 (m : (ℓ : Loc nD τ sig) → Buf (Elt F) ℓ) (c : Dev nD) : U1 m c (Proc.devRef .tc main_arg10) = (m ((c.tc : Thread nD τ).loc main_arg10)) :=
  (show StableHlo.after stageA (launchContents m c) _ = launchContents m c _ from by
    simp only [stageA]; after_results_simp)

theorem U1_arg11 (m : (ℓ : Loc nD τ sig) → Buf (Elt F) ℓ) (c : Dev nD) : U1 m c (Proc.devRef .tc main_arg11) = (m ((c.tc : Thread nD τ).loc main_arg11)) :=
  (show StableHlo.after stageA (launchContents m c) _ = launchContents m c _ from by
    simp only [stageA]; after_results_simp)

theorem U1_arg12 (m : (ℓ : Loc nD τ sig) → Buf (Elt F) ℓ) (c : Dev nD) : U1 m c (Proc.devRef .tc main_arg12) = (m ((c.tc : Thread nD τ).loc main_arg12)) :=
  (show StableHlo.after stageA (launchContents m c) _ = launchContents m c _ from by
    simp only [stageA]; after_results_simp)

/-- The edges' source endpoints. -/
theorem U1_src (m : (ℓ : Loc nD τ sig) → Buf (Elt F) ℓ) (c : Dev nD) : U1 m c (Proc.devRef .tc main_v3) = (Cert.Chain.srcOf (m ((c.tc : Thread nD τ).loc main_arg1))) :=
  by
  show StableHlo.after stageA (launchContents m c) _ = _
  simp only [stageA]; after_results_simp
  all_goals rfl

/-- The edges' target endpoints. -/
theorem U1_dst (m : (ℓ : Loc nD τ sig) → Buf (Elt F) ℓ) (c : Dev nD) : U1 m c (Proc.devRef .tc main_v6) = (Cert.Chain.dstOf (m ((c.tc : Thread nD τ).loc main_arg1))) :=
  by
  show StableHlo.after stageA (launchContents m c) _ = _
  simp only [stageA]; after_results_simp
  all_goals rfl

/-- The edges' normalisations. -/
theorem U1_nrm (m : (ℓ : Loc nD τ sig) → Buf (Elt F) ℓ) (c : Dev nD) : U1 m c (Proc.devRef .tc main_v29) = (Cert.Chain.edgeNorm (Cert.Chain.srcOf (m ((c.tc : Thread nD τ).loc main_arg1))) (Cert.Chain.dstOf (m ((c.tc : Thread nD τ).loc main_arg1)))) :=
  by
  show StableHlo.after stageA (launchContents m c) _ = _
  simp only [stageA]; after_results_simp
  all_goals rfl

/-! ## After the second stage -/

theorem U2_src (m : (ℓ : Loc nD τ sig) → Buf (Elt F) ℓ) (c : Dev nD) : U2 m c (Proc.devRef .tc main_v3) = (Cert.Chain.srcOf (m ((c.tc : Thread nD τ).loc main_arg1))) :=
  (show StableHlo.after stageB (U1 m c) _ = U1 m c _ from by
    simp only [stageB]; after_results_simp).trans (U1_src m c)

theorem U2_dst (m : (ℓ : Loc nD τ sig) → Buf (Elt F) ℓ) (c : Dev nD) : U2 m c (Proc.devRef .tc main_v6) = (Cert.Chain.dstOf (m ((c.tc : Thread nD τ).loc main_arg1))) :=
  (show StableHlo.after stageB (U1 m c) _ = U1 m c _ from by
    simp only [stageB]; after_results_simp).trans (U1_dst m c)

theorem U2_nrm (m : (ℓ : Loc nD τ sig) → Buf (Elt F) ℓ) (c : Dev nD) : U2 m c (Proc.devRef .tc main_v29) = (Cert.Chain.edgeNorm (Cert.Chain.srcOf (m ((c.tc : Thread nD τ).loc main_arg1))) (Cert.Chain.dstOf (m ((c.tc : Thread nD τ).loc main_arg1)))) :=
  (show StableHlo.after stageB (U1 m c) _ = U1 m c _ from by
    simp only [stageB]; after_results_simp).trans (U1_nrm m c)

theorem U2_arg0 (m : (ℓ : Loc nD τ sig) → Buf (Elt F) ℓ) (c : Dev nD) : U2 m c (Proc.devRef .tc main_arg0) = (m ((c.tc : Thread nD τ).loc main_arg0)) :=
  (show StableHlo.after stageB (U1 m c) _ = U1 m c _ from by
    simp only [stageB]; after_results_simp).trans (U1_arg0 m c)

theorem U2_arg5 (m : (ℓ : Loc nD τ sig) → Buf (Elt F) ℓ) (c : Dev nD) : U2 m c (Proc.devRef .tc main_arg5) = (m ((c.tc : Thread nD τ).loc main_arg5)) :=
  (show StableHlo.after stageB (U1 m c) _ = U1 m c _ from by
    simp only [stageB]; after_results_simp).trans (U1_arg5 m c)

theorem U2_arg6 (m : (ℓ : Loc nD τ sig) → Buf (Elt F) ℓ) (c : Dev nD) : U2 m c (Proc.devRef .tc main_arg6) = (m ((c.tc : Thread nD τ).loc main_arg6)) :=
  (show StableHlo.after stageB (U1 m c) _ = U1 m c _ from by
    simp only [stageB]; after_results_simp).trans (U1_arg6 m c)

theorem U2_arg7 (m : (ℓ : Loc nD τ sig) → Buf (Elt F) ℓ) (c : Dev nD) : U2 m c (Proc.devRef .tc main_arg7) = (m ((c.tc : Thread nD τ).loc main_arg7)) :=
  (show StableHlo.after stageB (U1 m c) _ = U1 m c _ from by
    simp only [stageB]; after_results_simp).trans (U1_arg7 m c)

theorem U2_arg8 (m : (ℓ : Loc nD τ sig) → Buf (Elt F) ℓ) (c : Dev nD) : U2 m c (Proc.devRef .tc main_arg8) = (m ((c.tc : Thread nD τ).loc main_arg8)) :=
  (show StableHlo.after stageB (U1 m c) _ = U1 m c _ from by
    simp only [stageB]; after_results_simp).trans (U1_arg8 m c)

theorem U2_arg9 (m : (ℓ : Loc nD τ sig) → Buf (Elt F) ℓ) (c : Dev nD) : U2 m c (Proc.devRef .tc main_arg9) = (m ((c.tc : Thread nD τ).loc main_arg9)) :=
  (show StableHlo.after stageB (U1 m c) _ = U1 m c _ from by
    simp only [stageB]; after_results_simp).trans (U1_arg9 m c)

theorem U2_arg10 (m : (ℓ : Loc nD τ sig) → Buf (Elt F) ℓ) (c : Dev nD) : U2 m c (Proc.devRef .tc main_arg10) = (m ((c.tc : Thread nD τ).loc main_arg10)) :=
  (show StableHlo.after stageB (U1 m c) _ = U1 m c _ from by
    simp only [stageB]; after_results_simp).trans (U1_arg10 m c)

theorem U2_arg11 (m : (ℓ : Loc nD τ sig) → Buf (Elt F) ℓ) (c : Dev nD) : U2 m c (Proc.devRef .tc main_arg11) = (m ((c.tc : Thread nD τ).loc main_arg11)) :=
  (show StableHlo.after stageB (U1 m c) _ = U1 m c _ from by
    simp only [stageB]; after_results_simp).trans (U1_arg11 m c)

theorem U2_arg12 (m : (ℓ : Loc nD τ sig) → Buf (Elt F) ℓ) (c : Dev nD) : U2 m c (Proc.devRef .tc main_arg12) = (m ((c.tc : Thread nD τ).loc main_arg12)) :=
  (show StableHlo.after stageB (U1 m c) _ = U1 m c _ from by
    simp only [stageB]; after_results_simp).trans (U1_arg12 m c)

/-- The first branch after its first layer. -/
theorem U2_g1 (m : (ℓ : Loc nD τ sig) → Buf (Elt F) ℓ) (c : Dev nD) : U2 m c (Proc.devRef .tc main_v47) = (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg3)))) (m ((c.tc : Thread nD τ).loc main_arg4))) :=
  by
  show StableHlo.after stageB (U1 m c) _ = _
  simp only [stageB]; after_results_simp
  rw [U1_src m c, U1_dst m c, U1_nrm m c, U1_arg0 m c, U1_arg3 m c, U1_arg4 m c]
  all_goals rfl

/-! ## After the third stage -/

theorem U3_src (m : (ℓ : Loc nD τ sig) → Buf (Elt F) ℓ) (c : Dev nD) : U3 m c (Proc.devRef .tc main_v3) = (Cert.Chain.srcOf (m ((c.tc : Thread nD τ).loc main_arg1))) :=
  (show StableHlo.after stageC (U2 m c) _ = U2 m c _ from by
    simp only [stageC]; after_results_simp).trans (U2_src m c)

theorem U3_dst (m : (ℓ : Loc nD τ sig) → Buf (Elt F) ℓ) (c : Dev nD) : U3 m c (Proc.devRef .tc main_v6) = (Cert.Chain.dstOf (m ((c.tc : Thread nD τ).loc main_arg1))) :=
  (show StableHlo.after stageC (U2 m c) _ = U2 m c _ from by
    simp only [stageC]; after_results_simp).trans (U2_dst m c)

theorem U3_nrm (m : (ℓ : Loc nD τ sig) → Buf (Elt F) ℓ) (c : Dev nD) : U3 m c (Proc.devRef .tc main_v29) = (Cert.Chain.edgeNorm (Cert.Chain.srcOf (m ((c.tc : Thread nD τ).loc main_arg1))) (Cert.Chain.dstOf (m ((c.tc : Thread nD τ).loc main_arg1)))) :=
  (show StableHlo.after stageC (U2 m c) _ = U2 m c _ from by
    simp only [stageC]; after_results_simp).trans (U2_nrm m c)

theorem U3_g1 (m : (ℓ : Loc nD τ sig) → Buf (Elt F) ℓ) (c : Dev nD) : U3 m c (Proc.devRef .tc main_v47) = (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg3)))) (m ((c.tc : Thread nD τ).loc main_arg4))) :=
  (show StableHlo.after stageC (U2 m c) _ = U2 m c _ from by
    simp only [stageC]; after_results_simp).trans (U2_g1 m c)

theorem U3_arg7 (m : (ℓ : Loc nD τ sig) → Buf (Elt F) ℓ) (c : Dev nD) : U3 m c (Proc.devRef .tc main_arg7) = (m ((c.tc : Thread nD τ).loc main_arg7)) :=
  (show StableHlo.after stageC (U2 m c) _ = U2 m c _ from by
    simp only [stageC]; after_results_simp).trans (U2_arg7 m c)

theorem U3_arg8 (m : (ℓ : Loc nD τ sig) → Buf (Elt F) ℓ) (c : Dev nD) : U3 m c (Proc.devRef .tc main_arg8) = (m ((c.tc : Thread nD τ).loc main_arg8)) :=
  (show StableHlo.after stageC (U2 m c) _ = U2 m c _ from by
    simp only [stageC]; after_results_simp).trans (U2_arg8 m c)

theorem U3_arg9 (m : (ℓ : Loc nD τ sig) → Buf (Elt F) ℓ) (c : Dev nD) : U3 m c (Proc.devRef .tc main_arg9) = (m ((c.tc : Thread nD τ).loc main_arg9)) :=
  (show StableHlo.after stageC (U2 m c) _ = U2 m c _ from by
    simp only [stageC]; after_results_simp).trans (U2_arg9 m c)

theorem U3_arg10 (m : (ℓ : Loc nD τ sig) → Buf (Elt F) ℓ) (c : Dev nD) : U3 m c (Proc.devRef .tc main_arg10) = (m ((c.tc : Thread nD τ).loc main_arg10)) :=
  (show StableHlo.after stageC (U2 m c) _ = U2 m c _ from by
    simp only [stageC]; after_results_simp).trans (U2_arg10 m c)

theorem U3_arg11 (m : (ℓ : Loc nD τ sig) → Buf (Elt F) ℓ) (c : Dev nD) : U3 m c (Proc.devRef .tc main_arg11) = (m ((c.tc : Thread nD τ).loc main_arg11)) :=
  (show StableHlo.after stageC (U2 m c) _ = U2 m c _ from by
    simp only [stageC]; after_results_simp).trans (U2_arg11 m c)

theorem U3_arg12 (m : (ℓ : Loc nD τ sig) → Buf (Elt F) ℓ) (c : Dev nD) : U3 m c (Proc.devRef .tc main_arg12) = (m ((c.tc : Thread nD τ).loc main_arg12)) :=
  (show StableHlo.after stageC (U2 m c) _ = U2 m c _ from by
    simp only [stageC]; after_results_simp).trans (U2_arg12 m c)

/-- The second branch after its first layer. -/
theorem U3_h1 (m : (ℓ : Loc nD τ sig) → Buf (Elt F) ℓ) (c : Dev nD) : U3 m c (Proc.devRef .tc main_v65) = (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg5)))) (m ((c.tc : Thread nD τ).loc main_arg6))) :=
  by
  show StableHlo.after stageC (U2 m c) _ = _
  simp only [stageC]; after_results_simp
  rw [U2_src m c, U2_dst m c, U2_nrm m c, U2_arg0 m c, U2_arg5 m c, U2_arg6 m c]
  all_goals rfl

/-! ## After the fourth stage -/

theorem U4_src (m : (ℓ : Loc nD τ sig) → Buf (Elt F) ℓ) (c : Dev nD) : U4 m c (Proc.devRef .tc main_v3) = (Cert.Chain.srcOf (m ((c.tc : Thread nD τ).loc main_arg1))) :=
  (show StableHlo.after stageD (U3 m c) _ = U3 m c _ from by
    simp only [stageD]; after_results_simp).trans (U3_src m c)

theorem U4_dst (m : (ℓ : Loc nD τ sig) → Buf (Elt F) ℓ) (c : Dev nD) : U4 m c (Proc.devRef .tc main_v6) = (Cert.Chain.dstOf (m ((c.tc : Thread nD τ).loc main_arg1))) :=
  (show StableHlo.after stageD (U3 m c) _ = U3 m c _ from by
    simp only [stageD]; after_results_simp).trans (U3_dst m c)

theorem U4_nrm (m : (ℓ : Loc nD τ sig) → Buf (Elt F) ℓ) (c : Dev nD) : U4 m c (Proc.devRef .tc main_v29) = (Cert.Chain.edgeNorm (Cert.Chain.srcOf (m ((c.tc : Thread nD τ).loc main_arg1))) (Cert.Chain.dstOf (m ((c.tc : Thread nD τ).loc main_arg1)))) :=
  (show StableHlo.after stageD (U3 m c) _ = U3 m c _ from by
    simp only [stageD]; after_results_simp).trans (U3_nrm m c)

theorem U4_h1 (m : (ℓ : Loc nD τ sig) → Buf (Elt F) ℓ) (c : Dev nD) : U4 m c (Proc.devRef .tc main_v65) = (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg5)))) (m ((c.tc : Thread nD τ).loc main_arg6))) :=
  (show StableHlo.after stageD (U3 m c) _ = U3 m c _ from by
    simp only [stageD]; after_results_simp).trans (U3_h1 m c)

theorem U4_arg9 (m : (ℓ : Loc nD τ sig) → Buf (Elt F) ℓ) (c : Dev nD) : U4 m c (Proc.devRef .tc main_arg9) = (m ((c.tc : Thread nD τ).loc main_arg9)) :=
  (show StableHlo.after stageD (U3 m c) _ = U3 m c _ from by
    simp only [stageD]; after_results_simp).trans (U3_arg9 m c)

theorem U4_arg10 (m : (ℓ : Loc nD τ sig) → Buf (Elt F) ℓ) (c : Dev nD) : U4 m c (Proc.devRef .tc main_arg10) = (m ((c.tc : Thread nD τ).loc main_arg10)) :=
  (show StableHlo.after stageD (U3 m c) _ = U3 m c _ from by
    simp only [stageD]; after_results_simp).trans (U3_arg10 m c)

theorem U4_arg11 (m : (ℓ : Loc nD τ sig) → Buf (Elt F) ℓ) (c : Dev nD) : U4 m c (Proc.devRef .tc main_arg11) = (m ((c.tc : Thread nD τ).loc main_arg11)) :=
  (show StableHlo.after stageD (U3 m c) _ = U3 m c _ from by
    simp only [stageD]; after_results_simp).trans (U3_arg11 m c)

theorem U4_arg12 (m : (ℓ : Loc nD τ sig) → Buf (Elt F) ℓ) (c : Dev nD) : U4 m c (Proc.devRef .tc main_arg12) = (m ((c.tc : Thread nD τ).loc main_arg12)) :=
  (show StableHlo.after stageD (U3 m c) _ = U3 m c _ from by
    simp only [stageD]; after_results_simp).trans (U3_arg12 m c)

/-- The first branch after its second layer. -/
theorem U4_g2 (m : (ℓ : Loc nD τ sig) → Buf (Elt F) ℓ) (c : Dev nD) : U4 m c (Proc.devRef .tc main_v82) = (addf (Cert.Chain.agg32 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm2 (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg3)))) (m ((c.tc : Thread nD τ).loc main_arg4))) (m ((c.tc : Thread nD τ).loc main_arg7)))) (Cert.Chain.bias32 (m ((c.tc : Thread nD τ).loc main_arg8)))) :=
  by
  show StableHlo.after stageD (U3 m c) _ = _
  simp only [stageD]; after_results_simp
  rw [U3_src m c, U3_dst m c, U3_nrm m c, U3_g1 m c, U3_arg7 m c, U3_arg8 m c]
  all_goals rfl

/-! ## After the fifth stage -/

theorem U5_g2 (m : (ℓ : Loc nD τ sig) → Buf (Elt F) ℓ) (c : Dev nD) : U5 m c (Proc.devRef .tc main_v82) = (addf (Cert.Chain.agg32 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm2 (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg3)))) (m ((c.tc : Thread nD τ).loc main_arg4))) (m ((c.tc : Thread nD τ).loc main_arg7)))) (Cert.Chain.bias32 (m ((c.tc : Thread nD τ).loc main_arg8)))) :=
  (show StableHlo.after stageE (U4 m c) _ = U4 m c _ from by
    simp only [stageE]; after_results_simp).trans (U4_g2 m c)

theorem U5_arg11 (m : (ℓ : Loc nD τ sig) → Buf (Elt F) ℓ) (c : Dev nD) : U5 m c (Proc.devRef .tc main_arg11) = (m ((c.tc : Thread nD τ).loc main_arg11)) :=
  (show StableHlo.after stageE (U4 m c) _ = U4 m c _ from by
    simp only [stageE]; after_results_simp).trans (U4_arg11 m c)

theorem U5_arg12 (m : (ℓ : Loc nD τ sig) → Buf (Elt F) ℓ) (c : Dev nD) : U5 m c (Proc.devRef .tc main_arg12) = (m ((c.tc : Thread nD τ).loc main_arg12)) :=
  (show StableHlo.after stageE (U4 m c) _ = U4 m c _ from by
    simp only [stageE]; after_results_simp).trans (U4_arg12 m c)

/-- The second branch after its second layer. -/
theorem U5_h2 (m : (ℓ : Loc nD τ sig) → Buf (Elt F) ℓ) (c : Dev nD) : U5 m c (Proc.devRef .tc main_v99) = (addf (Cert.Chain.agg32 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm2 (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg5)))) (m ((c.tc : Thread nD τ).loc main_arg6))) (m ((c.tc : Thread nD τ).loc main_arg9)))) (Cert.Chain.bias32 (m ((c.tc : Thread nD τ).loc main_arg10)))) :=
  by
  show StableHlo.after stageE (U4 m c) _ = _
  simp only [stageE]; after_results_simp
  rw [U4_src m c, U4_dst m c, U4_nrm m c, U4_h1 m c, U4_arg9 m c, U4_arg10 m c]
  all_goals rfl

/-! ## The result -/

/-- The head before its softmax: the two branches side by side times the head's weights, plus its bias. -/
theorem U6_pre (m : (ℓ : Loc nD τ sig) → Buf (Elt F) ℓ) (c : Dev nD) : U6 m c (Proc.devRef .tc main_v104) = (addf (Cert.Chain.mm2 (Cert.Chain.cat (addf (Cert.Chain.agg32 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm2 (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg3)))) (m ((c.tc : Thread nD τ).loc main_arg4))) (m ((c.tc : Thread nD τ).loc main_arg7)))) (Cert.Chain.bias32 (m ((c.tc : Thread nD τ).loc main_arg8)))) (addf (Cert.Chain.agg32 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm2 (Cert.Chain.reluBias (Cert.Chain.agg64 (Cert.Chain.srcOf (m ((c.tc : Thread nD τ).loc main_arg1))) (Cert.Chain.dstOf (m ((c.tc : Thread nD τ).loc main_arg1))) (Cert.Chain.edgeNorm (Cert.Chain.srcOf (m ((c.tc : Thread nD τ).loc main_arg1))) (Cert.Chain.dstOf (m ((c.tc : Thread nD τ).loc main_arg1)))) (Cert.Chain.mm1 (m ((c.tc : Thread nD τ).loc main_arg0)) (m ((c.tc : Thread nD τ).loc main_arg5)))) (m ((c.tc : Thread nD τ).loc main_arg6))) (m ((c.tc : Thread nD τ).loc main_arg9)))) (Cert.Chain.bias32 (m ((c.tc : Thread nD τ).loc main_arg10))))) (m ((c.tc : Thread nD τ).loc main_arg11))) (Cert.Chain.bias32 (m ((c.tc : Thread nD τ).loc main_arg12)))) :=
  by
  show StableHlo.after stageF1 (U5 m c) _ = _
  simp only [stageF1]; after_results_simp
  rw [U5_g2 m c, U5_h2 m c, U5_arg11 m c, U5_arg12 m c]
  all_goals rfl

end Cert.ReferenceIdeal.RefStages

end
-- ==== Proof.RefValue.lean ====
import proofs.«175872_j37838661877984_1_alg».proof.Proof.RefStages

/-!
The reference program's run: its result buffer ends at the network of the chain module applied to its arguments.

The last stage applies the row-wise log-softmax to what the stages before left, which is the head's dense product plus
its bias; so the result buffer holds the network of the arguments. No operation writes an argument buffer, so every
argument ends as launched.
-/

set_option maxRecDepth 16384

noncomputable section

namespace Cert.ReferenceIdeal.RefValue

open Cert.ReferenceIdeal Cert.ReferenceIdeal.Gen Cert.ReferenceIdeal.Value Cert.ReferenceIdeal.RefStages
open Idealize.ShloMosaic Idealize.ShloMosaic.TcCoe Idealize.SL.Sem Idealize.ShloMosaic.StableHlo

variable {F : FTy → Type} [FloatOps F]

/-! ## The softmax call's buffers

The softmax is an outlined function of the reference; each of its values lives in a buffer whose element type and shape
are the value's, so moving a value into its buffer and back is the identity. -/

theorem toBuf_main_v104 (v : (⟨S100000x32, .f32⟩ : BufTy).Contents (Elt F)) :
    (TRef.of (T := ⟨S100000x32, .f32⟩) main_v104).toBuf v = v := eq_of_heq (cast_heq _ _)
theorem ofBuf_main_v104 (v : (⟨S100000x32, .f32⟩ : BufTy).Contents (Elt F)) :
    (TRef.of (T := ⟨S100000x32, .f32⟩) main_v104).ofBuf v = v := eq_of_heq (cast_heq _ _)
theorem toBuf_main_call3_cst (v : (⟨S_, .f32⟩ : BufTy).Contents (Elt F)) :
    (TRef.of (T := ⟨S_, .f32⟩) main_call3_cst).toBuf v = v := eq_of_heq (cast_heq _ _)
theorem ofBuf_main_call3_cst (v : (⟨S_, .f32⟩ : BufTy).Contents (Elt F)) :
    (TRef.of (T := ⟨S_, .f32⟩) main_call3_cst).ofBuf v = v := eq_of_heq (cast_heq _ _)
theorem toBuf_main_call3_v0 (v : (⟨S100000, .f32⟩ : BufTy).Contents (Elt F)) :
    (TRef.of (T := ⟨S100000, .f32⟩) main_call3_v0).toBuf v = v := eq_of_heq (cast_heq _ _)
theorem ofBuf_main_call3_v0 (v : (⟨S100000, .f32⟩ : BufTy).Contents (Elt F)) :
    (TRef.of (T := ⟨S100000, .f32⟩) main_call3_v0).ofBuf v = v := eq_of_heq (cast_heq _ _)
theorem toBuf_main_call3_cst_0 (v : (⟨S_, .f32⟩ : BufTy).Contents (Elt F)) :
    (TRef.of (T := ⟨S_, .f32⟩) main_call3_cst_0).toBuf v = v := eq_of_heq (cast_heq _ _)
theorem ofBuf_main_call3_cst_0 (v : (⟨S_, .f32⟩ : BufTy).Contents (Elt F)) :
    (TRef.of (T := ⟨S_, .f32⟩) main_call3_cst_0).ofBuf v = v := eq_of_heq (cast_heq _ _)
theorem toBuf_main_call3_v1 (v : (⟨S100000, .f32⟩ : BufTy).Contents (Elt F)) :
    (TRef.of (T := ⟨S100000, .f32⟩) main_call3_v1).toBuf v = v := eq_of_heq (cast_heq _ _)
theorem ofBuf_main_call3_v1 (v : (⟨S100000, .f32⟩ : BufTy).Contents (Elt F)) :
    (TRef.of (T := ⟨S100000, .f32⟩) main_call3_v1).ofBuf v = v := eq_of_heq (cast_heq _ _)
theorem toBuf_main_call3_v2 (v : (⟨S100000, .f32⟩ : BufTy).Contents (Elt F)) :
    (TRef.of (T := ⟨S100000, .f32⟩) main_call3_v2).toBuf v = v := eq_of_heq (cast_heq _ _)
theorem ofBuf_main_call3_v2 (v : (⟨S100000, .f32⟩ : BufTy).Contents (Elt F)) :
    (TRef.of (T := ⟨S100000, .f32⟩) main_call3_v2).ofBuf v = v := eq_of_heq (cast_heq _ _)
theorem toBuf_main_call3_v3 (v : (⟨S100000x1, .f32⟩ : BufTy).Contents (Elt F)) :
    (TRef.of (T := ⟨S100000x1, .f32⟩) main_call3_v3).toBuf v = v := eq_of_heq (cast_heq _ _)
theorem ofBuf_main_call3_v3 (v : (⟨S100000x1, .f32⟩ : BufTy).Contents (Elt F)) :
    (TRef.of (T := ⟨S100000x1, .f32⟩) main_call3_v3).ofBuf v = v := eq_of_heq (cast_heq _ _)
theorem toBuf_main_call3_v4 (v : (⟨S100000x32, .f32⟩ : BufTy).Contents (Elt F)) :
    (TRef.of (T := ⟨S100000x32, .f32⟩) main_call3_v4).toBuf v = v := eq_of_heq (cast_heq _ _)
theorem ofBuf_main_call3_v4 (v : (⟨S100000x32, .f32⟩ : BufTy).Contents (Elt F)) :
    (TRef.of (T := ⟨S100000x32, .f32⟩) main_call3_v4).ofBuf v = v := eq_of_heq (cast_heq _ _)
theorem toBuf_main_call3_v5 (v : (⟨S100000x32, .f32⟩ : BufTy).Contents (Elt F)) :
    (TRef.of (T := ⟨S100000x32, .f32⟩) main_call3_v5).toBuf v = v := eq_of_heq (cast_heq _ _)
theorem ofBuf_main_call3_v5 (v : (⟨S100000x32, .f32⟩ : BufTy).Contents (Elt F)) :
    (TRef.of (T := ⟨S100000x32, .f32⟩) main_call3_v5).ofBuf v = v := eq_of_heq (cast_heq _ _)
theorem toBuf_main_call3_v6 (v : (⟨S100000x32, .f32⟩ : BufTy).Contents (Elt F)) :
    (TRef.of (T := ⟨S100000x32, .f32⟩) main_call3_v6).toBuf v = v := eq_of_heq (cast_heq _ _)
theorem ofBuf_main_call3_v6 (v : (⟨S100000x32, .f32⟩ : BufTy).Contents (Elt F)) :
    (TRef.of (T := ⟨S100000x32, .f32⟩) main_call3_v6).ofBuf v = v := eq_of_heq (cast_heq _ _)
theorem toBuf_main_call3_cst_1 (v : (⟨S_, .f32⟩ : BufTy).Contents (Elt F)) :
    (TRef.of (T := ⟨S_, .f32⟩) main_call3_cst_1).toBuf v = v := eq_of_heq (cast_heq _ _)
theorem ofBuf_main_call3_cst_1 (v : (⟨S_, .f32⟩ : BufTy).Contents (Elt F)) :
    (TRef.of (T := ⟨S_, .f32⟩) main_call3_cst_1).ofBuf v = v := eq_of_heq (cast_heq _ _)
theorem toBuf_main_call3_v7 (v : (⟨S100000, .f32⟩ : BufTy).Contents (Elt F)) :
    (TRef.of (T := ⟨S100000, .f32⟩) main_call3_v7).toBuf v = v := eq_of_heq (cast_heq _ _)
theorem ofBuf_main_call3_v7 (v : (⟨S100000, .f32⟩ : BufTy).Contents (Elt F)) :
    (TRef.of (T := ⟨S100000, .f32⟩) main_call3_v7).ofBuf v = v := eq_of_heq (cast_heq _ _)
theorem toBuf_main_call3_v8 (v : (⟨S100000x1, .f32⟩ : BufTy).Contents (Elt F)) :
    (TRef.of (T := ⟨S100000x1, .f32⟩) main_call3_v8).toBuf v = v := eq_of_heq (cast_heq _ _)
theorem ofBuf_main_call3_v8 (v : (⟨S100000x1, .f32⟩ : BufTy).Contents (Elt F)) :
    (TRef.of (T := ⟨S100000x1, .f32⟩) main_call3_v8).ofBuf v = v := eq_of_heq (cast_heq _ _)
theorem toBuf_main_call3_v9 (v : (⟨S100000x1, .f32⟩ : BufTy).Contents (Elt F)) :
    (TRef.of (T := ⟨S100000x1, .f32⟩) main_call3_v9).toBuf v = v := eq_of_heq (cast_heq _ _)
theorem ofBuf_main_call3_v9 (v : (⟨S100000x1, .f32⟩ : BufTy).Contents (Elt F)) :
    (TRef.of (T := ⟨S100000x1, .f32⟩) main_call3_v9).ofBuf v = v := eq_of_heq (cast_heq _ _)
theorem toBuf_main_call3_v10 (v : (⟨S100000x32, .f32⟩ : BufTy).Contents (Elt F)) :
    (TRef.of (T := ⟨S100000x32, .f32⟩) main_call3_v10).toBuf v = v := eq_of_heq (cast_heq _ _)
theorem ofBuf_main_call3_v10 (v : (⟨S100000x32, .f32⟩ : BufTy).Contents (Elt F)) :
    (TRef.of (T := ⟨S100000x32, .f32⟩) main_call3_v10).ofBuf v = v := eq_of_heq (cast_heq _ _)
theorem toBuf_main_v105 (v : (⟨S100000x32, .f32⟩ : BufTy).Contents (Elt F)) :
    (TRef.of (T := ⟨S100000x32, .f32⟩) main_v105).toBuf v = v := eq_of_heq (cast_heq _ _)
theorem ofBuf_main_v105 (v : (⟨S100000x32, .f32⟩ : BufTy).Contents (Elt F)) :
    (TRef.of (T := ⟨S100000x32, .f32⟩) main_v105).ofBuf v = v := eq_of_heq (cast_heq _ _)

/-- The result buffer after the last stage: the row-wise log-softmax of what the stage before left. -/
theorem U7_out (m : (ℓ : Loc nD τ sig) → Buf (Elt F) ℓ) (c : Dev nD) :
    U7 m c (Proc.devRef .tc main_v105) = Cert.Chain.logSoftmax (F := F) (U6 m c (Proc.devRef .tc main_v104)) := by
  show StableHlo.after stageF2 (U6 m c) _ = _
  simp only [stageF2]; after_results_simp
  generalize U6 m c (Proc.devRef .tc main_v104) = X
  simp only [toBuf_main_v104, ofBuf_main_v104, toBuf_main_call3_cst, ofBuf_main_call3_cst, toBuf_main_call3_v0, ofBuf_main_call3_v0, toBuf_main_call3_cst_0, ofBuf_main_call3_cst_0, toBuf_main_call3_v1, ofBuf_main_call3_v1, toBuf_main_call3_v2, ofBuf_main_call3_v2, toBuf_main_call3_v3, ofBuf_main_call3_v3, toBuf_main_call3_v4, ofBuf_main_call3_v4, toBuf_main_call3_v5, ofBuf_main_call3_v5, toBuf_main_call3_v6, ofBuf_main_call3_v6, toBuf_main_call3_cst_1, ofBuf_main_call3_cst_1, toBuf_main_call3_v7, ofBuf_main_call3_v7, toBuf_main_call3_v8, ofBuf_main_call3_v8, toBuf_main_call3_v9, ofBuf_main_call3_v9, toBuf_main_call3_v10, ofBuf_main_call3_v10, toBuf_main_v105, ofBuf_main_v105]
  rfl

/-- The result buffer after the whole program holds the network of the arguments. -/
theorem result_eq (m : (ℓ : Loc nD τ sig) → Buf (Elt F) ℓ) (c : Dev nD) :
    StableHlo.after (ops : List (HloOp τ sig (Elt F))) (launchContents m c) (Proc.devRef .tc main_v105)
      = Cert.Chain.network (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_eq, after_append, after_append, after_append, after_append, after_append, after_append]
  refine (U7_out m c).trans ?_
  rw [U6_pre m c]
  rfl

/-! ## No operation writes an argument -/

/-- A buffer none of the program's operations writes holds its launch contents at the end. -/
macro "unwritten" : tactic => `(tactic| (
  refine (StableHlo.after_of_forall_not_mem _ _ (List.forall_iff_forall_mem.mp ?_)).trans rfl
  simp only [ops, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem kept_arg0 (m : (ℓ : Loc nD τ sig) → Buf (Elt F) ℓ) (c : Dev nD) :
    StableHlo.after (ops : List (HloOp τ sig (Elt F))) (launchContents m c) (Proc.devRef .tc main_arg0) = m ((c.tc : Thread nD τ).loc main_arg0) := by unwritten
theorem kept_arg1 (m : (ℓ : Loc nD τ sig) → Buf (Elt F) ℓ) (c : Dev nD) :
    StableHlo.after (ops : List (HloOp τ sig (Elt F))) (launchContents m c) (Proc.devRef .tc main_arg1) = m ((c.tc : Thread nD τ).loc main_arg1) := by unwritten
theorem kept_arg2 (m : (ℓ : Loc nD τ sig) → Buf (Elt F) ℓ) (c : Dev nD) :
    StableHlo.after (ops : List (HloOp τ sig (Elt F))) (launchContents m c) (Proc.devRef .tc main_arg2) = m ((c.tc : Thread nD τ).loc main_arg2) := by unwritten
theorem kept_arg3 (m : (ℓ : Loc nD τ sig) → Buf (Elt F) ℓ) (c : Dev nD) :
    StableHlo.after (ops : List (HloOp τ sig (Elt F))) (launchContents m c) (Proc.devRef .tc main_arg3) = m ((c.tc : Thread nD τ).loc main_arg3) := by unwritten
theorem kept_arg4 (m : (ℓ : Loc nD τ sig) → Buf (Elt F) ℓ) (c : Dev nD) :
    StableHlo.after (ops : List (HloOp τ sig (Elt F))) (launchContents m c) (Proc.devRef .tc main_arg4) = m ((c.tc : Thread nD τ).loc main_arg4) := by unwritten
theorem kept_arg5 (m : (ℓ : Loc nD τ sig) → Buf (Elt F) ℓ) (c : Dev nD) :
    StableHlo.after (ops : List (HloOp τ sig (Elt F))) (launchContents m c) (Proc.devRef .tc main_arg5) = m ((c.tc : Thread nD τ).loc main_arg5) := by unwritten
theorem kept_arg6 (m : (ℓ : Loc nD τ sig) → Buf (Elt F) ℓ) (c : Dev nD) :
    StableHlo.after (ops : List (HloOp τ sig (Elt F))) (launchContents m c) (Proc.devRef .tc main_arg6) = m ((c.tc : Thread nD τ).loc main_arg6) := by unwritten
theorem kept_arg7 (m : (ℓ : Loc nD τ sig) → Buf (Elt F) ℓ) (c : Dev nD) :
    StableHlo.after (ops : List (HloOp τ sig (Elt F))) (launchContents m c) (Proc.devRef .tc main_arg7) = m ((c.tc : Thread nD τ).loc main_arg7) := by unwritten
theorem kept_arg8 (m : (ℓ : Loc nD τ sig) → Buf (Elt F) ℓ) (c : Dev nD) :
    StableHlo.after (ops : List (HloOp τ sig (Elt F))) (launchContents m c) (Proc.devRef .tc main_arg8) = m ((c.tc : Thread nD τ).loc main_arg8) := by unwritten
theorem kept_arg9 (m : (ℓ : Loc nD τ sig) → Buf (Elt F) ℓ) (c : Dev nD) :
    StableHlo.after (ops : List (HloOp τ sig (Elt F))) (launchContents m c) (Proc.devRef .tc main_arg9) = m ((c.tc : Thread nD τ).loc main_arg9) := by unwritten
theorem kept_arg10 (m : (ℓ : Loc nD τ sig) → Buf (Elt F) ℓ) (c : Dev nD) :
    StableHlo.after (ops : List (HloOp τ sig (Elt F))) (launchContents m c) (Proc.devRef .tc main_arg10) = m ((c.tc : Thread nD τ).loc main_arg10) := by unwritten
theorem kept_arg11 (m : (ℓ : Loc nD τ sig) → Buf (Elt F) ℓ) (c : Dev nD) :
    StableHlo.after (ops : List (HloOp τ sig (Elt F))) (launchContents m c) (Proc.devRef .tc main_arg11) = m ((c.tc : Thread nD τ).loc main_arg11) := by unwritten
theorem kept_arg12 (m : (ℓ : Loc nD τ sig) → Buf (Elt F) ℓ) (c : Dev nD) :
    StableHlo.after (ops : List (HloOp τ sig (Elt F))) (launchContents m c) (Proc.devRef .tc main_arg12) = m ((c.tc : Thread nD τ).loc main_arg12) := by unwritten

/-- The reference's run, read: the result buffer at the network of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = Cert.Chain.network (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v105).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c)⟩)
    (run_seq scopedRefs_eq scopedSems_eq defs main (fun _ => ops) main_eq (fun _ => ops_sub) m ρ)

end Cert.ReferenceIdeal.RefValue

end
-- ==== Proof.lean ====
import proofs.«175872_j37838661877984_1_alg».proof.Defs
import proofs.«175872_j37838661877984_1_alg».proof.Proof.Gen.Kernel
import proofs.«175872_j37838661877984_1_alg».proof.Proof.Gen.Kernel.Frame
import proofs.«175872_j37838661877984_1_alg».proof.Proof.Gen.KernelIdeal
import proofs.«175872_j37838661877984_1_alg».proof.Proof.Gen.KernelIdeal.Frame
import proofs.«175872_j37838661877984_1_alg».proof.Proof.Gen.ReferenceIdeal
import proofs.«175872_j37838661877984_1_alg».proof.Proof.Gen.Pre_finite_inputs
import proofs.«175872_j37838661877984_1_alg».proof.Proof.KernelValue
import proofs.«175872_j37838661877984_1_alg».proof.Proof.RefValue

/-!
A two-branch, two-layer graph convolution with a linear head and a row-wise log-softmax, computed by three grid sweeps
with the message passing between them on the host, against the same network written as one straight line of host
operations.

At the extended reals both programs compute one function of the arguments, the network of the chain module. The dense
products are tiled by blocks of 10000 rows in the kernel and whole in the reference: a row of a product depends on that
row of the left factor only, so the blocks' rows are the whole product's rows. The message passing (gathers and
scatter-additions over the edge list) is the same operations on both sides and is carried unopened. The head multiplies
the two branches side by side by one 64-row matrix in the reference and each branch by its 32-row half in the kernel:
a sum over 64 terms split into its first and last 32, which holds in any commutative monoid, so no input needs to be
finite. The kernel's stated idealization rewrites nothing, so that conjunct is trivial; the three frame conjuncts are
the two generated frame certificates and the reference's run with its result dropped.
-/

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- From memories that agree on the arguments both programs end with the result buffer at the network of the arguments. -/
theorem algebraic : Cert.algebraic_KernelIdeal_ReferenceIdeal := by
  intro m ρ m' ρ' _ hagree
  refine ⟨fun c => Cert.Chain.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.Hand.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, -, e3, e4, e5, e6, e7, e8, e9, e10, e11, e12⟩ := hagree c
  rw [e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
